-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2 : Shape := ⟨2, ![8192, 2]⟩
abbrev S10000x10000 : Shape := ⟨2, ![10000, 10000]⟩
abbrev S10000x256 : Shape := ⟨2, ![10000, 256]⟩
abbrev S512x1025 : Shape := ⟨2, ![512, 1025]⟩
abbrev S1025 : Shape := ⟨1, ![1025]⟩
abbrev S1025x2 : Shape := ⟨2, ![1025, 2]⟩
abbrev S2 : Shape := ⟨1, ![2]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S512x1025 : S_.BroadcastsInDim S512x1025 (![] : Fin 0 → Fin S512x1025.rank)
  reducesTo_S512x1025_S_d0_1 : S512x1025.ReducesTo [0, 1] S_
  bcast_S_S1025 : S_.BroadcastsInDim S1025 (![] : Fin 0 → Fin S1025.rank)
  reducesTo_S1025_S_d0 : S1025.ReducesTo [0] S_
  bcast_S_S1025x2 : S_.BroadcastsInDim S1025x2 (![] : Fin 0 → Fin S1025x2.rank)
  reducesTo_S1025x2_S_d0_1 : S1025x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S1025x2 .f32) (main_arg6 : FVec F S2 .f32) (main_v13 : IVec S_ 1) (main_v16 : IVec S1025 1) : IVec S_ 1 :=
  let main_c_5 : IVec S_ 1 := constantI S_ 1 1#1
  let main_v17 : IVec S_ 1 := (fun x v => Host.reduce IntOp.andi x v reducesTo_S1025_S_d0 h_S_) main_v16 main_c_5
  let main_v18 : IVec S_ 1 := andi main_v13 main_v17
  let main_v19 : FVec F S1025x2 .f32 := Host.absf main_arg5
  let main_cst_6 : FVec F S_ .f32 := constant S_ .f32 0x7F800000#32
  let main_v20 : FVec F S1025x2 .f32 := broadcastInDim S1025x2 ![] bcast_S_S1025x2 main_cst_6
  let main_v21 : IVec S1025x2 1 := cmpf .olt main_v19 main_v20
  let main_c_7 : IVec S_ 1 := constantI S_ 1 1#1
  let main_v22 : IVec S_ 1 := (fun x v => Host.reduce IntOp.andi x v reducesTo_S1025x2_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : IVec S8192x2 32) (main_arg1 : FVec F S10000x10000 .f32) (main_arg2 : FVec F S10000x256 .f32) (main_arg3 : FVec F S512x1025 .f32) (main_arg4 : FVec F S1025 .f32) (main_arg5 : FVec F S1025x2 .f32) (main_arg6 : FVec F S2 .f32) : IVec S_ 1 :=
  let main_v0 : FVec F S10000x10000 .f32 := Host.absf main_arg1
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x256 .f32 := Host.absf main_arg2
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S512x1025 .f32 := Host.absf main_arg3
  let main_cst_2 : FVec F S_ .f32 := constant S_ .f32 0x7F800000#32
  let main_v10 : FVec F S512x1025 .f32 := broadcastInDim S512x1025 ![] bcast_S_S512x1025 main_cst_2
  let main_v11 : IVec S512x1025 1 := cmpf .olt main_v9 main_v10
  let main_c_3 : IVec S_ 1 := constantI S_ 1 1#1
  let main_v12 : IVec S_ 1 := (fun x v => Host.reduce IntOp.andi x v reducesTo_S512x1025_S_d0_1 h_S_) main_v11 main_c_3
  let main_v13 : IVec S_ 1 := andi main_v8 main_v12
  let main_v14 : FVec F S1025 .f32 := Host.absf main_arg4
  let main_cst_4 : FVec F S_ .f32 := constant S_ .f32 0x7F800000#32
  let main_v15 : FVec F S1025 .f32 := broadcastInDim S1025 ![] bcast_S_S1025 main_cst_4
  let main_v16 : IVec S1025 1 := cmpf .olt main_v14 main_v15
  fn_part1 (F := F) main_arg5 main_arg6 main_v13 main_v16
-- ==== Kernel.lean ====
abbrev S8192x2 : Shape := ⟨2, ![8192, 2]⟩
abbrev S10000x10000 : Shape := ⟨2, ![10000, 10000]⟩
abbrev S10000x256 : Shape := ⟨2, ![10000, 256]⟩
abbrev S512x1025 : Shape := ⟨2, ![512, 1025]⟩
abbrev S1025 : Shape := ⟨1, ![1025]⟩
abbrev S1025x2 : Shape := ⟨2, ![1025, 2]⟩
abbrev S2 : Shape := ⟨1, ![2]⟩
abbrev S16384 : Shape := ⟨1, ![16384]⟩
abbrev S10000x16 : Shape := ⟨2, ![10000, 16]⟩
abbrev S16x256 : Shape := ⟨2, ![16, 256]⟩
abbrev S1000x1664 : Shape := ⟨2, ![1000, 1664]⟩
abbrev S1664x256 : Shape := ⟨2, ![1664, 256]⟩
abbrev S1000x256 : Shape := ⟨2, ![1000, 256]⟩
abbrev S_ : Shape := ⟨0, ![]⟩
abbrev S16384x1 : Shape := ⟨2, ![16384, 1]⟩
abbrev S16384x256 : Shape := ⟨2, ![16384, 256]⟩
abbrev S8192x512 : Shape := ⟨2, ![8192, 512]⟩
abbrev S512x1152 : Shape := ⟨2, ![512, 1152]⟩
abbrev S1152 : Shape := ⟨1, ![1152]⟩
abbrev S1152x2 : Shape := ⟨2, ![1152, 2]⟩
abbrev S1x1152 : Shape := ⟨2, ![1, 1152]⟩
abbrev S1x2 : Shape := ⟨2, ![1, 2]⟩
abbrev S2048x512 : Shape := ⟨2, ![2048, 512]⟩
abbrev S2048x2 : Shape := ⟨2, ![2048, 2]⟩
abbrev S2048x1152 : Shape := ⟨2, ![2048, 1152]⟩

abbrev nBuf : Space → Nat
  | .hbm => 37
  | .vmem => 19
  | .smem => 0
  | _ => 0

abbrev bufTy : (tb : Table) → Fin (tcTables nBuf tb) → BufTy
  | .hbm, ⟨0, _⟩ => ⟨S8192x2, .i32⟩
  | .hbm, ⟨1, _⟩ => ⟨S10000x10000, .f32⟩
  | .hbm, ⟨2, _⟩ => ⟨S10000x256, .f32⟩
  | .hbm, ⟨3, _⟩ => ⟨S512x1025, .f32⟩
  | .hbm, ⟨4, _⟩ => ⟨S1025, .f32⟩
  | .hbm, ⟨5, _⟩ => ⟨S1025x2, .f32⟩
  | .hbm, ⟨6, _⟩ => ⟨S2, .f32⟩
  | .hbm, ⟨7, _⟩ => ⟨S16384, .i32⟩
  | .hbm, ⟨8, _⟩ => ⟨S10000x16, .f32⟩
  | .hbm, ⟨9, _⟩ => ⟨S16x256, .f32⟩
  | .hbm, ⟨10, _⟩ => ⟨S10000x256, .f32⟩
  | .hbm, ⟨11, _⟩ => ⟨S10000x256, .f32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S16384x256, .f32⟩
  | .hbm, ⟨21, _⟩ => ⟨S8192x512, .f32⟩
  | .hbm, ⟨22, _⟩ => ⟨S_, .i32⟩
  | .hbm, ⟨23, _⟩ => ⟨S_, .f32⟩
  | .hbm, ⟨24, _⟩ => ⟨S512x1152, .f32⟩
  | .hbm, ⟨25, _⟩ => ⟨S_, .i32⟩
  | .hbm, ⟨26, _⟩ => ⟨S_, .f32⟩
  | .hbm, ⟨27, _⟩ => ⟨S1152, .f32⟩
  | .hbm, ⟨28, _⟩ => ⟨S_, .i32⟩
  | .hbm, ⟨29, _⟩ => ⟨S_, .f32⟩
  | .hbm, ⟨30, _⟩ => ⟨S1152x2, .f32⟩
  | .hbm, ⟨31, _⟩ => ⟨S8192x512, .bf16⟩
  | .hbm, ⟨32, _⟩ => ⟨S512x1152, .bf16⟩
  | .hbm, ⟨33, _⟩ => ⟨S1152x2, .bf16⟩
  | .hbm, ⟨34, _⟩ => ⟨S1x1152, .f32⟩
  | .hbm, ⟨35, _⟩ => ⟨S1x2, .f32⟩
  | .hbm, ⟨36, _⟩ => ⟨S8192x2, .f32⟩
  | .local _ .vmem, ⟨0, _⟩ => ⟨S1000x1664, .f32⟩
  | .local _ .vmem, ⟨1, _⟩ => ⟨S1000x1664, .f32⟩
  | .local _ .vmem, ⟨2, _⟩ => ⟨S1664x256, .f32⟩
  | .local _ .vmem, ⟨3, _⟩ => ⟨S1664x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S1000x256, .f32⟩
  | .local _ .vmem, ⟨11, _⟩ => ⟨S2048x512, .bf16⟩
  | .local _ .vmem, ⟨12, _⟩ => ⟨S2048x512, .bf16⟩
  | .local _ .vmem, ⟨13, _⟩ => ⟨S512x1152, .bf16⟩
  | .local _ .vmem, ⟨14, _⟩ => ⟨S1x1152, .f32⟩
  | .local _ .vmem, ⟨15, _⟩ => ⟨S1152x2, .bf16⟩
  | .local _ .vmem, ⟨16, _⟩ => ⟨S1x2, .f32⟩
  | .local _ .vmem, ⟨17, _⟩ => ⟨S2048x2, .f32⟩
  | .local _ .vmem, ⟨18, _⟩ => ⟨S2048x2, .f32⟩
  | _, _ => ⟨S8192x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_call0_v0 : Ref sig .tc := ⟨.hbm, 23, rfl⟩
abbrev main_v13 : Ref sig .tc := ⟨.hbm, 24, rfl⟩
abbrev main_c_2 : Ref sig .tc := ⟨.hbm, 25, rfl⟩
abbrev main_call1_v0 : Ref sig .tc := ⟨.hbm, 26, rfl⟩
abbrev main_v14 : Ref sig .tc := ⟨.hbm, 27, rfl⟩
abbrev main_c_3 : Ref sig .tc := ⟨.hbm, 28, rfl⟩
abbrev main_call2_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![10, 6], ![false, false]⟩

def k0_cond2 (i : grid0.Coords) : BitVec 1 :=
  let arg1 : BitVec 32 := BitVec.ofNat 32 (i 1).val
  let c5_i32 : BitVec 32 := 5#32
  let v13 : BitVec 1 := Scalar.cmpi .eq arg1 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1000x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1664x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1152 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1152 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1152x2 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S8192x2_S16384 : S8192x2.ShapeCasts S16384
  slices_S10000x10000_S10000x16_0_9984 : S10000x10000.Slices ![0, 9984] S10000x16
  slices_S10000x256_S16x256_9984_0 : S10000x256.Slices ![9984, 0] S16x256
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S1000x1664_S1000x1664_0_0 : ∀ a, (![0, 0] : Fin 2 → Nat) a + S1000x1664.size a ≤ S1000x1664.size a
  h_S1000x1664 : 0 < S1000x1664.numel
  bitsLt_bf16_f32 : FTy.bits .bf16 < FTy.bits .f32
  inb_S1664x256_S1664x256_0_0 : ∀ a, (![0, 0] : Fin 2 → Nat) a + S1664x256.size a ≤ S1664x256.size a
  h_S1664x256 : 0 < S1664x256.numel
  bcast_S_S16384 : S_.BroadcastsInDim S16384 (![] : Fin 0 → Fin S16384.rank)
  bcast_S16384_S16384x1_0 : S16384.BroadcastsInDim S16384x1 (![0] : Fin 1 → Fin S16384x1.rank)
  shapeCasts_S16384x256_S8192x512 : S16384x256.ShapeCasts S8192x512
  pads_S512x1025_S512x1152_000_01270 : S512x1025.Pads (![0, 0] : Fin 2 → Nat) ![0, 127] ![0, 0] S512x1152
  h_S_ : 0 < S_.numel
  pads_S1025_S1152_01270 : S1025.Pads (![0] : Fin 1 → Nat) ![127] ![0] S1152
  pads_S1025x2_S1152x2_01270_000 : S1025x2.Pads (![0, 0] : Fin 2 → Nat) ![127, 0] ![0, 0] S1152x2
  shapeCasts_S1152_S1x1152 : S1152.ShapeCasts S1x1152
  shapeCasts_S2_S1x2 : S2.ShapeCasts S1x2
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1152_S512x1152_0_0 : ∀ a, (![0, 0] : Fin 2 → Nat) a + S512x1152.size a ≤ S512x1152.size a
  h_S512x1152 : 0 < S512x1152.numel
  shapeCasts_S512x1152_S512x1152 : S512x1152.ShapeCasts S512x1152
  inb_S1x1152_S1x1152_0_0 : ∀ a, (![0, 0] : Fin 2 → Nat) a + S1x1152.size a ≤ S1x1152.size a
  h_S1x1152 : 0 < S1x1152.numel
  shapeCasts_S1x1152_S1x1152 : S1x1152.ShapeCasts S1x1152
  broadcasts_S1x1152_S2048x1152 : S1x1152.Broadcasts S2048x1152
  inb_S1152x2_S1152x2_0_0 : ∀ a, (![0, 0] : Fin 2 → Nat) a + S1152x2.size a ≤ S1152x2.size a
  h_S1152x2 : 0 < S1152x2.numel
  shapeCasts_S1152x2_S1152x2 : S1152x2.ShapeCasts S1152x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2048x2 : S1x2.Broadcasts S2048x2
  inb_S2048x2_S2048x2_0_0 : ∀ a, (![0, 0] : Fin 2 → Nat) a + S2048x2.size a ≤ S2048x2.size a
  h_S2048x2 : 0 < S2048x2.numel
  dot_S10000x16_S16x256_S10000x256_1_0_0_1_n_n_wf : DotDims.WF S10000x16 S16x256 S10000x256 [1] [0] [0] [1] [] []
  dot_S1000x1664_S1664x256_S1000x256_1_0_0_1_n_n_wf : DotDims.WF S1000x1664 S1664x256 S1000x256 [1] [0] [0] [1] [] []
  gather_S10000x256_S16384x1_S16384x256_1_0_n_n_0_1_1256_wf : GatherDims.WF S10000x256 S16384x1 S16384x256 [1] [0] [] [0] [] 1 ![1, 256]
  dot_S2048x512_S512x1152_S2048x1152_1_0_0_1_n_n_wf : DotDims.WF S2048x512 S512x1152 S2048x1152 [1] [0] [0] [1] [] []
  dot_S2048x1152_S1152x2_S2048x2_1_0_0_1_n_n_wf : DotDims.WF S2048x1152 S1152x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1000x1664.size a < S10000x10000.size a
  hwx0_0 : ∀ i : grid0.Coords, EltTy.bits .f32 = 32 ∨ (Rect.unit (s := S10000x10000) (fun a => cc0_transform_0 i a * S1000x1664.size a) (fun a => (Pipeline.Clip.of (cc0_transform_0 i a) (S1000x1664.size a) (S10000x10000.size a)).extent (S1000x1664.size a)) fun a => Pipeline.Clip.inb (Pipeline.Clip.ok_of (hstart0_0 i a))).WholeWords (EltTy.packing .f32)
  hwxs0_0 : ∀ i : grid0.Coords, EltTy.bits .f32 = 32 ∨ (Rect.unit (s := S1000x1664) (fun _ => 0) (fun a => (Pipeline.Clip.of (cc0_transform_0 i a) (S1000x1664.size a) (S10000x10000.size a)).extent (S1000x1664.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1664x256.size a < S10000x256.size a
  hwx0_1 : ∀ i : grid0.Coords, EltTy.bits .f32 = 32 ∨ (Rect.unit (s := S10000x256) (fun a => cc0_transform_1 i a * S1664x256.size a) (fun a => (Pipeline.Clip.of (cc0_transform_1 i a) (S1664x256.size a) (S10000x256.size a)).extent (S1664x256.size a)) fun a => Pipeline.Clip.inb (Pipeline.Clip.ok_of (hstart0_1 i a))).WholeWords (EltTy.packing .f32)
  hwxs0_1 : ∀ i : grid0.Coords, EltTy.bits .f32 = 32 ∨ (Rect.unit (s := S1664x256) (fun _ => 0) (fun a => (Pipeline.Clip.of (cc0_transform_1 i a) (S1664x256.size a) (S10000x256.size a)).extent (S1664x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S10000x256.size a
  hwx0_2 : ∀ i : grid0.Coords, EltTy.bits .f32 = 32 ∨ (Rect.block (s := S10000x256) S1000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .f32 = 32 ∨ (Rect.block (s := S10000x256) S1000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S10000x256.size a
  hwx0_4 : ∀ i : grid0.Coords, EltTy.bits .f32 = 32 ∨ (Rect.block (s := S10000x256) S1000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x512.size a
  hwx1_0 : ∀ i : grid1.Coords, EltTy.bits .bf16 = 32 ∨ (Rect.block (s := S8192x512) S2048x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1152.size a ≤ S512x1152.size a
  hwx1_1 : ∀ i : grid1.Coords, EltTy.bits .bf16 = 32 ∨ (Rect.block (s := S512x1152) S512x1152.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1152.size a ≤ S1x1152.size a
  hwx1_2 : ∀ i : grid1.Coords, EltTy.bits .f32 = 32 ∨ (Rect.block (s := S1x1152) S1x1152.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1152x2.size a ≤ S1152x2.size a
  hwx1_3 : ∀ i : grid1.Coords, EltTy.bits .bf16 = 32 ∨ (Rect.block (s := S1152x2) S1152x2.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2.size a ≤ S1x2.size a
  hwx1_4 : ∀ i : grid1.Coords, EltTy.bits .f32 = 32 ∨ (Rect.block (s := S1x2) S1x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x2.size a ≤ S8192x2.size a
  hwx1_5 : ∀ i : grid1.Coords, EltTy.bits .f32 = 32 ∨ (Rect.block (s := S8192x2) S2048x2.size (cc1_transform_5 i) (hinb1_5 i)).WholeWords (EltTy.packing .f32)

variable [Facts₀]

def dot_S10000x16_S16x256_S10000x256_1_0_0_1_n_n : DotDims S10000x16 S16x256 S10000x256 where
  lhsContracting := [1]
  rhsContracting := [0]
  lhsNonContracting := [0]
  rhsNonContracting := [1]
  lhsBatch := []
  rhsBatch := []
  wf := dot_S10000x16_S16x256_S10000x256_1_0_0_1_n_n_wf
def dot_S1000x1664_S1664x256_S1000x256_1_0_0_1_n_n : DotDims S1000x1664 S1664x256 S1000x256 where
  lhsContracting := [1]
  rhsContracting := [0]
  lhsNonContracting := [0]
  rhsNonContracting := [1]
  lhsBatch := []
  rhsBatch := []
  wf := dot_S1000x1664_S1664x256_S1000x256_1_0_0_1_n_n_wf
def gather_S10000x256_S16384x1_S16384x256_1_0_n_n_0_1_1256 : GatherDims S10000x256 S16384x1 S16384x256 where
  offsetDims := [1]
  collapsedSliceDims := [0]
  operandBatchingDims := []
  startIndicesBatchingDims := []
  startIndexMap := [0]
  indexVectorDim := 1
  sliceSizes := ![1, 256]
  wf := gather_S10000x256_S16384x1_S16384x256_1_0_n_n_0_1_1256_wf
def dot_S2048x512_S512x1152_S2048x1152_1_0_0_1_n_n : DotDims S2048x512 S512x1152 S2048x1152 where
  lhsContracting := [1]
  rhsContracting := [0]
  lhsNonContracting := [0]
  rhsNonContracting := [1]
  lhsBatch := []
  rhsBatch := []
  wf := dot_S2048x512_S512x1152_S2048x1152_1_0_0_1_n_n_wf
def dot_S2048x1152_S1152x2_S2048x2_1_0_0_1_n_n : DotDims S2048x1152 S1152x2 S2048x2 where
  lhsContracting := [1]
  rhsContracting := [0]
  lhsNonContracting := [0]
  rhsNonContracting := [1]
  lhsBatch := []
  rhsBatch := []
  wf := dot_S2048x1152_S1152x2_S2048x2_1_0_0_1_n_n_wf

abbrev win0_0 : Pipeline.Window sig grid0 :=
  Pipeline.Window.ofSpecClip (Memref.whole main_arg1) S1000x1664.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg2) S1664x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S1000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1000x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v16) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S512x1152.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x1152.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1152x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S2048x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x2 : Shape := ⟨2, ![8192, 2]⟩
abbrev S10000x10000 : Shape := ⟨2, ![10000, 10000]⟩
abbrev S10000x256 : Shape := ⟨2, ![10000, 256]⟩
abbrev S512x1025 : Shape := ⟨2, ![512, 1025]⟩
abbrev S1025 : Shape := ⟨1, ![1025]⟩
abbrev S1025x2 : Shape := ⟨2, ![1025, 2]⟩
abbrev S2 : Shape := ⟨1, ![2]⟩
abbrev S16384 : Shape := ⟨1, ![16384]⟩
abbrev S_ : Shape := ⟨0, ![]⟩
abbrev S16384x1 : Shape := ⟨2, ![16384, 1]⟩
abbrev S16384x10000 : Shape := ⟨2, ![16384, 10000]⟩
abbrev S16384x256 : Shape := ⟨2, ![16384, 256]⟩
abbrev S8192x512 : Shape := ⟨2, ![8192, 512]⟩
abbrev S8192x1025 : Shape := ⟨2, ![8192, 1025]⟩
abbrev S1x1025 : Shape := ⟨2, ![1, 1025]⟩
abbrev S1x2 : Shape := ⟨2, ![1, 2]⟩

abbrev nBuf : Space → Nat
  | .hbm => 40
  | .vmem => 0
  | .smem => 0
  | _ => 0

abbrev bufTy : (tb : Table) → Fin (tcTables nBuf tb) → BufTy
  | .hbm, ⟨0, _⟩ => ⟨S8192x2, .i32⟩
  | .hbm, ⟨1, _⟩ => ⟨S10000x10000, .f32⟩
  | .hbm, ⟨2, _⟩ => ⟨S10000x256, .f32⟩
  | .hbm, ⟨3, _⟩ => ⟨S512x1025, .f32⟩
  | .hbm, ⟨4, _⟩ => ⟨S1025, .f32⟩
  | .hbm, ⟨5, _⟩ => ⟨S1025x2, .f32⟩
  | .hbm, ⟨6, _⟩ => ⟨S2, .f32⟩
  | .hbm, ⟨7, _⟩ => ⟨S16384, .i32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S16384x10000, .f32⟩
  | .hbm, ⟨17, _⟩ => ⟨S16384x256, .f32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S16384x1, .i32⟩
  | .hbm, ⟨26, _⟩ => ⟨S16384x256, .f32⟩
  | .hbm, ⟨27, _⟩ => ⟨S16384x256, .f32⟩
  | .hbm, ⟨28, _⟩ => ⟨S8192x512, .f32⟩
  | .hbm, ⟨29, _⟩ => ⟨S8192x1025, .f32⟩
  | .hbm, ⟨30, _⟩ => ⟨S1x1025, .f32⟩
  | .hbm, ⟨31, _⟩ => ⟨S8192x1025, .f32⟩
  | .hbm, ⟨32, _⟩ => ⟨S8192x1025, .f32⟩
  | .hbm, ⟨33, _⟩ => ⟨S_, .f32⟩
  | .hbm, ⟨34, _⟩ => ⟨S8192x1025, .f32⟩
  | .hbm, ⟨35, _⟩ => ⟨S8192x1025, .f32⟩
  | .hbm, ⟨36, _⟩ => ⟨S8192x2, .f32⟩
  | .hbm, ⟨37, _⟩ => ⟨S1x2, .f32⟩
  | .hbm, ⟨38, _⟩ => ⟨S8192x2, .f32⟩
  | .hbm, ⟨39, _⟩ => ⟨S8192x2, .f32⟩
  | _, _ => ⟨S8192x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  shapeCasts_S8192x2_S16384 : S8192x2.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  shapeCasts_S16384x256_S8192x512 : S16384x256.ShapeCasts S8192x512
  bcast_S1025_S1x1025_1 : S1025.BroadcastsInDim S1x1025 (![1] : Fin 1 → Fin S1x1025.rank)
  bcast_S1x1025_S8192x1025_0_1 : S1x1025.BroadcastsInDim S8192x1025 (![0, 1] : Fin 2 → Fin S8192x1025.rank)
  bcast_S_S8192x1025 : S_.BroadcastsInDim S8192x1025 (![] : Fin 0 → Fin S8192x1025.rank)
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  gather_S10000x10000_S16384x1_S16384x10000_1_0_n_n_0_1_110000_wf : GatherDims.WF S10000x10000 S16384x1 S16384x10000 [1] [0] [] [0] [] 1 ![1, 10000]
  dot_S16384x10000_S10000x256_S16384x256_1_0_0_1_n_n_wf : DotDims.WF S16384x10000 S10000x256 S16384x256 [1] [0] [0] [1] [] []
  gather_S10000x256_S16384x1_S16384x256_1_0_n_n_0_1_1256_wf : GatherDims.WF S10000x256 S16384x1 S16384x256 [1] [0] [] [0] [] 1 ![1, 256]
  dot_S8192x512_S512x1025_S8192x1025_1_0_0_1_n_n_wf : DotDims.WF S8192x512 S512x1025 S8192x1025 [1] [0] [0] [1] [] []
  dot_S8192x1025_S1025x2_S8192x2_1_0_0_1_n_n_wf : DotDims.WF S8192x1025 S1025x2 S8192x2 [1] [0] [0] [1] [] []

variable [Facts₀]

def gather_S10000x10000_S16384x1_S16384x10000_1_0_n_n_0_1_110000 : GatherDims S10000x10000 S16384x1 S16384x10000 where
  offsetDims := [1]
  collapsedSliceDims := [0]
  operandBatchingDims := []
  startIndicesBatchingDims := []
  startIndexMap := [0]
  indexVectorDim := 1
  sliceSizes := ![1, 10000]
  wf := gather_S10000x10000_S16384x1_S16384x10000_1_0_n_n_0_1_110000_wf
def dot_S16384x10000_S10000x256_S16384x256_1_0_0_1_n_n : DotDims S16384x10000 S10000x256 S16384x256 where
  lhsContracting := [1]
  rhsContracting := [0]
  lhsNonContracting := [0]
  rhsNonContracting := [1]
  lhsBatch := []
  rhsBatch := []
  wf := dot_S16384x10000_S10000x256_S16384x256_1_0_0_1_n_n_wf
def gather_S10000x256_S16384x1_S16384x256_1_0_n_n_0_1_1256 : GatherDims S10000x256 S16384x1 S16384x256 where
  offsetDims := [1]
  collapsedSliceDims := [0]
  operandBatchingDims := []
  startIndicesBatchingDims := []
  startIndexMap := [0]
  indexVectorDim := 1
  sliceSizes := ![1, 256]
  wf := gather_S10000x256_S16384x1_S16384x256_1_0_n_n_0_1_1256_wf
def dot_S8192x512_S512x1025_S8192x1025_1_0_0_1_n_n : DotDims S8192x512 S512x1025 S8192x1025 where
  lhsContracting := [1]
  rhsContracting := [0]
  lhsNonContracting := [0]
  rhsNonContracting := [1]
  lhsBatch := []
  rhsBatch := []
  wf := dot_S8192x512_S512x1025_S8192x1025_1_0_0_1_n_n_wf
def dot_S8192x1025_S1025x2_S8192x2_1_0_0_1_n_n : DotDims S8192x1025 S1025x2 S8192x2 where
  lhsContracting := [1]
  rhsContracting := [0]
  lhsNonContracting := [0]
  rhsNonContracting := [1]
  lhsBatch := []
  rhsBatch := []
  wf := dot_S8192x1025_S1025x2_S8192x2_1_0_0_1_n_n_wf

class Facts : Prop extends Facts₀ where

variable [Facts]
-- ==== Proof.LibWholeStores.lean ====
/-
  Reading back what whole-buffer stores left.

  A store through the rectangle that is the whole shape at zero offsets replaces everything: whatever was stored before
  it, the buffer then reads as its payload; a load covered by such a store reads the payload;
  and a load of the whole shape reads the contents as they are.
-/
import Idealize.ShloMosaic.Lib.Pipeline.Value
import Idealize.ShloMosaic.Lib.Pipeline.FrameBody

noncomputable section

namespace Cert.WholeStores

open Idealize.ShloMosaic

variable {sig : RefSig} {κ : Kind} {sp : Space} {Val : EltTy → Type} [∀ e, Nonempty (Val e)] {S : Shape} {e : EltTy}

/-- The two zero offsets of a rank-2 shape, however spelt. -/
theorem zero2 : (![0, 0] : Fin 2 → Nat) = fun _ => 0 := by
  funext a
  match a with
  | ⟨0, _⟩ => rfl
  | ⟨1, _⟩ => rfl

/-- After a whole-shape store, last of any stores, the buffer reads as that store's payload. -/
theorem read_writes_whole (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f (⟨Rect.unit off S.size inb, w⟩ :: L)) = w := by
  rw [View.read_writes_eq_canon v f _ (fun y => ⟨_, List.mem_cons.mpr (Or.inl rfl), View.mem_set_unit_zero h inb y⟩),
    View.canon_cons_unit_zero h inb w L]

/-- A whole-shape load covered by a whole-shape store, last of any stores, reads that store's payload. -/
theorem readCov_whole (v : View sig κ sp S e) {off : Fin S.rank → Nat} (h : off = fun _ => 0)
    (inb : ∀ a, off a + S.size a ≤ S.size a) (w : S.Idx → Val e) (L : List (View.Piece Val S e)) :
    v.readCov (⟨Rect.unit off S.size inb, w⟩ :: L) (Rect.unit off S.size inb).toLoadRect = w := by
  rw [View.readCov_eq_canon_ld v _ _ (fun y => ⟨_, List.mem_cons.mpr (Or.inl rfl), View.mem_set_unit_zero h inb y⟩),
    View.canon_cons_unit_zero h inb w L, View.ld_unit_zero h inb]

/-- A whole-shape load reads the contents as they are. -/
theorem readAt_whole (v : View sig κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f (Rect.unit off S.size inb)).trans (View.ld_unit_zero h inb _)

end Cert.WholeStores

end
-- ==== Proof.KReg0.lean ====
/-
  The first kernel region: the tiled product `A E` over the first 9984 columns, the node's own embedding and the remainder
  added on the last step.

  Its grid has 10 × 6 points: point `t` is row block `t / 6` (1000 rows) at column block `k = t % 6` (1664 columns). The body
  keeps a 1000 × 256 accumulator in a scratch buffer across the six points of a row block: at `k = 0` it is set to zero; at
  every point the product of the `A` block with the `E` block is added to it; at `k = 5` the accumulator, the row block of
  `E` and the row block of the remainder are added and stored as the row block of the result, which is written back only
  then. The two column-tiled windows are printed with edge clipping because 1664 does not divide 10000, but on this grid
  every block index is at most 5 and `6 · 1664 = 9984 ≤ 10000`, so no transfer is ever cut.
-/
import proofs.«116033_j56633438765547_2_alg».proof.Proof.Gen.Kernel.Launch
import proofs.«116033_j56633438765547_2_alg».proof.Proof.Gen.Kernel.Skeleton
import proofs.«116033_j56633438765547_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«116033_j56633438765547_2_alg».proof.Proof.LibWholeStores

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

open Cert.WholeStores (zero2 read_writes_whole readCov_whole readAt_whole)

/-! ## The grid: the two branch conditions in closed form, and no transfer is cut -/

/-- The condition of the accumulator's reset (`k = 0`), as the body computes it from the coordinates. -/
abbrev condFirst (i : grid0.Coords) : Prop := (Scalar.cmpi .ne (Scalar.extui (Scalar.cmpi .eq (BitVec.ofNat 32 (i 1).val) 0#32)) 0#32) = 1#1
/-- The condition of the final store (`k = 5`). -/
abbrev condLast (i : grid0.Coords) : Prop := k0_cond2 i = 1#1

theorem hcondFirst : ∀ t : Fin cfg0.N, condFirst (grid0.coords t) ↔ t.val % 6 = 0 :=
  (by decide +kernel : ∀ t : Fin grid0.N, condFirst (grid0.coords t) ↔ t.val % 6 = 0)
theorem hcondLast : ∀ t : Fin cfg0.N, condLast (grid0.coords t) ↔ t.val % 6 = 5 :=
  (by decide +kernel : ∀ t : Fin grid0.N, condLast (grid0.coords t) ↔ t.val % 6 = 5)

/-- The result's window is idle exactly off the last column block, -/
theorem idle4_iff : ∀ t : Fin cfg0.N, cfg0.idle 4 (cfg0.grid.coords t) = true ↔ ¬ t.val % 6 = 5 :=
  (by decide +kernel : ∀ t : Fin grid0.N, idle0 4 (grid0.coords t) = true ↔ ¬ t.val % 6 = 5)

/-- No block of the `A` window overhangs the array at a point of the grid, -/
theorem clip0 : ∀ (t : Fin cfg0.N) (a : Fin 2), (cfg0.win 0).clip (cfg0.grid.coords t) a = none :=
  (by decide +kernel : ∀ (t : Fin grid0.N) (a : Fin 2), win0_0.clip (grid0.coords t) a = none)
/-- nor of the column-tiled `E` window. -/
theorem clip1 : ∀ (t : Fin cfg0.N) (a : Fin 2), (cfg0.win 1).clip (cfg0.grid.coords t) a = none :=
  (by decide +kernel : ∀ (t : Fin grid0.N) (a : Fin 2), win0_1.clip (grid0.coords t) a = none)

/-! ## The body's triple -/

/-- The accumulator the product is added to: zero at the first column block, else what the point before left. -/
def accIn (i : grid0.Coords) (xs : Vec F S1000x256 .f32) : Vec F S1000x256 .f32 := if condFirst i then k0_pay1 else xs
/-- The accumulator after the point. -/
def accOut (i : grid0.Coords) (x0 : Vec F S1000x1664 .f32) (x1 : Vec F S1664x256 .f32) (xs : Vec F S1000x256 .f32) : Vec F S1000x256 .f32 :=
  k0_pay2 x0 x1 (accIn i xs)
/-- The result's staging buffer after the point: stored at the last column block, else left as found. -/
def outOut (i : grid0.Coords) (x0 : Vec F S1000x1664 .f32) (x1 : Vec F S1664x256 .f32) (x2 x3 xo xs : Vec F S1000x256 .f32) : Vec F S1000x256 .f32 :=
  if condLast i then k0_pay3 (accOut i x0 x1 xs) x2 x3 else xo

set_option maxHeartbeats 4000000 in
/-- The body on whole buffers — the four inputs' at contents `x0 … x3`, the result's at `xo`, the scratch at `xs` — runs to
    the continuation holding the inputs' as they were, the scratch at `accOut` and the result's at `outOut`. -/
theorem sound_kernel (c : Dev nD) (E : Set ℕ) (i : grid0.Coords)
    (arg2 : Memref sig .tc .vmem S1000x1664 .f32) (harg2 : arg2.IsWhole) (arg3 : Memref sig .tc .vmem S1664x256 .f32) (harg3 : arg3.IsWhole)
    (arg4 : Memref sig .tc .vmem S1000x256 .f32) (harg4 : arg4.IsWhole) (arg5 : Memref sig .tc .vmem S1000x256 .f32) (harg5 : arg5.IsWhole)
    (arg6 : Memref sig .tc .vmem S1000x256 .f32) (harg6 : arg6.IsWhole) (arg7 : Memref sig .tc .vmem S1000x256 .f32) (harg7 : arg7.IsWhole)
    (x0 : Vec F S1000x1664 .f32) (x1 : Vec F S1664x256 .f32) (x2 x3 xo xs : Vec F S1000x256 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2
             ∗ owns (c : Thread nD τ) arg5 fullShare x3 ∗ owns (c : Thread nD τ) arg6 fullShare (outOut i x0 x1 x2 x3 xo xs)
             ∗ owns (c : Thread nD τ) arg7 fullShare (accOut i x0 x1 xs)) -∗ K ⟨⟩))
      ⊢ wp frame (wpE (defs₀ (F := F)) Variants.none c none) E (cc0__ae_matmul_kernel i arg2 harg2 arg3 harg3 arg4 harg4 arg5 harg5 arg6 harg6 arg7 harg7) K := by
  simp only [cc0__ae_matmul_kernel_eq_skeleton]; unfold cc0__ae_matmul_kernel_skel
  unfold owns
  by_cases hc0 : condFirst i <;> by_cases hc1 : condLast i
  all_goals
    simp only [outOut, accOut, accIn]
    iintro ⟨⟨%f0, %hf0, H0⟩, ⟨%f1, %hf1, H1⟩, ⟨%f2, %hf2, H2⟩, ⟨%f3, %hf3, H3⟩, ⟨%fo, %hfo, Ho⟩, ⟨%fs, %hfs, Hs⟩, Hk⟩
    subst hf0; subst hf1; subst hf2; subst hf3; subst hfo; subst hfs
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [Ho]
    · iexists _; isplitr
      swap; · iexact Ho
      ipureintro
      try sl_unfold_run_names
      try simp only [read_writes_whole (S := S1000x256) _ _ zero2, readCov_whole (S := S1000x256) _ zero2, readAt_whole (S := S1000x256) _ _ zero2,
        readAt_whole (S := S1000x1664) _ _ zero2, readAt_whole (S := S1664x256) _ _ zero2]
      first | (split_ifs <;> rfl) | rfl
    · iexists _; isplitr
      swap; · iexact Hs
      ipureintro
      try sl_unfold_run_names
      try simp only [read_writes_whole (S := S1000x256) _ _ zero2, readCov_whole (S := S1000x256) _ zero2, readAt_whole (S := S1000x256) _ _ zero2,
        readAt_whole (S := S1000x1664) _ _ zero2, readAt_whole (S := S1664x256) _ _ zero2]
      first | (split_ifs <;> rfl) | rfl

/-! ## The blocks as the body finds them -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer once the fetch at point `t` has landed: the block. (No transfer of this grid is cut, so
    nothing of what the buffer held before is left; the filler below is never read.) -/
def sblk (c : Dev nD) (w : Fin cfg0.W) (t : Fin cfg0.N) : (cfg0.win w).block.Idx → Elt F (cfg0.win w).elt :=
  (cfg0.win w).fill (cfg0.grid.coords t) (fun _ => Classical.arbitrary _) (iblk V c w t)

/-- The accumulator after the first `n` points: reset at each first column block, the block product added at every point. -/
def acc (c : Dev nD) : (n : ℕ) → n ≤ cfg0.N → Vec F S1000x256 .f32
  | 0, _ => k0_pay1
  | n + 1, h => accOut (grid0.coords ⟨n, h⟩) (sblk V c 0 ⟨n, h⟩) (sblk V c 1 ⟨n, h⟩) (acc c n (Nat.le_of_succ_le h))

/-- One point's step of it, from ANY contents that agree with it after the first point. -/
theorem acc_step (c : Dev nD) (t : Fin cfg0.N) (xs : Vec F S1000x256 .f32) (hxs : t.val ≠ 0 → xs = acc V c t.val (Nat.le_of_lt t.isLt)) :
    accOut (grid0.coords t) (sblk V c 0 t) (sblk V c 1 t) xs = acc V c (t.val + 1) t.isLt := by
  show _ = accOut (grid0.coords t) (sblk V c 0 t) (sblk V c 1 t) (acc V c t.val (Nat.le_of_lt t.isLt))
  unfold accOut accIn
  by_cases hf : condFirst (grid0.coords t)
  · rw [if_pos hf, if_pos hf]
  · rw [if_neg hf, if_neg hf, hxs fun h0 => hf ((hcondFirst t).mpr (by rw [h0]))]

/-! ## The invariant: the scratch at the accumulator -/

/-- The scratch operand: a whole scoped buffer of the kernel's own. -/
abbrev scM : Memref sig .tc .vmem S1000x256 .f32 := Memref.whole cc0_scratch0

/-- The core's scoped buffers that are neither a staging buffer of this region nor its scratch, each at some contents. -/
def rest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the region hands the body beside the windows is the scratch at some contents and that rest. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM fullShare d) ∗ rest c) := by
  rw [scopedRest0_eq]; unfold rest; simp only [scM, owns_whole]; rfl

/-- The invariant before point `n`: the generator register at some state, the rest untouched, and the scratch — at anything
    before the first point, afterwards at the accumulator. -/
def Phi (c : Dev nD) (n : ℕ) (h : n ≤ cfg0.N) : sProp 𝕄 :=
  iprop(rest c ∗ (∃ r, prngReg c r) ∗ ∃ xs, ⌜n ≠ 0 → xs = acc V c n h⌝ ∗ owns (c : Thread nD τ) scM fullShare xs)

theorem Phi_in (c : Dev nD) : iprop((∃ r, prngReg c r) ∗ Pipeline.scopedRest (Ix := Unit) (Name := ℕ) (U := UR sig nD τ) (Lvl := ℕ) (Val := Elt F) spec0 c)
    ⊢ (Phi V c 0 (Nat.zero_le _) : sProp 𝕄) := by
  rw [scoped_eq]; unfold Phi
  iintro ⟨Hp, ⟨%d, Hs⟩, Hrest⟩
  isplitl [Hrest]; · iexact Hrest
  isplitl [Hp]; · iexact Hp
  iexists d; isplitr; · ipureintro; exact fun h => absurd rfl h
  iexact Hs

theorem Phi_out (c : Dev nD) (n : ℕ) (h : n ≤ cfg0.N) : (Phi V c n h : sProp 𝕄)
    ⊢ iprop((∃ r, prngReg c r) ∗ Pipeline.scopedRest (Ix := Unit) (Name := ℕ) (U := UR sig nD τ) (Lvl := ℕ) (Val := Elt F) spec0 c) := by
  rw [scoped_eq]; unfold Phi
  iintro ⟨Hrest, Hp, ⟨%xs, -, Hs⟩⟩
  isplitl [Hp]; · iexact Hp
  isplitl [Hs]; · iexists xs; iexact Hs
  iexact Hrest

/-! ## The proof data -/

/-- The region's proof data on core `c`. The arrays as the region finds them; after the body at point `t` each input's buffer
    at its block and the result's at the sum of the accumulator, the `E` row block and the remainder's row block (what the
    body stores at the last column block; elsewhere the window is idle and this is not read); the invariant above; the
    array both `E` windows read held half and half; nothing owed. -/
def dat (c : Dev nD) : Dat τ (Elt F) Unit ℕ (UR sig nD τ) ℕ cfg0 c where
  A w := V c (Pipeline.arrRef spec0 w)
  after w t := match w with
    | ⟨0, _⟩ => sblk V c 0 t
    | ⟨1, _⟩ => sblk V c 1 t
    | ⟨2, _⟩ => sblk V c 2 t
    | ⟨3, _⟩ => sblk V c 3 t
    | ⟨4, _⟩ => k0_pay3 (acc V c (t.val + 1) t.isLt) (sblk V c 2 t) (sblk V c 3 t)
  Φ t := Phi V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = sblk V c 0 t := by dsimp only [dat]
theorem after_1 (c : Dev nD) (t : Fin cfg0.N) : (dat V c).after 1 t = sblk V c 1 t := by dsimp only [dat]
theorem after_2 (c : Dev nD) (t : Fin cfg0.N) : (dat V c).after 2 t = sblk V c 2 t := by dsimp only [dat]
theorem after_3 (c : Dev nD) (t : Fin cfg0.N) : (dat V c).after 3 t = sblk V c 3 t := by dsimp only [dat]
theorem after_4 (c : Dev nD) (t : Fin cfg0.N) :
    (dat V c).after 4 t = k0_pay3 (acc V c (t.val + 1) t.isLt) (sblk V c 2 t) (sblk V c 3 t) := by dsimp only [dat]

/-- An input window's staging buffer holds its block at every point, fetched there or not (when it is not fetched its block
    index has not moved), whatever it held before: no transfer is cut. -/
theorem before_in (c : Dev nD) (w : Fin cfg0.W) (hw : (cfg0.win w).isOut = false) (hlive : ∀ i, cfg0.idle w i = false)
    (hclip : ∀ (t : Fin cfg0.N) a, (cfg0.win w).clip (cfg0.grid.coords t) a = none)
    (hafter : ∀ t, (dat V c).after w t = sblk V c w t) (t : Fin cfg0.N) (d) : (dat V c).before w t d = sblk V c w t := by
  refine ((dat V c).before_in_eq_fetched w hw hlive (fun t t' _ => funext fun a => (hclip t a).trans (hclip t' a).symm) (fun t => ?_) t d).trans ?_
  · rw [hafter]; unfold sblk; rw [Window.cut_fill]; unfold Dat.blockOf iblk; rw [A_eq]
  · rw [(dat V c).fetched_of_clip_none w t (hclip t) d (fun _ => Classical.arbitrary _)]
    unfold Dat.fetched Dat.blockOf sblk iblk; rw [A_eq]

theorem before_0 (c : Dev nD) (t : Fin cfg0.N) (d) : (dat V c).before 0 t d = sblk V c 0 t :=
  before_in V c 0 rfl (fun _ => rfl) clip0 (after_0 V c) t d
theorem before_1 (c : Dev nD) (t : Fin cfg0.N) (d) : (dat V c).before 1 t d = sblk V c 1 t :=
  before_in V c 1 rfl (fun _ => rfl) clip1 (after_1 V c) t d
theorem before_2 (c : Dev nD) (t : Fin cfg0.N) (d) : (dat V c).before 2 t d = sblk V c 2 t :=
  before_in V c 2 rfl (fun _ => rfl) (fun _ _ => rfl) (after_2 V c) t d
theorem before_3 (c : Dev nD) (t : Fin cfg0.N) (d) : (dat V c).before 3 t d = sblk V c 3 t :=
  before_in V c 3 rfl (fun _ => rfl) (fun _ _ => rfl) (after_3 V c) t d

/-! ## The body obligation -/

/-- A window never idle hands its buffer back at what the body left. -/
theorem leaves_live (c : Dev nD) (w : Fin cfg0.W) (t : Fin cfg0.N) (hi : cfg0.idle w (cfg0.grid.coords t) = false) :
    owns (c : Thread nD τ) ((cfg0.win w).stage (cfg0.slots t w)) fullShare ((dat V c).after w t) ⊢ ((dat V c).leaves w t : sProp 𝕄) :=
  (show owns (c : Thread nD τ) ((cfg0.win w).stage (cfg0.slots t w)) fullShare ((dat V c).after w t) ⊢ ((dat V c).leavesExact w t : sProp 𝕄) from by
    unfold Dat.leavesExact; rw [hi]).trans ((dat V c).leaves_intro w t)

/-- The result's window: at a last column block the body stored the sum; elsewhere the window is idle, is not written back,
    and the buffer is handed back as found. -/
theorem leaves_out (c : Dev nD) (t : Fin cfg0.N) (d4) (xs : Vec F S1000x256 .f32) (hxs : t.val ≠ 0 → xs = acc V c t.val (Nat.le_of_lt t.isLt)) :
    owns (c : Thread nD τ) (st0_4 t) fullShare
        (outOut (grid0.coords t) (sblk V c 0 t) (sblk V c 1 t) (sblk V c 2 t) (sblk V c 3 t) ((dat V c).before 4 t d4) xs)
      ⊢ ((dat V c).leaves 4 t : sProp 𝕄) := by
  unfold outOut
  by_cases hL : condLast (grid0.coords t)
  · have h5 : t.val % 6 = 5 := (hcondLast t).mp hL
    have hi : cfg0.idle 4 (cfg0.grid.coords t) = false := by
      rcases hb : cfg0.idle 4 (cfg0.grid.coords t) with _ | _
      · rfl
      · exact absurd h5 ((idle4_iff t).mp hb)
    rw [if_pos hL, acc_step V c t xs hxs, ← after_4]
    exact leaves_live V c 4 t hi
  · have h5 : ¬ t.val % 6 = 5 := fun h => hL ((hcondLast t).mpr h)
    have hi : cfg0.idle 4 (cfg0.grid.coords t) = true := (idle4_iff t).mpr h5
    have hf : (cfg0.win 4).flush t = false := by
      rcases hb : (cfg0.win 4).flush t with _ | _
      · rfl
      · exact absurd ((flush0_4 t).mp hb) h5
    rw [if_neg hL, (dat V c).leaves_idle 4 t hi hf]
    iintro H; iexists d4; iexact H

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leaves 0 t ∗ (dat V c).leaves 1 t ∗ (dat V c).leaves 2 t ∗ (dat V c).leaves 3 t ∗ (dat V c).leaves 4 t)

/-- The body at any point: the inputs' buffers hold their blocks and the scratch the accumulator, so `sound_kernel` applies;
    the scratch is left at the next accumulator. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.castSucc = Phi V c t.val (Nat.le_of_lt t.isLt) from rfl,
    show (dat V c).Φ t.succ = Phi V c (t.val + 1) t.isLt from rfl,
    show (dat V c).owesAt () t.succ = (dat V c).owesAt () t.castSucc from rfl]
  unfold Phi
  iintro ⟨⟨Hrest, Hp, ⟨%xs, %hxs, Hs⟩⟩, Ho, ⟨%d0, H0⟩, ⟨%d1, H1⟩, ⟨%d2, H2⟩, ⟨%d3, H3⟩, ⟨%d4, H4⟩⟩
  iapply (sound_kernel c Set.univ (grid0.coords t) _ _ _ _ _ _ _ _ _ _ _ _ (sblk V c 0 t) (sblk V c 1 t) (sblk V c 2 t) (sblk V c 3 t)
    ((dat V c).before 4 t d4) xs _)
  isplitl [H0]; · iexact H0
  isplitl [H1]; · iexact H1
  isplitl [H2]; · iexact H2
  isplitl [H3]; · iexact H3
  isplitl [H4]; · iexact H4
  isplitl [Hs]; · iexact Hs
  iintro ⟨H0, H1, H2, H3, H4, Hs⟩
  isplitl [Hrest Hp Hs]
  · isplitl [Hrest]; · iexact Hrest
    isplitl [Hp]; · iexact Hp
    iexists _; isplitr
    swap; · iexact Hs
    ipureintro; exact fun _ => acc_step V c t xs hxs
  isplitl [Ho]; · iexact Ho
  isplitl [H0]; · iapply (leaves_live V c 0 t rfl); rw [after_0]; iexact H0
  isplitl [H1]; · iapply (leaves_live V c 1 t rfl); rw [after_1]; iexact H1
  isplitl [H2]; · iapply (leaves_live V c 2 t rfl); rw [after_2]; iexact H2
  isplitl [H3]; · iapply (leaves_live V c 3 t rfl); rw [after_3]; iexact H3
  iapply (leaves_out V c t d4 xs hxs); iexact H4

/-- The body obligation, at every point. -/
theorem body_obligation (c : Dev nD) : Pipeline.BodyObligationLoose (dat (F := F) V c) (defs₀ (F := F)) Variants.none () Set.univ := fun t => by
  rw [bigSep_W0, bigSep_W0]
  exact sound_body V c t

end Cert.Kernel.Reg0

end
-- ==== Proof.KReg1.lean ====
/-
  The second kernel region: the two-layer perceptron on blocks of 2048 pairs.

  Its grid has four points. At point `t` the body reads rows `2048 t … 2048 t + 2047` of the feature matrix and the whole
  of the two weight matrices and the two one-row biases, and writes rows `2048 t … 2048 t + 2047` of the result: one
  whole-block store of `(max (X W1 + b1) 0) W2 + b2`. It keeps nothing between points and names no scratch, so what the
  staging buffer of the result holds after the body is one function of the five input blocks, and the invariant carried
  from point to point is only what the body never touches.
-/
import proofs.«116033_j56633438765547_2_alg».proof.Proof.Gen.Kernel.Launch
import proofs.«116033_j56633438765547_2_alg».proof.Proof.Gen.Kernel.Skeleton
import proofs.«116033_j56633438765547_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: when it is not fetched its
    block index has not moved since the last fetch. One statement per input window. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rX : Rect S2048x512 := Rect.unit (s := S2048x512) ![0, 0] S2048x512.size inb_S2048x512_S2048x512_0_0
abbrev rW1 : Rect S512x1152 := Rect.unit (s := S512x1152) ![0, 0] S512x1152.size inb_S512x1152_S512x1152_0_0
abbrev rB1 : Rect S1x1152 := Rect.unit (s := S1x1152) ![0, 0] S1x1152.size inb_S1x1152_S1x1152_0_0
abbrev rW2 : Rect S1152x2 := Rect.unit (s := S1152x2) ![0, 0] S1152x2.size inb_S1152x2_S1152x2_0_0
abbrev rB2 : Rect S1x2 := Rect.unit (s := S1x2) ![0, 0] S1x2.size inb_S1x2_S1x2_0_0
abbrev rO : Rect S2048x2 := Rect.unit (s := S2048x2) ![0, 0] S2048x2.size inb_S2048x2_S2048x2_0_0

/-- What the body leaves in the result's staging buffer, from the five input blocks: its one store. -/
def out5 (x0 : Vec F S2048x512 .bf16) (x1 : Vec F S512x1152 .bf16) (x2 : Vec F S1x1152 .f32) (x3 : Vec F S1152x2 .bf16) (x4 : Vec F S1x2 .f32) :
    Vec F S2048x2 .f32 :=
  View.canon [⟨rO, k1_pay1 (View.ld x0 rX) (View.ld x1 rW1) (View.ld x2 rB1) (View.ld x3 rW2) (View.ld x4 rB2)⟩]

/-- The one store covers the buffer. -/
theorem cover5 (p0 : Vec F S2048x2 .f32) (y : S2048x2.Idx) :
    ∃ pc ∈ ([⟨rO, p0⟩] : List (View.Piece (Elt F) S2048x2 .f32)), y ∈ pc.1.set :=
  View.cover_of_tiled [⟨rO, p0⟩] S2048x2.size (by rfl) y

set_option maxHeartbeats 1000000 in
/-- The body on whole staging buffers, the inputs' at contents `xW` and the result's at anything, runs to the continuation
    holding the inputs' as they were and the result's at `out5` of them. -/
theorem sound_kernel (c : Dev nD) (E : Set ℕ) (i : grid1.Coords)
    (arg1 : Memref sig .tc .vmem S2048x512 .bf16) (harg1 : arg1.IsWhole) (arg2 : Memref sig .tc .vmem S512x1152 .bf16) (harg2 : arg2.IsWhole)
    (arg3 : Memref sig .tc .vmem S1x1152 .f32) (harg3 : arg3.IsWhole) (arg4 : Memref sig .tc .vmem S1152x2 .bf16) (harg4 : arg4.IsWhole)
    (arg5 : Memref sig .tc .vmem S1x2 .f32) (harg5 : arg5.IsWhole) (arg6 : Memref sig .tc .vmem S2048x2 .f32) (harg6 : arg6.IsWhole)
    (x0 : Vec F S2048x512 .bf16) (x1 : Vec F S512x1152 .bf16) (x2 : Vec F S1x1152 .f32) (x3 : Vec F S1152x2 .bf16) (x4 : Vec F S1x2 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The proof data -/

/-- The region's proof data on core `c`: the arrays as the region finds them; after the body at point `t` each input's
    buffer at its block and the result's at `out5` of the input blocks; the invariant what the body never touches;
    nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) :
    (dat V c).after 5 t = out5 (iblk V c 0 t) (iblk V c 1 t) (iblk V c 2 t) (iblk V c 3 t) (iblk V c 4 t) := by dsimp only [dat]

theorem before_0 (c : Dev nD) (t : Fin cfg1.N) (d) : (dat V c).before 0 t d = iblk V c 0 t :=
  before0_of V (dat V c) (A_eq V c 0) (after_0 V c) t d
theorem before_1 (c : Dev nD) (t : Fin cfg1.N) (d) : (dat V c).before 1 t d = iblk V c 1 t :=
  before1_of V (dat V c) (A_eq V c 1) (after_1 V c) t d
theorem before_2 (c : Dev nD) (t : Fin cfg1.N) (d) : (dat V c).before 2 t d = iblk V c 2 t :=
  before2_of V (dat V c) (A_eq V c 2) (after_2 V c) t d
theorem before_3 (c : Dev nD) (t : Fin cfg1.N) (d) : (dat V c).before 3 t d = iblk V c 3 t :=
  before3_of V (dat V c) (A_eq V c 3) (after_3 V c) t d
theorem before_4 (c : Dev nD) (t : Fin cfg1.N) (d) : (dat V c).before 4 t d = iblk V c 4 t :=
  before4_of V (dat V c) (A_eq V c 4) (after_4 V c) t d

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' buffers hold their blocks, so `sound_kernel` applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dat (F := F) V c) (defs₀ (F := F)) Variants.none () Set.univ := fun t => by
  rw [bigSep_W1, bigSep_W1]
  exact sound_body V c t

end Cert.Kernel.Reg1

end
-- ==== Proof.KData.lean ====
/-
  What the two regions leave and the proof data of the whole run.

  Region 0 is entered at the contents after the first stretch of host operations and leaves its result array at what its
  write-backs make of it; the later host stretches run from there; region 1 is entered at the contents after them and
  leaves the program's result likewise. Beside the buffers every segment carries the generator register at some state and
  the core owing nothing.
-/
import proofs.«116033_j56633438765547_2_alg».proof.Proof.Gen.Kernel.Regions
import proofs.«116033_j56633438765547_2_alg».proof.Proof.KReg0
import proofs.«116033_j56633438765547_2_alg».proof.Proof.KReg1

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- The core's buffers when region 0 is entered. -/
abbrev Ve0 (c : Dev nD) (b : Ref sig .tc) : Buf (Elt F) ((c : Thread nD τ).loc b) := V1 m c b
/-- What region 0 leaves in its result array. -/
def X0 (c : Dev nD) : Buf (Elt F) ((c : Thread nD τ).loc main_v4) := (Reg0.dat (Ve0 m) c).arrAt 4 cfg0.N
/-- The regions' leavings with only region 0's named (what region 1's entry contents are written over). -/
def outs0 : Outs (F := F) := fun _ r c => Function.update (V1 m c) main_v4 (X0 m c) r
/-- The core's buffers when region 1 is entered. -/
abbrev Ve1 (c : Dev nD) (b : Ref sig .tc) : Buf (Elt F) ((c : Thread nD τ).loc b) := V9 m (outs0 m) c b
/-- What region 1 leaves in its result array. -/
def X1 (c : Dev nD) : Buf (Elt F) ((c : Thread nD τ).loc main_v21) := (Reg1.dat (Ve1 m) c).arrAt 5 cfg1.N
/-- What the two regions leave. -/
def outs : Outs (F := F) := fun n r c =>
  if n = 10 then Function.update (V9 m (outs0 m) c) main_v21 (X1 m c) r else outs0 m n r c

theorem outs_2 (c : Dev nD) : outs m 2 main_v4 c = X0 m c := by
  unfold outs outs0; rw [if_neg (by decide)]; exact Function.update_self ..
theorem outs_10 (c : Dev nD) : outs m 10 main_v21 c = X1 m c := by
  unfold outs; rw [if_pos rfl]; exact Function.update_self ..
/-- Region 1's entry contents read nothing of what region 1 leaves. -/
theorem V2_outs (c : Dev nD) : V2 m (outs m) c = V2 m (outs0 m) c := by
  unfold V2; rw [outs_2]; unfold outs0; rw [Function.update_self]
theorem V9_outs (c : Dev nD) : V9 m (outs m) c = V9 m (outs0 m) c := by
  unfold V9 V8 V7 V6 V5 V4 V3; rw [V2_outs]

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Reg0.dat (Ve0 m) c
  | ⟨1, _⟩ => fun c => Reg1.dat (Ve1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

end Cert.Kernel.Run

end
-- ==== Proof.KSegs.lean ====
/-
  The two kernel regions as segments of the run.

  Each region is entered holding every unscoped buffer of the core at the contents the host operations before it left, takes
  its windows' arrays out of them, and puts them back at its exit with its result array at what its write-backs made of it.
  Region 0 reads the embeddings through two windows: on entry that array's full share is split into two halves, one per
  window, and on exit the halves — both still at the array's entry contents, inputs being never written — are joined again.
-/
import proofs.«116033_j56633438765547_2_alg».proof.Proof.KData
import Idealize.ShloMosaic.Lib.Pipeline.RegionsLoop

set_option maxRecDepth 16384

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-! ## Region 1 -/

/-- At region 1's exit each of its arrays holds what the pipeline leaves: an input what it held, the result its write-backs. -/
theorem hF1 (c : Dev nD) : ∀ w : Fin cfg1.W, (pdats m 1 c).arrAt w cfg1.N = V10 m (outs m) c (Pipeline.arrRef spec1 w)
  | ⟨0, _⟩ => (show (Reg1.dat (Ve1 m) c).arrAt 0 cfg1.N = V10 m (outs m) c main_v16 from by
      rw [V10_of m (outs m) c main_v16 (by decide), V9_outs]; exact ((Reg1.dat (Ve1 m) c).arrAt_in 0 rfl _).trans (Reg1.A_eq (Ve1 m) c 0))
  | ⟨1, _⟩ => (show (Reg1.dat (Ve1 m) c).arrAt 1 cfg1.N = V10 m (outs m) c main_v17 from by
      rw [V10_of m (outs m) c main_v17 (by decide), V9_outs]; exact ((Reg1.dat (Ve1 m) c).arrAt_in 1 rfl _).trans (Reg1.A_eq (Ve1 m) c 1))
  | ⟨2, _⟩ => (show (Reg1.dat (Ve1 m) c).arrAt 2 cfg1.N = V10 m (outs m) c main_v19 from by
      rw [V10_of m (outs m) c main_v19 (by decide), V9_outs]; exact ((Reg1.dat (Ve1 m) c).arrAt_in 2 rfl _).trans (Reg1.A_eq (Ve1 m) c 2))
  | ⟨3, _⟩ => (show (Reg1.dat (Ve1 m) c).arrAt 3 cfg1.N = V10 m (outs m) c main_v18 from by
      rw [V10_of m (outs m) c main_v18 (by decide), V9_outs]; exact ((Reg1.dat (Ve1 m) c).arrAt_in 3 rfl _).trans (Reg1.A_eq (Ve1 m) c 3))
  | ⟨4, _⟩ => (show (Reg1.dat (Ve1 m) c).arrAt 4 cfg1.N = V10 m (outs m) c main_v20 from by
      rw [V10_of m (outs m) c main_v20 (by decide), V9_outs]; exact ((Reg1.dat (Ve1 m) c).arrAt_in 4 rfl _).trans (Reg1.A_eq (Ve1 m) c 4))
  | ⟨5, _⟩ => (show (Reg1.dat (Ve1 m) c).arrAt 5 cfg1.N = V10 m (outs m) c main_v21 from by
      unfold V10; rw [outs_10, Function.update_self]; rfl)

/-- and every other buffer what it held at entry. -/
theorem hrest1 (c : Dev nD) : ∀ b, b ∉ Finset.univ.image (Pipeline.arrRef spec1) → V10 m (outs m) c b = Ve1 m c b := fun b hb => by
  rw [V10_of m (outs m) c b (fun h => hb (by
    rw [List.mem_singleton] at h; subst h; exact Finset.mem_image.mpr ⟨5, Finset.mem_univ _, rfl⟩)), V9_outs]

set_option backward.isDefEq.respectTransparency.types false in
/-- Region 1 over the thread state "every unscoped buffer at the boundary's contents, the generator register at some state,
    nothing owed". -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (Ve1 m) c).loose
  hwaits := Pipeline.hwaits_of_owed_zero _ _ _ _ L lv 1 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none, V9_outs]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (fun b => V10 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 0 -/

/-- The distinct buffers behind region 0's windows: the adjacency matrix, the embeddings (read by two windows), the
    remainder and the result. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg1) ↦{fullShare} V main_arg1) ∗ (((c : Thread nD τ).loc main_arg2) ↦{fullShare} V main_arg2)
          ∗ (((c : Thread nD τ).loc main_v3) ↦{fullShare} V main_v3) ∗ (((c : Thread nD τ).loc main_v4) ↦{fullShare} V main_v4)) := by
  unfold Pipeline.arrBufs
  rw [bigSep_eq_bigSepL_of_eq [main_arg1, main_arg2, main_v3, main_v4] (by decide) (by decide)]
  rfl

/-- Region 0's five windows' arrays, each at its share: the two windows on the embeddings hold a half each. -/
theorem arrays_eq0 (c : Dev nD) (F' : (w : Fin cfg0.W) → Buf (Elt F) ((cfg0.win w).arr.view.loc (c : Thread nD τ))) :
    ((Reg0.dat (Ve0 m) c).arrays F' : sProp 𝕄)
      = iprop((((c : Thread nD τ).loc main_arg1) ↦{fullShare} F' 0) ∗ (((c : Thread nD τ).loc main_arg2) ↦{fullShare.left} F' 1)
          ∗ (((c : Thread nD τ).loc main_arg2) ↦{fullShare.right} F' 2) ∗ (((c : Thread nD τ).loc main_v3) ↦{fullShare} F' 3)
          ∗ (((c : Thread nD τ).loc main_v4) ↦{fullShare} F' 4)) := by
  unfold Pipeline.Dat.arrays
  rw [bigSep_W0]
  simp only [(arr_whole0 0).set_eq_univ, (arr_whole0 1).set_eq_univ, (arr_whole0 2).set_eq_univ, (arr_whole0 3).set_eq_univ, (arr_whole0 4).set_eq_univ]
  rfl

/-- ENTRY of region 0: the core's unscoped buffers at the contents after the first host stretch are the region's arrays at their
    entry contents — the embeddings' full share dealt in halves to the two windows that read them — and the rest. -/
theorem entry0 (c : Dev nD) :
    (StableHlo.held (c : Thread nD τ) (Pipeline.ucRefs τ sig) (V1 m c) : sProp 𝕄)
      ⊢ iprop((Reg0.dat (Ve0 m) c).arrays ((Reg0.dat (Ve0 m) c).arrAt · 0)
          ∗ Pipeline.unscopedRest (Ix := Unit) (Name := ℕ) (U := UR sig nD τ) (Lvl := ℕ) spec0 c (Ve0 m c)) := by
  have h := Pipeline.unscopedBufs_split₀ (Ix := Unit) (Name := ℕ) (U := UR sig nD τ) (Lvl := ℕ) (Pipeline.pin (pcfgs (F := F)) adm) 0
    winFacts₀0.arr_unscoped c (Ve0 m c)
  rw [Pipeline.unscopedBufs_held] at h
  rw [h]
  refine sep_mono ?_ .rfl
  change (Pipeline.arrBufs (Ix := Unit) (Name := ℕ) (U := UR sig nD τ) (Lvl := ℕ) spec0 c (Ve0 m c) : sProp 𝕄) ⊢ _
  rw [arrBufs_eq, arrays_eq0]
  iintro ⟨Ha, He, Ht, Ho⟩
  ihave He2 := (pointsTo_share (PosShare.mem_left_op_right fullShare)).1 $$ He
  icases He2 with ⟨Hl, Hr⟩
  isplitl [Ha]; · iexact Ha
  isplitl [Hl]; · iexact Hl
  isplitl [Hr]; · iexact Hr
  isplitl [Ht]; · iexact Ht
  iexact Ho

/-- EXIT of region 0: its arrays after the write-backs — the inputs as entered, so the two halves of the embeddings join — and
    the rest are the core's unscoped buffers at the next boundary's contents. -/
theorem exit0 (c : Dev nD) :
    iprop((Reg0.dat (Ve0 m) c).arrays ((Reg0.dat (Ve0 m) c).arrAt · cfg0.N)
        ∗ Pipeline.unscopedRest (Ix := Unit) (Name := ℕ) (U := UR sig nD τ) (Lvl := ℕ) spec0 c (Ve0 m c))
      ⊢ (StableHlo.held (c : Thread nD τ) (Pipeline.ucRefs τ sig) (V2 m (outs m) c) : sProp 𝕄) := by
  have h := Pipeline.unscopedBufs_split₀ (Ix := Unit) (Name := ℕ) (U := UR sig nD τ) (Lvl := ℕ) (Pipeline.pin (pcfgs (F := F)) adm) 0
    winFacts₀0.arr_unscoped c (fun b => V2 m (outs m) c b)
  rw [Pipeline.unscopedBufs_held] at h
  rw [h]
  refine sep_mono ?_ (Entails.of_eq ?_)
  · change _ ⊢ (Pipeline.arrBufs (Ix := Unit) (Name := ℕ) (U := UR sig nD τ) (Lvl := ℕ) spec0 c (fun b => V2 m (outs m) c b) : sProp 𝕄)
    rw [arrBufs_eq, arrays_eq0]
    have e0 : (Reg0.dat (Ve0 m) c).arrAt 0 cfg0.N = V2 m (outs m) c main_arg1 := by
      rw [V2_of m (outs m) c main_arg1 (by decide)]; exact ((Reg0.dat (Ve0 m) c).arrAt_in 0 rfl _).trans (Reg0.A_eq (Ve0 m) c 0)
    have e1 : (Reg0.dat (Ve0 m) c).arrAt 1 cfg0.N = V2 m (outs m) c main_arg2 := by
      rw [V2_of m (outs m) c main_arg2 (by decide)]; exact ((Reg0.dat (Ve0 m) c).arrAt_in 1 rfl _).trans (Reg0.A_eq (Ve0 m) c 1)
    have e2 : (Reg0.dat (Ve0 m) c).arrAt 2 cfg0.N = V2 m (outs m) c main_arg2 := by
      rw [V2_of m (outs m) c main_arg2 (by decide)]; exact ((Reg0.dat (Ve0 m) c).arrAt_in 2 rfl _).trans (Reg0.A_eq (Ve0 m) c 2)
    have e3 : (Reg0.dat (Ve0 m) c).arrAt 3 cfg0.N = V2 m (outs m) c main_v3 := by
      rw [V2_of m (outs m) c main_v3 (by decide)]; exact ((Reg0.dat (Ve0 m) c).arrAt_in 3 rfl _).trans (Reg0.A_eq (Ve0 m) c 3)
    have e4 : (Reg0.dat (Ve0 m) c).arrAt 4 cfg0.N = V2 m (outs m) c main_v4 := by
      unfold V2; rw [outs_2, Function.update_self]; rfl
    rw [e0, e1, e2, e3, e4]
    iintro ⟨Ha, Hl, Hr, Ht, Ho⟩
    isplitl [Ha]; · iexact Ha
    isplitl [Hl Hr]
    · iapply (pointsTo_share (PosShare.mem_left_op_right fullShare)).2
      isplitl [Hl] <;> iassumption
    isplitl [Ht]; · iexact Ht
    iexact Ho
  · unfold Pipeline.unscopedRest
    exact bigSep_congr fun b hb => by
      show (((c : Thread nD τ).loc b) ↦{fullShare} V1 m c b : sProp 𝕄) = (((c : Thread nD τ).loc b) ↦{fullShare} V2 m (outs m) c b)
      rw [V2_of m (outs m) c b (fun hmem => (Finset.mem_sdiff.mp hb).2 (by
        rw [List.mem_singleton] at hmem; subst hmem; exact Finset.mem_image.mpr ⟨4, Finset.mem_univ _, rfl⟩))]

set_option backward.isDefEq.respectTransparency.types false in
/-- Region 0 over the same thread state. The generator register goes into the invariant and comes back; the scratch the
    accumulator lives in is one of the scoped buffers the region hands the body; nothing is owed; the kernel names no
    semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := Reg0.body_obligation (Ve0 m) c
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Reg0.Phi (Ve0 m) c 0 (Nat.zero_le _) from rfl]
    iintro ⟨Hp, -, Hr⟩
    iapply (Reg0.Phi_in (Ve0 m) c)
    isplitl [Hp]; · iexact Hp
    iexact Hr
  hout c := by
    rw [Pipeline.ownSems0_none, show (pdats m 0 c).Φ (Fin.last _) = Reg0.Phi (Ve0 m) c cfg0.N (Nat.le_refl _) from rfl]
    iintro H
    ihave H2 := (Reg0.Phi_out (Ve0 m) c cfg0.N (Nat.le_refl _)) $$ H
    icases H2 with ⟨Hp, Hr⟩
    isplitl [Hp]; · iexact Hp
    isplitr; · iempintro
    iexact Hr
  hexit c := by
    iintro ⟨Ha, HO, HY, Hrest⟩
    imodintro
    isplitl [Ha Hrest]
    · iapply (exit0 m c)
      isplitl [Ha]; · iexact Ha
      iexact Hrest
    isplitl [HY]; · iexact HY
    unfold Pipeline.Dat.owesAt Pipeline.owesWithin
    icases HO with ⟨%W, -, HO⟩; iexists W; iexact HO

end Cert.Kernel.Run

end
-- ==== Proof.KLaunch.lean ====
/-
  The launch: from the two regions' records to the run of the whole program.

  The program is a chain of host stretches and two kernel regions. Given, for each region, a record of its run entered
  from the buffers' contents before it and left at the contents after it, the chain runs from any memory with zero
  counters and ends with every argument array as launched. What is settled here is the launch's own part: the ghost
  state the launch starts from is the pipelines' cells and tokens and nothing else; of what the launch deals each core —
  its unscoped semaphores at zero, an empty account of what it owes, its launch credit, its generator register — the
  rest state that rides beside the buffers keeps the generator register and the empty account and drops the others;
  and at the end that rest state still owes nothing.
-/
import proofs.«116033_j56633438765547_2_alg».proof.Proof.KData

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- The ghost state at launch: the pipelines' cells and launch tokens, and nothing per core beside them. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Of what the launch deals every core, the rest state keeps the generator register and the empty account. -/
theorem rest_at_launch (ρ : Dev nD → PrngReg) :
    iprop((bigSep Finset.univ fun c : Dev nD => iprop(unscopedSems0 c
        ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- At the end the rest state owes nothing. -/
theorem rest_owes_nothing (c : Dev nD) :
    E (F := F) 2 c ⊢ (iprop(∃ W, owes (c : Thread nD τ) (0 : CellTallies nD τ sig Unit) W) : sProp 𝕄) := by
  iintro ⟨-, HO⟩
  iexact HO

/-- THE FRAME FROM THE TWO RECORDS: every weakly fair execution from `m` with zero counters terminates with every argument
    array as launched. -/
theorem frame_of_records (ρ : Dev nD → PrngReg)
    (R0 : Pipeline.RegionSeg (pcfgs (F := F)) adm (pdats m) () defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m (outs m) c) ∗ E 1 c))
    (R1 : Pipeline.RegionSeg (pcfgs (F := F)) adm (pdats m) () defs₀ 𝒱₀ L lv 1)
    (hpre1 : ∀ c : Dev nD, iprop(StableHlo.held (c : Thread nD τ) (Pipeline.ucRefs τ sig) (V9 m (outs m) c) ∗ E 1 c) ⊢ R1.pre c)
    (hpost1 : ∀ c : Dev nD, R1.post c ⊢ iprop(StableHlo.held (c : Thread nD τ) (Pipeline.ucRefs τ sig) (V10 m (outs m) c) ∗ E 2 c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.frame_cond m emb₁ () 𝒱₀ L lv (fun _ _ => rfl) ρ (outs m) (pdats m) 0 (fun _ => iprop(emp))
    (initOf (Pipeline.cells cfgs cellOf_inj) (Pipeline.launchToks cfgs cellOf_inj)) launch_ghost E (rest_at_launch ρ)
    rest_owes_nothing R0 hpre0 hpost0 R1 hpre1 hpost1

end Cert.Kernel.Run

end
-- ==== Proof.KMain.lean ====
/-
  The word-level program's frame.

  The program is two kernel regions between stretches of host operations. Each region's record, entered from the contents
  before it and left at the contents after it, gives the whole run; no item writes an argument array, so each ends as
  launched.
-/
import proofs.«116033_j56633438765547_2_alg».proof.Proof.KSegs
import proofs.«116033_j56633438765547_2_alg».proof.Proof.KLaunch

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

/-- THE FRAME: every weakly fair execution of the program from memory `m` with zero counters terminates, and every
    argument array ends as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_records m ρ (reg0 m) (fun _ => .rfl) (fun _ => .rfl) (reg1 m) (fun _ => .rfl) (fun _ => .rfl)

end Cert.Kernel.Run

end
-- ==== Proof.KiReg0.lean ====
/-
  The first kernel region: the tiled product `A E` over the first 9984 columns, the node's own embedding and the remainder
  added on the last step.

  Its grid has 10 × 6 points: point `t` is row block `t / 6` (1000 rows) at column block `k = t % 6` (1664 columns). The body
  keeps a 1000 × 256 accumulator in a scratch buffer across the six points of a row block: at `k = 0` it is set to zero; at
  every point the product of the `A` block with the `E` block is added to it; at `k = 5` the accumulator, the row block of
  `E` and the row block of the remainder are added and stored as the row block of the result, which is written back only
  then. The two column-tiled windows are printed with edge clipping because 1664 does not divide 10000, but on this grid
  every block index is at most 5 and `6 · 1664 = 9984 ≤ 10000`, so no transfer is ever cut.
-/
import proofs.«116033_j56633438765547_2_alg».proof.Proof.Gen.KernelIdeal.Launch
import proofs.«116033_j56633438765547_2_alg».proof.Proof.Gen.KernelIdeal.Skeleton
import proofs.«116033_j56633438765547_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«116033_j56633438765547_2_alg».proof.Proof.LibWholeStores

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

open Cert.WholeStores (zero2 read_writes_whole readCov_whole readAt_whole)

/-! ## The grid: the two branch conditions in closed form, and no transfer is cut -/

/-- The condition of the accumulator's reset (`k = 0`), as the body computes it from the coordinates. -/
abbrev condFirst (i : grid0.Coords) : Prop := (Scalar.cmpi .ne (Scalar.extui (Scalar.cmpi .eq (BitVec.ofNat 32 (i 1).val) 0#32)) 0#32) = 1#1
/-- The condition of the final store (`k = 5`). -/
abbrev condLast (i : grid0.Coords) : Prop := k0_cond2 i = 1#1

theorem hcondFirst : ∀ t : Fin cfg0.N, condFirst (grid0.coords t) ↔ t.val % 6 = 0 :=
  (by decide +kernel : ∀ t : Fin grid0.N, condFirst (grid0.coords t) ↔ t.val % 6 = 0)
theorem hcondLast : ∀ t : Fin cfg0.N, condLast (grid0.coords t) ↔ t.val % 6 = 5 :=
  (by decide +kernel : ∀ t : Fin grid0.N, condLast (grid0.coords t) ↔ t.val % 6 = 5)

/-- The result's window is idle exactly off the last column block, -/
theorem idle4_iff : ∀ t : Fin cfg0.N, cfg0.idle 4 (cfg0.grid.coords t) = true ↔ ¬ t.val % 6 = 5 :=
  (by decide +kernel : ∀ t : Fin grid0.N, idle0 4 (grid0.coords t) = true ↔ ¬ t.val % 6 = 5)

/-- No block of the `A` window overhangs the array at a point of the grid, -/
theorem clip0 : ∀ (t : Fin cfg0.N) (a : Fin 2), (cfg0.win 0).clip (cfg0.grid.coords t) a = none :=
  (by decide +kernel : ∀ (t : Fin grid0.N) (a : Fin 2), win0_0.clip (grid0.coords t) a = none)
/-- nor of the column-tiled `E` window. -/
theorem clip1 : ∀ (t : Fin cfg0.N) (a : Fin 2), (cfg0.win 1).clip (cfg0.grid.coords t) a = none :=
  (by decide +kernel : ∀ (t : Fin grid0.N) (a : Fin 2), win0_1.clip (grid0.coords t) a = none)

/-! ## The body's triple -/

/-- The accumulator the product is added to: zero at the first column block, else what the point before left. -/
def accIn (i : grid0.Coords) (xs : Vec F S1000x256 .f32) : Vec F S1000x256 .f32 := if condFirst i then k0_pay1 else xs
/-- The accumulator after the point. -/
def accOut (i : grid0.Coords) (x0 : Vec F S1000x1664 .f32) (x1 : Vec F S1664x256 .f32) (xs : Vec F S1000x256 .f32) : Vec F S1000x256 .f32 :=
  k0_pay2 x0 x1 (accIn i xs)
/-- The result's staging buffer after the point: stored at the last column block, else left as found. -/
def outOut (i : grid0.Coords) (x0 : Vec F S1000x1664 .f32) (x1 : Vec F S1664x256 .f32) (x2 x3 xo xs : Vec F S1000x256 .f32) : Vec F S1000x256 .f32 :=
  if condLast i then k0_pay3 (accOut i x0 x1 xs) x2 x3 else xo

set_option maxHeartbeats 4000000 in
/-- The body on whole buffers — the four inputs' at contents `x0 … x3`, the result's at `xo`, the scratch at `xs` — runs to
    the continuation holding the inputs' as they were, the scratch at `accOut` and the result's at `outOut`. -/
theorem sound_kernel (c : Dev nD) (E : Set ℕ) (i : grid0.Coords)
    (arg2 : Memref sig .tc .vmem S1000x1664 .f32) (harg2 : arg2.IsWhole) (arg3 : Memref sig .tc .vmem S1664x256 .f32) (harg3 : arg3.IsWhole)
    (arg4 : Memref sig .tc .vmem S1000x256 .f32) (harg4 : arg4.IsWhole) (arg5 : Memref sig .tc .vmem S1000x256 .f32) (harg5 : arg5.IsWhole)
    (arg6 : Memref sig .tc .vmem S1000x256 .f32) (harg6 : arg6.IsWhole) (arg7 : Memref sig .tc .vmem S1000x256 .f32) (harg7 : arg7.IsWhole)
    (x0 : Vec F S1000x1664 .f32) (x1 : Vec F S1664x256 .f32) (x2 x3 xo xs : Vec F S1000x256 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2
             ∗ owns (c : Thread nD τ) arg5 fullShare x3 ∗ owns (c : Thread nD τ) arg6 fullShare (outOut i x0 x1 x2 x3 xo xs)
             ∗ owns (c : Thread nD τ) arg7 fullShare (accOut i x0 x1 xs)) -∗ K ⟨⟩))
      ⊢ wp frame (wpE (defs₀ (F := F)) Variants.none c none) E (cc0__ae_matmul_kernel i arg2 harg2 arg3 harg3 arg4 harg4 arg5 harg5 arg6 harg6 arg7 harg7) K := by
  simp only [cc0__ae_matmul_kernel_eq_skeleton]; unfold cc0__ae_matmul_kernel_skel
  unfold owns
  by_cases hc0 : condFirst i <;> by_cases hc1 : condLast i
  all_goals
    simp only [outOut, accOut, accIn]
    iintro ⟨⟨%f0, %hf0, H0⟩, ⟨%f1, %hf1, H1⟩, ⟨%f2, %hf2, H2⟩, ⟨%f3, %hf3, H3⟩, ⟨%fo, %hfo, Ho⟩, ⟨%fs, %hfs, Hs⟩, Hk⟩
    subst hf0; subst hf1; subst hf2; subst hf3; subst hfo; subst hfs
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [Ho]
    · iexists _; isplitr
      swap; · iexact Ho
      ipureintro
      try sl_unfold_run_names
      try simp only [read_writes_whole (S := S1000x256) _ _ zero2, readCov_whole (S := S1000x256) _ zero2, readAt_whole (S := S1000x256) _ _ zero2,
        readAt_whole (S := S1000x1664) _ _ zero2, readAt_whole (S := S1664x256) _ _ zero2]
      first | (split_ifs <;> rfl) | rfl
    · iexists _; isplitr
      swap; · iexact Hs
      ipureintro
      try sl_unfold_run_names
      try simp only [read_writes_whole (S := S1000x256) _ _ zero2, readCov_whole (S := S1000x256) _ zero2, readAt_whole (S := S1000x256) _ _ zero2,
        readAt_whole (S := S1000x1664) _ _ zero2, readAt_whole (S := S1664x256) _ _ zero2]
      first | (split_ifs <;> rfl) | rfl

/-! ## The blocks as the body finds them -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer once the fetch at point `t` has landed: the block. (No transfer of this grid is cut, so
    nothing of what the buffer held before is left; the filler below is never read.) -/
def sblk (c : Dev nD) (w : Fin cfg0.W) (t : Fin cfg0.N) : (cfg0.win w).block.Idx → Elt F (cfg0.win w).elt :=
  (cfg0.win w).fill (cfg0.grid.coords t) (fun _ => Classical.arbitrary _) (iblk V c w t)

/-- The accumulator after the first `n` points: reset at each first column block, the block product added at every point. -/
def acc (c : Dev nD) : (n : ℕ) → n ≤ cfg0.N → Vec F S1000x256 .f32
  | 0, _ => k0_pay1
  | n + 1, h => accOut (grid0.coords ⟨n, h⟩) (sblk V c 0 ⟨n, h⟩) (sblk V c 1 ⟨n, h⟩) (acc c n (Nat.le_of_succ_le h))

/-- One point's step of it, from ANY contents that agree with it after the first point. -/
theorem acc_step (c : Dev nD) (t : Fin cfg0.N) (xs : Vec F S1000x256 .f32) (hxs : t.val ≠ 0 → xs = acc V c t.val (Nat.le_of_lt t.isLt)) :
    accOut (grid0.coords t) (sblk V c 0 t) (sblk V c 1 t) xs = acc V c (t.val + 1) t.isLt := by
  show _ = accOut (grid0.coords t) (sblk V c 0 t) (sblk V c 1 t) (acc V c t.val (Nat.le_of_lt t.isLt))
  unfold accOut accIn
  by_cases hf : condFirst (grid0.coords t)
  · rw [if_pos hf, if_pos hf]
  · rw [if_neg hf, if_neg hf, hxs fun h0 => hf ((hcondFirst t).mpr (by rw [h0]))]

/-! ## The invariant: the scratch at the accumulator -/

/-- The scratch operand: a whole scoped buffer of the kernel's own. -/
abbrev scM : Memref sig .tc .vmem S1000x256 .f32 := Memref.whole cc0_scratch0

/-- The core's scoped buffers that are neither a staging buffer of this region nor its scratch, each at some contents. -/
def rest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the region hands the body beside the windows is the scratch at some contents and that rest. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM fullShare d) ∗ rest c) := by
  rw [scopedRest0_eq]; unfold rest; simp only [scM, owns_whole]; rfl

/-- The invariant before point `n`: the generator register at some state, the rest untouched, and the scratch — at anything
    before the first point, afterwards at the accumulator. -/
def Phi (c : Dev nD) (n : ℕ) (h : n ≤ cfg0.N) : sProp 𝕄 :=
  iprop(rest c ∗ (∃ r, prngReg c r) ∗ ∃ xs, ⌜n ≠ 0 → xs = acc V c n h⌝ ∗ owns (c : Thread nD τ) scM fullShare xs)

theorem Phi_in (c : Dev nD) : iprop((∃ r, prngReg c r) ∗ Pipeline.scopedRest (Ix := Unit) (Name := ℕ) (U := UR sig nD τ) (Lvl := ℕ) (Val := Elt F) spec0 c)
    ⊢ (Phi V c 0 (Nat.zero_le _) : sProp 𝕄) := by
  rw [scoped_eq]; unfold Phi
  iintro ⟨Hp, ⟨%d, Hs⟩, Hrest⟩
  isplitl [Hrest]; · iexact Hrest
  isplitl [Hp]; · iexact Hp
  iexists d; isplitr; · ipureintro; exact fun h => absurd rfl h
  iexact Hs

theorem Phi_out (c : Dev nD) (n : ℕ) (h : n ≤ cfg0.N) : (Phi V c n h : sProp 𝕄)
    ⊢ iprop((∃ r, prngReg c r) ∗ Pipeline.scopedRest (Ix := Unit) (Name := ℕ) (U := UR sig nD τ) (Lvl := ℕ) (Val := Elt F) spec0 c) := by
  rw [scoped_eq]; unfold Phi
  iintro ⟨Hrest, Hp, ⟨%xs, -, Hs⟩⟩
  isplitl [Hp]; · iexact Hp
  isplitl [Hs]; · iexists xs; iexact Hs
  iexact Hrest

/-! ## The proof data -/

/-- The region's proof data on core `c`. The arrays as the region finds them; after the body at point `t` each input's buffer
    at its block and the result's at the sum of the accumulator, the `E` row block and the remainder's row block (what the
    body stores at the last column block; elsewhere the window is idle and this is not read); the invariant above; the
    array both `E` windows read held half and half; nothing owed. -/
def dat (c : Dev nD) : Dat τ (Elt F) Unit ℕ (UR sig nD τ) ℕ cfg0 c where
  A w := V c (Pipeline.arrRef spec0 w)
  after w t := match w with
    | ⟨0, _⟩ => sblk V c 0 t
    | ⟨1, _⟩ => sblk V c 1 t
    | ⟨2, _⟩ => sblk V c 2 t
    | ⟨3, _⟩ => sblk V c 3 t
    | ⟨4, _⟩ => k0_pay3 (acc V c (t.val + 1) t.isLt) (sblk V c 2 t) (sblk V c 3 t)
  Φ t := Phi V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = sblk V c 0 t := by dsimp only [dat]
theorem after_1 (c : Dev nD) (t : Fin cfg0.N) : (dat V c).after 1 t = sblk V c 1 t := by dsimp only [dat]
theorem after_2 (c : Dev nD) (t : Fin cfg0.N) : (dat V c).after 2 t = sblk V c 2 t := by dsimp only [dat]
theorem after_3 (c : Dev nD) (t : Fin cfg0.N) : (dat V c).after 3 t = sblk V c 3 t := by dsimp only [dat]
theorem after_4 (c : Dev nD) (t : Fin cfg0.N) :
    (dat V c).after 4 t = k0_pay3 (acc V c (t.val + 1) t.isLt) (sblk V c 2 t) (sblk V c 3 t) := by dsimp only [dat]

/-- An input window's staging buffer holds its block at every point, fetched there or not (when it is not fetched its block
    index has not moved), whatever it held before: no transfer is cut. -/
theorem before_in (c : Dev nD) (w : Fin cfg0.W) (hw : (cfg0.win w).isOut = false) (hlive : ∀ i, cfg0.idle w i = false)
    (hclip : ∀ (t : Fin cfg0.N) a, (cfg0.win w).clip (cfg0.grid.coords t) a = none)
    (hafter : ∀ t, (dat V c).after w t = sblk V c w t) (t : Fin cfg0.N) (d) : (dat V c).before w t d = sblk V c w t := by
  refine ((dat V c).before_in_eq_fetched w hw hlive (fun t t' _ => funext fun a => (hclip t a).trans (hclip t' a).symm) (fun t => ?_) t d).trans ?_
  · rw [hafter]; unfold sblk; rw [Window.cut_fill]; unfold Dat.blockOf iblk; rw [A_eq]
  · rw [(dat V c).fetched_of_clip_none w t (hclip t) d (fun _ => Classical.arbitrary _)]
    unfold Dat.fetched Dat.blockOf sblk iblk; rw [A_eq]

theorem before_0 (c : Dev nD) (t : Fin cfg0.N) (d) : (dat V c).before 0 t d = sblk V c 0 t :=
  before_in V c 0 rfl (fun _ => rfl) clip0 (after_0 V c) t d
theorem before_1 (c : Dev nD) (t : Fin cfg0.N) (d) : (dat V c).before 1 t d = sblk V c 1 t :=
  before_in V c 1 rfl (fun _ => rfl) clip1 (after_1 V c) t d
theorem before_2 (c : Dev nD) (t : Fin cfg0.N) (d) : (dat V c).before 2 t d = sblk V c 2 t :=
  before_in V c 2 rfl (fun _ => rfl) (fun _ _ => rfl) (after_2 V c) t d
theorem before_3 (c : Dev nD) (t : Fin cfg0.N) (d) : (dat V c).before 3 t d = sblk V c 3 t :=
  before_in V c 3 rfl (fun _ => rfl) (fun _ _ => rfl) (after_3 V c) t d

/-! ## The body obligation -/

/-- A window never idle hands its buffer back at what the body left. -/
theorem leaves_live (c : Dev nD) (w : Fin cfg0.W) (t : Fin cfg0.N) (hi : cfg0.idle w (cfg0.grid.coords t) = false) :
    owns (c : Thread nD τ) ((cfg0.win w).stage (cfg0.slots t w)) fullShare ((dat V c).after w t) ⊢ ((dat V c).leaves w t : sProp 𝕄) :=
  (show owns (c : Thread nD τ) ((cfg0.win w).stage (cfg0.slots t w)) fullShare ((dat V c).after w t) ⊢ ((dat V c).leavesExact w t : sProp 𝕄) from by
    unfold Dat.leavesExact; rw [hi]).trans ((dat V c).leaves_intro w t)

/-- The result's window: at a last column block the body stored the sum; elsewhere the window is idle, is not written back,
    and the buffer is handed back as found. -/
theorem leaves_out (c : Dev nD) (t : Fin cfg0.N) (d4) (xs : Vec F S1000x256 .f32) (hxs : t.val ≠ 0 → xs = acc V c t.val (Nat.le_of_lt t.isLt)) :
    owns (c : Thread nD τ) (st0_4 t) fullShare
        (outOut (grid0.coords t) (sblk V c 0 t) (sblk V c 1 t) (sblk V c 2 t) (sblk V c 3 t) ((dat V c).before 4 t d4) xs)
      ⊢ ((dat V c).leaves 4 t : sProp 𝕄) := by
  unfold outOut
  by_cases hL : condLast (grid0.coords t)
  · have h5 : t.val % 6 = 5 := (hcondLast t).mp hL
    have hi : cfg0.idle 4 (cfg0.grid.coords t) = false := by
      rcases hb : cfg0.idle 4 (cfg0.grid.coords t) with _ | _
      · rfl
      · exact absurd h5 ((idle4_iff t).mp hb)
    rw [if_pos hL, acc_step V c t xs hxs, ← after_4]
    exact leaves_live V c 4 t hi
  · have h5 : ¬ t.val % 6 = 5 := fun h => hL ((hcondLast t).mpr h)
    have hi : cfg0.idle 4 (cfg0.grid.coords t) = true := (idle4_iff t).mpr h5
    have hf : (cfg0.win 4).flush t = false := by
      rcases hb : (cfg0.win 4).flush t with _ | _
      · rfl
      · exact absurd ((flush0_4 t).mp hb) h5
    rw [if_neg hL, (dat V c).leaves_idle 4 t hi hf]
    iintro H; iexists d4; iexact H

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leaves 0 t ∗ (dat V c).leaves 1 t ∗ (dat V c).leaves 2 t ∗ (dat V c).leaves 3 t ∗ (dat V c).leaves 4 t)

/-- The body at any point: the inputs' buffers hold their blocks and the scratch the accumulator, so `sound_kernel` applies;
    the scratch is left at the next accumulator. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.castSucc = Phi V c t.val (Nat.le_of_lt t.isLt) from rfl,
    show (dat V c).Φ t.succ = Phi V c (t.val + 1) t.isLt from rfl,
    show (dat V c).owesAt () t.succ = (dat V c).owesAt () t.castSucc from rfl]
  unfold Phi
  iintro ⟨⟨Hrest, Hp, ⟨%xs, %hxs, Hs⟩⟩, Ho, ⟨%d0, H0⟩, ⟨%d1, H1⟩, ⟨%d2, H2⟩, ⟨%d3, H3⟩, ⟨%d4, H4⟩⟩
  iapply (sound_kernel c Set.univ (grid0.coords t) _ _ _ _ _ _ _ _ _ _ _ _ (sblk V c 0 t) (sblk V c 1 t) (sblk V c 2 t) (sblk V c 3 t)
    ((dat V c).before 4 t d4) xs _)
  isplitl [H0]; · iexact H0
  isplitl [H1]; · iexact H1
  isplitl [H2]; · iexact H2
  isplitl [H3]; · iexact H3
  isplitl [H4]; · iexact H4
  isplitl [Hs]; · iexact Hs
  iintro ⟨H0, H1, H2, H3, H4, Hs⟩
  isplitl [Hrest Hp Hs]
  · isplitl [Hrest]; · iexact Hrest
    isplitl [Hp]; · iexact Hp
    iexists _; isplitr
    swap; · iexact Hs
    ipureintro; exact fun _ => acc_step V c t xs hxs
  isplitl [Ho]; · iexact Ho
  isplitl [H0]; · iapply (leaves_live V c 0 t rfl); rw [after_0]; iexact H0
  isplitl [H1]; · iapply (leaves_live V c 1 t rfl); rw [after_1]; iexact H1
  isplitl [H2]; · iapply (leaves_live V c 2 t rfl); rw [after_2]; iexact H2
  isplitl [H3]; · iapply (leaves_live V c 3 t rfl); rw [after_3]; iexact H3
  iapply (leaves_out V c t d4 xs hxs); iexact H4

/-- The body obligation, at every point. -/
theorem body_obligation (c : Dev nD) : Pipeline.BodyObligationLoose (dat (F := F) V c) (defs₀ (F := F)) Variants.none () Set.univ := fun t => by
  rw [bigSep_W0, bigSep_W0]
  exact sound_body V c t

end Cert.KernelIdeal.Reg0

end
-- ==== Proof.KiReg1.lean ====
/-
  The second kernel region: the two-layer perceptron on blocks of 2048 pairs.

  Its grid has four points. At point `t` the body reads rows `2048 t … 2048 t + 2047` of the feature matrix and the whole
  of the two weight matrices and the two one-row biases, and writes rows `2048 t … 2048 t + 2047` of the result: one
  whole-block store of `(max (X W1 + b1) 0) W2 + b2`. It keeps nothing between points and names no scratch, so what the
  staging buffer of the result holds after the body is one function of the five input blocks, and the invariant carried
  from point to point is only what the body never touches.
-/
import proofs.«116033_j56633438765547_2_alg».proof.Proof.Gen.KernelIdeal.Launch
import proofs.«116033_j56633438765547_2_alg».proof.Proof.Gen.KernelIdeal.Skeleton
import proofs.«116033_j56633438765547_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: when it is not fetched its
    block index has not moved since the last fetch. One statement per input window. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rX : Rect S2048x512 := Rect.unit (s := S2048x512) ![0, 0] S2048x512.size inb_S2048x512_S2048x512_0_0
abbrev rW1 : Rect S512x1152 := Rect.unit (s := S512x1152) ![0, 0] S512x1152.size inb_S512x1152_S512x1152_0_0
abbrev rB1 : Rect S1x1152 := Rect.unit (s := S1x1152) ![0, 0] S1x1152.size inb_S1x1152_S1x1152_0_0
abbrev rW2 : Rect S1152x2 := Rect.unit (s := S1152x2) ![0, 0] S1152x2.size inb_S1152x2_S1152x2_0_0
abbrev rB2 : Rect S1x2 := Rect.unit (s := S1x2) ![0, 0] S1x2.size inb_S1x2_S1x2_0_0
abbrev rO : Rect S2048x2 := Rect.unit (s := S2048x2) ![0, 0] S2048x2.size inb_S2048x2_S2048x2_0_0

/-- What the body leaves in the result's staging buffer, from the five input blocks: its one store. -/
def out5 (x0 : Vec F S2048x512 .bf16) (x1 : Vec F S512x1152 .bf16) (x2 : Vec F S1x1152 .f32) (x3 : Vec F S1152x2 .bf16) (x4 : Vec F S1x2 .f32) :
    Vec F S2048x2 .f32 :=
  View.canon [⟨rO, k1_pay1 (View.ld x0 rX) (View.ld x1 rW1) (View.ld x2 rB1) (View.ld x3 rW2) (View.ld x4 rB2)⟩]

/-- The one store covers the buffer. -/
theorem cover5 (p0 : Vec F S2048x2 .f32) (y : S2048x2.Idx) :
    ∃ pc ∈ ([⟨rO, p0⟩] : List (View.Piece (Elt F) S2048x2 .f32)), y ∈ pc.1.set :=
  View.cover_of_tiled [⟨rO, p0⟩] S2048x2.size (by rfl) y

set_option maxHeartbeats 1000000 in
/-- The body on whole staging buffers, the inputs' at contents `xW` and the result's at anything, runs to the continuation
    holding the inputs' as they were and the result's at `out5` of them. -/
theorem sound_kernel (c : Dev nD) (E : Set ℕ) (i : grid1.Coords)
    (arg1 : Memref sig .tc .vmem S2048x512 .bf16) (harg1 : arg1.IsWhole) (arg2 : Memref sig .tc .vmem S512x1152 .bf16) (harg2 : arg2.IsWhole)
    (arg3 : Memref sig .tc .vmem S1x1152 .f32) (harg3 : arg3.IsWhole) (arg4 : Memref sig .tc .vmem S1152x2 .bf16) (harg4 : arg4.IsWhole)
    (arg5 : Memref sig .tc .vmem S1x2 .f32) (harg5 : arg5.IsWhole) (arg6 : Memref sig .tc .vmem S2048x2 .f32) (harg6 : arg6.IsWhole)
    (x0 : Vec F S2048x512 .bf16) (x1 : Vec F S512x1152 .bf16) (x2 : Vec F S1x1152 .f32) (x3 : Vec F S1152x2 .bf16) (x4 : Vec F S1x2 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The proof data -/

/-- The region's proof data on core `c`: the arrays as the region finds them; after the body at point `t` each input's
    buffer at its block and the result's at `out5` of the input blocks; the invariant what the body never touches;
    nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) :
    (dat V c).after 5 t = out5 (iblk V c 0 t) (iblk V c 1 t) (iblk V c 2 t) (iblk V c 3 t) (iblk V c 4 t) := by dsimp only [dat]

theorem before_0 (c : Dev nD) (t : Fin cfg1.N) (d) : (dat V c).before 0 t d = iblk V c 0 t :=
  before0_of V (dat V c) (A_eq V c 0) (after_0 V c) t d
theorem before_1 (c : Dev nD) (t : Fin cfg1.N) (d) : (dat V c).before 1 t d = iblk V c 1 t :=
  before1_of V (dat V c) (A_eq V c 1) (after_1 V c) t d
theorem before_2 (c : Dev nD) (t : Fin cfg1.N) (d) : (dat V c).before 2 t d = iblk V c 2 t :=
  before2_of V (dat V c) (A_eq V c 2) (after_2 V c) t d
theorem before_3 (c : Dev nD) (t : Fin cfg1.N) (d) : (dat V c).before 3 t d = iblk V c 3 t :=
  before3_of V (dat V c) (A_eq V c 3) (after_3 V c) t d
theorem before_4 (c : Dev nD) (t : Fin cfg1.N) (d) : (dat V c).before 4 t d = iblk V c 4 t :=
  before4_of V (dat V c) (A_eq V c 4) (after_4 V c) t d

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' buffers hold their blocks, so `sound_kernel` applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dat (F := F) V c) (defs₀ (F := F)) Variants.none () Set.univ := fun t => by
  rw [bigSep_W1, bigSep_W1]
  exact sound_body V c t

end Cert.KernelIdeal.Reg1

end
-- ==== Proof.KiData.lean ====
/-
  What the two regions leave and the proof data of the whole run.

  Region 0 is entered at the contents after the first stretch of host operations and leaves its result array at what its
  write-backs make of it; the later host stretches run from there; region 1 is entered at the contents after them and
  leaves the program's result likewise. Beside the buffers every segment carries the generator register at some state and
  the core owing nothing.
-/
import proofs.«116033_j56633438765547_2_alg».proof.Proof.Gen.KernelIdeal.Regions
import proofs.«116033_j56633438765547_2_alg».proof.Proof.KiReg0
import proofs.«116033_j56633438765547_2_alg».proof.Proof.KiReg1

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- The core's buffers when region 0 is entered. -/
abbrev Ve0 (c : Dev nD) (b : Ref sig .tc) : Buf (Elt F) ((c : Thread nD τ).loc b) := V1 m c b
/-- What region 0 leaves in its result array. -/
def X0 (c : Dev nD) : Buf (Elt F) ((c : Thread nD τ).loc main_v4) := (Reg0.dat (Ve0 m) c).arrAt 4 cfg0.N
/-- The regions' leavings with only region 0's named (what region 1's entry contents are written over). -/
def outs0 : Outs (F := F) := fun _ r c => Function.update (V1 m c) main_v4 (X0 m c) r
/-- The core's buffers when region 1 is entered. -/
abbrev Ve1 (c : Dev nD) (b : Ref sig .tc) : Buf (Elt F) ((c : Thread nD τ).loc b) := V9 m (outs0 m) c b
/-- What region 1 leaves in its result array. -/
def X1 (c : Dev nD) : Buf (Elt F) ((c : Thread nD τ).loc main_v21) := (Reg1.dat (Ve1 m) c).arrAt 5 cfg1.N
/-- What the two regions leave. -/
def outs : Outs (F := F) := fun n r c =>
  if n = 10 then Function.update (V9 m (outs0 m) c) main_v21 (X1 m c) r else outs0 m n r c

theorem outs_2 (c : Dev nD) : outs m 2 main_v4 c = X0 m c := by
  unfold outs outs0; rw [if_neg (by decide)]; exact Function.update_self ..
theorem outs_10 (c : Dev nD) : outs m 10 main_v21 c = X1 m c := by
  unfold outs; rw [if_pos rfl]; exact Function.update_self ..
/-- Region 1's entry contents read nothing of what region 1 leaves. -/
theorem V2_outs (c : Dev nD) : V2 m (outs m) c = V2 m (outs0 m) c := by
  unfold V2; rw [outs_2]; unfold outs0; rw [Function.update_self]
theorem V9_outs (c : Dev nD) : V9 m (outs m) c = V9 m (outs0 m) c := by
  unfold V9 V8 V7 V6 V5 V4 V3; rw [V2_outs]

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Reg0.dat (Ve0 m) c
  | ⟨1, _⟩ => fun c => Reg1.dat (Ve1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

end Cert.KernelIdeal.Run

end
-- ==== Proof.KiSegs.lean ====
/-
  The two kernel regions as segments of the run.

  Each region is entered holding every unscoped buffer of the core at the contents the host operations before it left, takes
  its windows' arrays out of them, and puts them back at its exit with its result array at what its write-backs made of it.
  Region 0 reads the embeddings through two windows: on entry that array's full share is split into two halves, one per
  window, and on exit the halves — both still at the array's entry contents, inputs being never written — are joined again.
-/
import proofs.«116033_j56633438765547_2_alg».proof.Proof.KiData
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-! ## Region 1 -/

/-- At region 1's exit each of its arrays holds what the pipeline leaves: an input what it held, the result its write-backs. -/
theorem hF1 (c : Dev nD) : ∀ w : Fin cfg1.W, (pdats m 1 c).arrAt w cfg1.N = V10 m (outs m) c (Pipeline.arrRef spec1 w)
  | ⟨0, _⟩ => (show (Reg1.dat (Ve1 m) c).arrAt 0 cfg1.N = V10 m (outs m) c main_v16 from by
      rw [V10_of m (outs m) c main_v16 (by decide), V9_outs]; exact ((Reg1.dat (Ve1 m) c).arrAt_in 0 rfl _).trans (Reg1.A_eq (Ve1 m) c 0))
  | ⟨1, _⟩ => (show (Reg1.dat (Ve1 m) c).arrAt 1 cfg1.N = V10 m (outs m) c main_v17 from by
      rw [V10_of m (outs m) c main_v17 (by decide), V9_outs]; exact ((Reg1.dat (Ve1 m) c).arrAt_in 1 rfl _).trans (Reg1.A_eq (Ve1 m) c 1))
  | ⟨2, _⟩ => (show (Reg1.dat (Ve1 m) c).arrAt 2 cfg1.N = V10 m (outs m) c main_v19 from by
      rw [V10_of m (outs m) c main_v19 (by decide), V9_outs]; exact ((Reg1.dat (Ve1 m) c).arrAt_in 2 rfl _).trans (Reg1.A_eq (Ve1 m) c 2))
  | ⟨3, _⟩ => (show (Reg1.dat (Ve1 m) c).arrAt 3 cfg1.N = V10 m (outs m) c main_v18 from by
      rw [V10_of m (outs m) c main_v18 (by decide), V9_outs]; exact ((Reg1.dat (Ve1 m) c).arrAt_in 3 rfl _).trans (Reg1.A_eq (Ve1 m) c 3))
  | ⟨4, _⟩ => (show (Reg1.dat (Ve1 m) c).arrAt 4 cfg1.N = V10 m (outs m) c main_v20 from by
      rw [V10_of m (outs m) c main_v20 (by decide), V9_outs]; exact ((Reg1.dat (Ve1 m) c).arrAt_in 4 rfl _).trans (Reg1.A_eq (Ve1 m) c 4))
  | ⟨5, _⟩ => (show (Reg1.dat (Ve1 m) c).arrAt 5 cfg1.N = V10 m (outs m) c main_v21 from by
      unfold V10; rw [outs_10, Function.update_self]; rfl)

/-- and every other buffer what it held at entry. -/
theorem hrest1 (c : Dev nD) : ∀ b, b ∉ Finset.univ.image (Pipeline.arrRef spec1) → V10 m (outs m) c b = Ve1 m c b := fun b hb => by
  rw [V10_of m (outs m) c b (fun h => hb (by
    rw [List.mem_singleton] at h; subst h; exact Finset.mem_image.mpr ⟨5, Finset.mem_univ _, rfl⟩)), V9_outs]

set_option backward.isDefEq.respectTransparency.types false in
/-- Region 1 over the thread state "every unscoped buffer at the boundary's contents, the generator register at some state,
    nothing owed". -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (Ve1 m) c).loose
  hwaits := Pipeline.hwaits_of_owed_zero _ _ _ _ L lv 1 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none, V9_outs]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (fun b => V10 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 0 -/

/-- The distinct buffers behind region 0's windows: the adjacency matrix, the embeddings (read by two windows), the
    remainder and the result. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg1) ↦{fullShare} V main_arg1) ∗ (((c : Thread nD τ).loc main_arg2) ↦{fullShare} V main_arg2)
          ∗ (((c : Thread nD τ).loc main_v3) ↦{fullShare} V main_v3) ∗ (((c : Thread nD τ).loc main_v4) ↦{fullShare} V main_v4)) := by
  unfold Pipeline.arrBufs
  rw [bigSep_eq_bigSepL_of_eq [main_arg1, main_arg2, main_v3, main_v4] (by decide) (by decide)]
  rfl

/-- Region 0's five windows' arrays, each at its share: the two windows on the embeddings hold a half each. -/
theorem arrays_eq0 (c : Dev nD) (F' : (w : Fin cfg0.W) → Buf (Elt F) ((cfg0.win w).arr.view.loc (c : Thread nD τ))) :
    ((Reg0.dat (Ve0 m) c).arrays F' : sProp 𝕄)
      = iprop((((c : Thread nD τ).loc main_arg1) ↦{fullShare} F' 0) ∗ (((c : Thread nD τ).loc main_arg2) ↦{fullShare.left} F' 1)
          ∗ (((c : Thread nD τ).loc main_arg2) ↦{fullShare.right} F' 2) ∗ (((c : Thread nD τ).loc main_v3) ↦{fullShare} F' 3)
          ∗ (((c : Thread nD τ).loc main_v4) ↦{fullShare} F' 4)) := by
  unfold Pipeline.Dat.arrays
  rw [bigSep_W0]
  simp only [(arr_whole0 0).set_eq_univ, (arr_whole0 1).set_eq_univ, (arr_whole0 2).set_eq_univ, (arr_whole0 3).set_eq_univ, (arr_whole0 4).set_eq_univ]
  rfl

/-- ENTRY of region 0: the core's unscoped buffers at the contents after the first host stretch are the region's arrays at their
    entry contents — the embeddings' full share dealt in halves to the two windows that read them — and the rest. -/
theorem entry0 (c : Dev nD) :
    (StableHlo.held (c : Thread nD τ) (Pipeline.ucRefs τ sig) (V1 m c) : sProp 𝕄)
      ⊢ iprop((Reg0.dat (Ve0 m) c).arrays ((Reg0.dat (Ve0 m) c).arrAt · 0)
          ∗ Pipeline.unscopedRest (Ix := Unit) (Name := ℕ) (U := UR sig nD τ) (Lvl := ℕ) spec0 c (Ve0 m c)) := by
  have h := Pipeline.unscopedBufs_split₀ (Ix := Unit) (Name := ℕ) (U := UR sig nD τ) (Lvl := ℕ) (Pipeline.pin (pcfgs (F := F)) adm) 0
    winFacts₀0.arr_unscoped c (Ve0 m c)
  rw [Pipeline.unscopedBufs_held] at h
  rw [h]
  refine sep_mono ?_ .rfl
  change (Pipeline.arrBufs (Ix := Unit) (Name := ℕ) (U := UR sig nD τ) (Lvl := ℕ) spec0 c (Ve0 m c) : sProp 𝕄) ⊢ _
  rw [arrBufs_eq, arrays_eq0]
  iintro ⟨Ha, He, Ht, Ho⟩
  ihave He2 := (pointsTo_share (PosShare.mem_left_op_right fullShare)).1 $$ He
  icases He2 with ⟨Hl, Hr⟩
  isplitl [Ha]; · iexact Ha
  isplitl [Hl]; · iexact Hl
  isplitl [Hr]; · iexact Hr
  isplitl [Ht]; · iexact Ht
  iexact Ho

/-- EXIT of region 0: its arrays after the write-backs — the inputs as entered, so the two halves of the embeddings join — and
    the rest are the core's unscoped buffers at the next boundary's contents. -/
theorem exit0 (c : Dev nD) :
    iprop((Reg0.dat (Ve0 m) c).arrays ((Reg0.dat (Ve0 m) c).arrAt · cfg0.N)
        ∗ Pipeline.unscopedRest (Ix := Unit) (Name := ℕ) (U := UR sig nD τ) (Lvl := ℕ) spec0 c (Ve0 m c))
      ⊢ (StableHlo.held (c : Thread nD τ) (Pipeline.ucRefs τ sig) (V2 m (outs m) c) : sProp 𝕄) := by
  have h := Pipeline.unscopedBufs_split₀ (Ix := Unit) (Name := ℕ) (U := UR sig nD τ) (Lvl := ℕ) (Pipeline.pin (pcfgs (F := F)) adm) 0
    winFacts₀0.arr_unscoped c (fun b => V2 m (outs m) c b)
  rw [Pipeline.unscopedBufs_held] at h
  rw [h]
  refine sep_mono ?_ (Entails.of_eq ?_)
  · change _ ⊢ (Pipeline.arrBufs (Ix := Unit) (Name := ℕ) (U := UR sig nD τ) (Lvl := ℕ) spec0 c (fun b => V2 m (outs m) c b) : sProp 𝕄)
    rw [arrBufs_eq, arrays_eq0]
    have e0 : (Reg0.dat (Ve0 m) c).arrAt 0 cfg0.N = V2 m (outs m) c main_arg1 := by
      rw [V2_of m (outs m) c main_arg1 (by decide)]; exact ((Reg0.dat (Ve0 m) c).arrAt_in 0 rfl _).trans (Reg0.A_eq (Ve0 m) c 0)
    have e1 : (Reg0.dat (Ve0 m) c).arrAt 1 cfg0.N = V2 m (outs m) c main_arg2 := by
      rw [V2_of m (outs m) c main_arg2 (by decide)]; exact ((Reg0.dat (Ve0 m) c).arrAt_in 1 rfl _).trans (Reg0.A_eq (Ve0 m) c 1)
    have e2 : (Reg0.dat (Ve0 m) c).arrAt 2 cfg0.N = V2 m (outs m) c main_arg2 := by
      rw [V2_of m (outs m) c main_arg2 (by decide)]; exact ((Reg0.dat (Ve0 m) c).arrAt_in 2 rfl _).trans (Reg0.A_eq (Ve0 m) c 2)
    have e3 : (Reg0.dat (Ve0 m) c).arrAt 3 cfg0.N = V2 m (outs m) c main_v3 := by
      rw [V2_of m (outs m) c main_v3 (by decide)]; exact ((Reg0.dat (Ve0 m) c).arrAt_in 3 rfl _).trans (Reg0.A_eq (Ve0 m) c 3)
    have e4 : (Reg0.dat (Ve0 m) c).arrAt 4 cfg0.N = V2 m (outs m) c main_v4 := by
      unfold V2; rw [outs_2, Function.update_self]; rfl
    rw [e0, e1, e2, e3, e4]
    iintro ⟨Ha, Hl, Hr, Ht, Ho⟩
    isplitl [Ha]; · iexact Ha
    isplitl [Hl Hr]
    · iapply (pointsTo_share (PosShare.mem_left_op_right fullShare)).2
      isplitl [Hl] <;> iassumption
    isplitl [Ht]; · iexact Ht
    iexact Ho
  · unfold Pipeline.unscopedRest
    exact bigSep_congr fun b hb => by
      show (((c : Thread nD τ).loc b) ↦{fullShare} V1 m c b : sProp 𝕄) = (((c : Thread nD τ).loc b) ↦{fullShare} V2 m (outs m) c b)
      rw [V2_of m (outs m) c b (fun hmem => (Finset.mem_sdiff.mp hb).2 (by
        rw [List.mem_singleton] at hmem; subst hmem; exact Finset.mem_image.mpr ⟨4, Finset.mem_univ _, rfl⟩))]

set_option backward.isDefEq.respectTransparency.types false in
/-- Region 0 over the same thread state. The generator register goes into the invariant and comes back; the scratch the
    accumulator lives in is one of the scoped buffers the region hands the body; nothing is owed; the kernel names no
    semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := Reg0.body_obligation (Ve0 m) c
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Reg0.Phi (Ve0 m) c 0 (Nat.zero_le _) from rfl]
    iintro ⟨Hp, -, Hr⟩
    iapply (Reg0.Phi_in (Ve0 m) c)
    isplitl [Hp]; · iexact Hp
    iexact Hr
  hout c := by
    rw [Pipeline.ownSems0_none, show (pdats m 0 c).Φ (Fin.last _) = Reg0.Phi (Ve0 m) c cfg0.N (Nat.le_refl _) from rfl]
    iintro H
    ihave H2 := (Reg0.Phi_out (Ve0 m) c cfg0.N (Nat.le_refl _)) $$ H
    icases H2 with ⟨Hp, Hr⟩
    isplitl [Hp]; · iexact Hp
    isplitr; · iempintro
    iexact Hr
  hexit c := by
    iintro ⟨Ha, HO, HY, Hrest⟩
    imodintro
    isplitl [Ha Hrest]
    · iapply (exit0 m c)
      isplitl [Ha]; · iexact Ha
      iexact Hrest
    isplitl [HY]; · iexact HY
    unfold Pipeline.Dat.owesAt Pipeline.owesWithin
    icases HO with ⟨%W, -, HO⟩; iexists W; iexact HO

end Cert.KernelIdeal.Run

end
-- ==== Proof.KiRunCond.lean ====
/-
  The tiled program's run, given its two regions' records, with every unscoped buffer named in the post.

  Between two items of the program a core holds every unscoped buffer whole at the valuation of that point; the last
  valuation is the launch contents carried through the host stretches and changed by the two regions at their output
  arrays only. Every weakly fair execution terminates, and each unscoped buffer of every core ends at the last valuation:
  the result array at what the second region leaves, each argument array, which no item writes, as launched.
-/
import proofs.«116033_j56633438765547_2_alg».proof.Proof.Gen.KernelIdeal.Regions

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ)

/-! ## The posts -/

/-- A final memory that holds every unscoped buffer of every core at the last valuation holds each argument array as
    launched: no item writes an argument. -/
theorem args_of_all (outs : Outs (F := F)) (s : MemSt nD τ sig (Elt F))
    (h : ∀ c : Dev nD, ∀ b ∈ Pipeline.ucRefs τ sig, s.mem (((c : Thread nD τ)).1, b) = V10 m outs c b) (c : Dev nD) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6) :=
  ⟨(h c (Proc.devRef .tc main_arg0) (Finset.mem_filter.mpr ⟨StableHlo.devRef_mem_tcRefs main_arg0, by decide⟩)).trans (V10_main_arg0 m outs c),
    (h c (Proc.devRef .tc main_arg1) (Finset.mem_filter.mpr ⟨StableHlo.devRef_mem_tcRefs main_arg1, by decide⟩)).trans (V10_main_arg1 m outs c),
    (h c (Proc.devRef .tc main_arg2) (Finset.mem_filter.mpr ⟨StableHlo.devRef_mem_tcRefs main_arg2, by decide⟩)).trans (V10_main_arg2 m outs c),
    (h c (Proc.devRef .tc main_arg3) (Finset.mem_filter.mpr ⟨StableHlo.devRef_mem_tcRefs main_arg3, by decide⟩)).trans (V10_main_arg3 m outs c),
    (h c (Proc.devRef .tc main_arg4) (Finset.mem_filter.mpr ⟨StableHlo.devRef_mem_tcRefs main_arg4, by decide⟩)).trans (V10_main_arg4 m outs c),
    (h c (Proc.devRef .tc main_arg5) (Finset.mem_filter.mpr ⟨StableHlo.devRef_mem_tcRefs main_arg5, by decide⟩)).trans (V10_main_arg5 m outs c),
    (h c (Proc.devRef .tc main_arg6) (Finset.mem_filter.mpr ⟨StableHlo.devRef_mem_tcRefs main_arg6, by decide⟩)).trans (V10_main_arg6 m outs c)⟩

/-- … and holds the result array at the last valuation's. -/
theorem result_of_all (outs : Outs (F := F)) (s : MemSt nD τ sig (Elt F))
    (h : ∀ c : Dev nD, ∀ b ∈ Pipeline.ucRefs τ sig, s.mem (((c : Thread nD τ)).1, b) = V10 m outs c b) (c : Dev nD) :
    s.mem ((c.tc : Thread nD τ).loc main_v21) = V10 m outs c main_v21 :=
  h c (Proc.devRef .tc main_v21) (Finset.mem_filter.mpr ⟨StableHlo.devRef_mem_tcRefs main_v21, by decide⟩)

/-! ## The run, given the regions' records -/

set_option backward.isDefEq.respectTransparency.types false in
/-- THE CONDITIONAL RUN: given, per region, a segment record entered from the thread state before it and left at the
    one after it, every weakly fair execution of the program from memory `m` with zero counters terminates and every
    final memory holds each unscoped buffer of every core at the last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V10 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, hpre0 c, hpost0 c, .rfl, .rfl, .rfl, .rfl, .rfl, .rfl, hpre1 c, (hpost1 c).trans (sep_mono .rfl (hE2 c))⟩)
    (hinit := ?_) (QY := fun c s => ∀ b ∈ Pipeline.ucRefs τ sig, s.mem (((c : Thread nD τ)).1, b) = V10 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact h
    · iexact HSI

/-- The frame: every argument array ends as launched. -/
theorem frame_of_run {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_of_all m outs r.2 h c)
    (run_cond m EP ι 𝒱₀ L lv hL ρ outs pdats O₀ G u₀ hu₀ E hE0 hE2 R0 hpre0 hpost0 R1 hpre1 hpost1)

/-- The value: the result array ends at what the second region leaves, and every argument array as launched. -/
theorem value_of_run {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c)) :
    θ_run defs (onTc (τ := τ) (main (F := F))) ⟨m, fun _ => 0, ρ⟩ (fun r => ∀ c : Dev nD,
      r.2.mem ((c.tc : Thread nD τ).loc main_v21) = V10 m outs c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨result_of_all m outs r.2 h c, args_of_all m outs r.2 h c⟩)
    (run_cond m EP ι 𝒱₀ L lv hL ρ outs pdats O₀ G u₀ hu₀ E hE0 hE2 R0 hpre0 hpost0 R1 hpre1 hpost1)

end Cert.KernelIdeal.Run

end
-- ==== Proof.KiLaunch.lean ====
/-
  The launch: from the two regions' records to the run of the whole program.

  The program is a chain of host stretches and two kernel regions. Given, for each region, a record of its run entered
  from the buffers' contents before it and left at the contents after it, the chain runs from any memory with zero
  counters and ends with every argument array as launched. What is settled here is the launch's own part: the ghost
  state the launch starts from is the pipelines' cells and tokens and nothing else; of what the launch deals each core —
  its unscoped semaphores at zero, an empty account of what it owes, its launch credit, its generator register — the
  rest state that rides beside the buffers keeps the generator register and the empty account and drops the others;
  and at the end that rest state still owes nothing.
-/
import proofs.«116033_j56633438765547_2_alg».proof.Proof.KiData
import proofs.«116033_j56633438765547_2_alg».proof.Proof.KiRunCond

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- The ghost state at launch: the pipelines' cells and launch tokens, and nothing per core beside them. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Of what the launch deals every core, the rest state keeps the generator register and the empty account. -/
theorem rest_at_launch (ρ : Dev nD → PrngReg) :
    iprop((bigSep Finset.univ fun c : Dev nD => iprop(unscopedSems0 c
        ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- At the end the rest state owes nothing. -/
theorem rest_owes_nothing (c : Dev nD) :
    E (F := F) 2 c ⊢ (iprop(∃ W, owes (c : Thread nD τ) (0 : CellTallies nD τ sig Unit) W) : sProp 𝕄) := by
  iintro ⟨-, HO⟩
  iexact HO

/-- THE FRAME FROM THE TWO RECORDS: every weakly fair execution from `m` with zero counters terminates with every argument
    array as launched. -/
theorem frame_of_records (ρ : Dev nD → PrngReg)
    (R0 : Pipeline.RegionSeg (pcfgs (F := F)) adm (pdats m) () defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m (outs m) c) ∗ E 1 c))
    (R1 : Pipeline.RegionSeg (pcfgs (F := F)) adm (pdats m) () defs₀ 𝒱₀ L lv 1)
    (hpre1 : ∀ c : Dev nD, iprop(StableHlo.held (c : Thread nD τ) (Pipeline.ucRefs τ sig) (V9 m (outs m) c) ∗ E 1 c) ⊢ R1.pre c)
    (hpost1 : ∀ c : Dev nD, R1.post c ⊢ iprop(StableHlo.held (c : Thread nD τ) (Pipeline.ucRefs τ sig) (V10 m (outs m) c) ∗ E 2 c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.frame_cond m emb₁ () 𝒱₀ L lv (fun _ _ => rfl) ρ (outs m) (pdats m) 0 (fun _ => iprop(emp))
    (initOf (Pipeline.cells cfgs cellOf_inj) (Pipeline.launchToks cfgs cellOf_inj)) launch_ghost E (rest_at_launch ρ)
    rest_owes_nothing R0 hpre0 hpost0 R1 hpre1 hpost1

/-- THE RUN FROM THE TWO RECORDS: every weakly fair execution from `m` with zero counters terminates with every unscoped
    buffer of every core at the last valuation. -/
theorem run_of_records (ρ : Dev nD → PrngReg)
    (R0 : Pipeline.RegionSeg (pcfgs (F := F)) adm (pdats m) () defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m (outs m) c) ∗ E 1 c))
    (R1 : Pipeline.RegionSeg (pcfgs (F := F)) adm (pdats m) () defs₀ 𝒱₀ L lv 1)
    (hpre1 : ∀ c : Dev nD, iprop(StableHlo.held (c : Thread nD τ) (Pipeline.ucRefs τ sig) (V9 m (outs m) c) ∗ E 1 c) ⊢ R1.pre c)
    (hpost1 : ∀ c : Dev nD, R1.post c ⊢ iprop(StableHlo.held (c : Thread nD τ) (Pipeline.ucRefs τ sig) (V10 m (outs m) c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V10 m (outs m) c b) :=
  run_cond m emb₁ () 𝒱₀ L lv (fun _ _ => rfl) ρ (outs m) (pdats m) 0 (fun _ => iprop(emp))
    (initOf (Pipeline.cells cfgs cellOf_inj) (Pipeline.launchToks cfgs cellOf_inj)) launch_ghost E (rest_at_launch ρ)
    rest_owes_nothing R0 hpre0 hpost0 R1 hpre1 hpost1

/-- THE VALUE FROM THE TWO RECORDS: the result array ends at what the second region leaves, every argument array as
    launched. -/
theorem value_of_records (ρ : Dev nD → PrngReg)
    (R0 : Pipeline.RegionSeg (pcfgs (F := F)) adm (pdats m) () defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m (outs m) c) ∗ E 1 c))
    (R1 : Pipeline.RegionSeg (pcfgs (F := F)) adm (pdats m) () defs₀ 𝒱₀ L lv 1)
    (hpre1 : ∀ c : Dev nD, iprop(StableHlo.held (c : Thread nD τ) (Pipeline.ucRefs τ sig) (V9 m (outs m) c) ∗ E 1 c) ⊢ R1.pre c)
    (hpost1 : ∀ c : Dev nD, R1.post c ⊢ iprop(StableHlo.held (c : Thread nD τ) (Pipeline.ucRefs τ sig) (V10 m (outs m) c) ∗ E 2 c)) :
    θ_run defs (onTc (τ := τ) (main (F := F))) ⟨m, fun _ => 0, ρ⟩ (fun r => ∀ c : Dev nD,
      r.2.mem ((c.tc : Thread nD τ).loc main_v21) = V10 m (outs m) c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  value_of_run m emb₁ () 𝒱₀ L lv (fun _ _ => rfl) ρ (outs m) (pdats m) 0 (fun _ => iprop(emp))
    (initOf (Pipeline.cells cfgs cellOf_inj) (Pipeline.launchToks cfgs cellOf_inj)) launch_ghost E (rest_at_launch ρ)
    rest_owes_nothing R0 hpre0 hpost0 R1 hpre1 hpost1

end Cert.KernelIdeal.Run

end
-- ==== Proof.KiReg0Blocks.lean ====
/-
  The first kernel region's blocks read at an entry.

  The grid has 10 × 6 points; point `t` is row block `t / 6` at column block `t % 6`. The adjacency window's block at `t` is
  rows `1000 (t / 6) …`, columns `1664 (t % 6) …`; the column-tiled embedding window's is rows `1664 (t % 6) …`; the
  row-tiled embedding window's, the remainder's and the result's are rows `1000 (t / 6) …`. An element of a block sits in
  its array, on each axis, at the block index times the block's size plus its own coordinate. No transfer of this grid
  is cut, so a staging buffer after its fetch holds exactly its block.
-/
import proofs.«116033_j56633438765547_2_alg».proof.Proof.KiReg0
import Idealize.ShloMosaic.Lib.ValueIdx
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps, decided once over the grid. -/
theorem idx_facts : ∀ t : Fin cfg0.N,
    win0_0.index t (0 : Fin 2) = t.val / 6 ∧ win0_0.index t (1 : Fin 2) = t.val % 6
    ∧ win0_1.index t (0 : Fin 2) = t.val % 6 ∧ win0_1.index t (1 : Fin 2) = 0
    ∧ win0_2.index t (0 : Fin 2) = t.val / 6 ∧ win0_2.index t (1 : Fin 2) = 0
    ∧ win0_3.index t (0 : Fin 2) = t.val / 6 ∧ win0_3.index t (1 : Fin 2) = 0
    ∧ win0_4.index t (0 : Fin 2) = t.val / 6 ∧ win0_4.index t (1 : Fin 2) = 0 :=
  (by decide +kernel : ∀ t : Fin grid0.N,
    win0_0.index t (0 : Fin 2) = t.val / 6 ∧ win0_0.index t (1 : Fin 2) = t.val % 6
    ∧ win0_1.index t (0 : Fin 2) = t.val % 6 ∧ win0_1.index t (1 : Fin 2) = 0
    ∧ win0_2.index t (0 : Fin 2) = t.val / 6 ∧ win0_2.index t (1 : Fin 2) = 0
    ∧ win0_3.index t (0 : Fin 2) = t.val / 6 ∧ win0_3.index t (1 : Fin 2) = 0
    ∧ win0_4.index t (0 : Fin 2) = t.val / 6 ∧ win0_4.index t (1 : Fin 2) = 0)

/-- The adjacency block at point `t`, entry `(r, j)`: the array at row `1000 b + r`, column `1664 k + j`. -/
theorem sblk0_apply (c : Dev nD) (t : Fin cfg0.N) (b : Fin 10) (k : Fin 6) (hb : t.val / 6 = b.val) (hk : t.val % 6 = k.val)
    (r : Fin 1000) (j : Fin 1664) :
    (sblk V c 0 t : S1000x1664.Idx → EReal) (ix2 r j)
      = (V c main_arg1 : S10000x10000.Idx → EReal)
          (ix2 (⟨1000 * b.val + r.val, by omega⟩ : Fin 10000) (⟨1664 * k.val + j.val, by omega⟩ : Fin 10000)) := by
  obtain ⟨e0, e1, -⟩ := idx_facts t
  have hm : (cfg0.win 0).moved (cfg0.grid.coords t) (ix2 r j) = true :=
    ((cfg0.win 0).moved_iff _ _).mpr fun a => by
      have := ((ix2 r j : S1000x1664.Idx) a).isLt; unfold Window.xsize; rw [clip0 t a]; exact this
  unfold sblk Window.fill
  rw [dif_pos hm]
  unfold iblk
  refine congrArg (V c main_arg1 : S10000x10000.Idx → EReal) (funext fun a => Fin.ext ?_)
  match a with
  | ⟨0, _⟩ => show win0_0.index t (0 : Fin 2) * 1000 + 1 * r.val = 1000 * b.val + r.val; omega
  | ⟨1, _⟩ => show win0_0.index t (1 : Fin 2) * 1664 + 1 * j.val = 1664 * k.val + j.val; omega

/-- The column-tiled embedding block at point `t`, entry `(j, d)`: the array at row `1664 k + j`. -/
theorem sblk1_apply (c : Dev nD) (t : Fin cfg0.N) (k : Fin 6) (hk : t.val % 6 = k.val) (j : Fin 1664) (d : Fin 256) :
    (sblk V c 1 t : S1664x256.Idx → EReal) (ix2 j d)
      = (V c main_arg2 : S10000x256.Idx → EReal) (ix2 (⟨1664 * k.val + j.val, by omega⟩ : Fin 10000) d) := by
  obtain ⟨-, -, e2, e3, -⟩ := idx_facts t
  have hm : (cfg0.win 1).moved (cfg0.grid.coords t) (ix2 j d) = true :=
    ((cfg0.win 1).moved_iff _ _).mpr fun a => by
      have := ((ix2 j d : S1664x256.Idx) a).isLt; unfold Window.xsize; rw [clip1 t a]; exact this
  unfold sblk Window.fill
  rw [dif_pos hm]
  unfold iblk
  refine congrArg (V c main_arg2 : S10000x256.Idx → EReal) (funext fun a => Fin.ext ?_)
  match a with
  | ⟨0, _⟩ => show win0_1.index t (0 : Fin 2) * 1664 + 1 * j.val = 1664 * k.val + j.val; omega
  | ⟨1, _⟩ => show win0_1.index t (1 : Fin 2) * 256 + 1 * d.val = d.val; omega

/-- The row-tiled embedding block at point `t`, entry `(r, d)`: the array at row `1000 b + r`. -/
theorem sblk2_apply (c : Dev nD) (t : Fin cfg0.N) (b : Fin 10) (hb : t.val / 6 = b.val) (r : Fin 1000) (d : Fin 256) :
    (sblk V c 2 t : S1000x256.Idx → EReal) (ix2 r d)
      = (V c main_arg2 : S10000x256.Idx → EReal) (ix2 (⟨1000 * b.val + r.val, by omega⟩ : Fin 10000) d) := by
  obtain ⟨-, -, -, -, e4, e5, -⟩ := idx_facts t
  have hm : (cfg0.win 2).moved (cfg0.grid.coords t) (ix2 r d) = true := rfl
  unfold sblk Window.fill
  rw [dif_pos hm]
  unfold iblk
  refine congrArg (V c main_arg2 : S10000x256.Idx → EReal) (funext fun a => Fin.ext ?_)
  match a with
  | ⟨0, _⟩ => show win0_2.index t (0 : Fin 2) * 1000 + 1 * r.val = 1000 * b.val + r.val; omega
  | ⟨1, _⟩ => show win0_2.index t (1 : Fin 2) * 256 + 1 * d.val = d.val; omega

/-- The remainder's block at point `t`, entry `(r, d)`: the array at row `1000 b + r`. -/
theorem sblk3_apply (c : Dev nD) (t : Fin cfg0.N) (b : Fin 10) (hb : t.val / 6 = b.val) (r : Fin 1000) (d : Fin 256) :
    (sblk V c 3 t : S1000x256.Idx → EReal) (ix2 r d)
      = (V c main_v3 : S10000x256.Idx → EReal) (ix2 (⟨1000 * b.val + r.val, by omega⟩ : Fin 10000) d) := by
  obtain ⟨-, -, -, -, -, -, e6, e7, -⟩ := idx_facts t
  have hm : (cfg0.win 3).moved (cfg0.grid.coords t) (ix2 r d) = true := rfl
  unfold sblk Window.fill
  rw [dif_pos hm]
  unfold iblk
  refine congrArg (V c main_v3 : S10000x256.Idx → EReal) (funext fun a => Fin.ext ?_)
  match a with
  | ⟨0, _⟩ => show win0_3.index t (0 : Fin 2) * 1000 + 1 * r.val = 1000 * b.val + r.val; omega
  | ⟨1, _⟩ => show win0_3.index t (1 : Fin 2) * 256 + 1 * d.val = d.val; omega

/-- An entry `(r, d)` of the result's block at point `t` sits in the array at row `1000 b + r`. -/
theorem blk4_emb (t : Fin cfg0.N) (b : Fin 10) (hb : t.val / 6 = b.val) (r : Fin 1000) (d : Fin 256) :
    (((cfg0.win 4).blk t).view.emb (ix2 r d : S1000x256.Idx) : S10000x256.Idx)
      = ix2 (⟨1000 * b.val + r.val, by omega⟩ : Fin 10000) d := by
  obtain ⟨-, -, -, -, -, -, -, -, e8, e9⟩ := idx_facts t
  refine funext fun a => Fin.ext ?_
  match a with
  | ⟨0, _⟩ => show win0_4.index t (0 : Fin 2) * 1000 + 1 * r.val = 1000 * b.val + r.val; omega
  | ⟨1, _⟩ => show win0_4.index t (1 : Fin 2) * 256 + 1 * d.val = d.val; omega

end Cert.KernelIdeal.Reg0

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibRowOps.lean ====
/-
  General readings, at the ideal values, of the operations a row-wise dense layer and a row-wise reduction are printed
  with, each at an entry given by its coordinates.

  * An affine layer `A·B + b` (the bias a vector laid along every row): the entry `(r, c)` is `∑_q A_{r,q} B_{q,c} + b_c`,
    whether it is spelt as a kernel spells it (a matrix product accumulated into the zero splat, plus the broadcast of the
    bias's one-row cast) or as the host does (a `dot_general`, plus the bias broadcast to one row and then down the rows).
  * A sum along the rows of a matrix: the entry `r` is `∑_q v_{r,q}`, for the kernel's lane reduction (whose neutral
    accumulator the reading drops) and, with the initial value in front, for the host's `reduce`.
  * A column `[a, 1]` turned on its side and given a leading unit axis reads back, at `(0, 0, j)`, the column at `(j, 0)`.
-/
import Idealize.ShloMosaic.Lib.StackMember
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws
import proofs.«116033_j56633438765547_2_alg».proof.Proof.LibMatmulPlain

noncomputable section

open scoped BigOperators

namespace Cert.LibRowOps

open Idealize.ShloMosaic Idealize.ShloMosaic.ValueIdx

/-- A kernel's affine layer at an entry: the matrix product with the plain dimension numbers into the zero splat, plus the
    bias vector cast to one row and broadcast down the rows. -/
theorem kernel_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (h1 : (⟨1, ![n]⟩ : Shape).ShapeCasts ⟨2, ![1, n]⟩) (hb : (⟨2, ![1, n]⟩ : Shape).Broadcasts ⟨2, ![m, n]⟩)
    (r : Fin m) (c : Fin n) :
    addf (matmul dd prec A B (constant (F := Ideal) ⟨2, ![m, n]⟩ .f32 0x00000000#32))
        (broadcastTo ⟨2, ![m, n]⟩ (shapeCast ⟨2, ![1, n]⟩ b h1) hb) (ix2 r c)
      = (∑ q : Fin k, A (ix2 r q) * B (ix2 q c)) + b (ix1 c) := by
  subst hdd
  rw [addf_apply, LibMatmulPlain.matmul_plain_zero_apply, broadcastTo_1b_ab_apply, shapeCast_a_1a_apply]

/-- The host's affine layer at an entry: a `dot_general` with the plain dimension numbers, plus the bias vector broadcast to
    one row and that row broadcast down the rows. -/
theorem host_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (c : Fin n) :
    addf (Host.dotGeneral dd prec A B)
        (broadcastInDim ⟨2, ![m, n]⟩ ![0, 1] hd2 (broadcastInDim ⟨2, ![1, n]⟩ ![1] hd1 b)) (ix2 r c)
      = (∑ q : Fin k, A (ix2 r q) * B (ix2 q c)) + b (ix1 c) := by
  subst hdd
  rw [addf_apply, StackMember.dotGeneral_plain_apply, broadcastInDim_oneRow_apply]
  refine congrArg (_ + ·) ?_
  refine broadcastInDim_apply ![1] hd1 b (ix2 (0 : Fin 1) c) (ix1 c) fun a => ?_
  match a with
  | ⟨0, _⟩ =>
    show c.val = if n = 1 then 0 else c.val
    split
    · have := c.isLt; omega
    · rfl

/-- A kernel's sum along the rows of a matrix, at row `r`. -/
theorem kernel_rowsum_apply {m k : Nat} (v : FVec Ideal ⟨2, ![m, k]⟩ .f32)
    (h : (⟨2, ![m, k]⟩ : Shape).Reduces [1] ⟨1, ![m]⟩) (hφ : FKind.Formats .f32)
    (hacc : (0x00000000#32 : BitVec FTy.f32.bits) = FKind.add.neutral .f32 hφ) (r : Fin m) :
    multiReduction .add [1] ⟨1, ![m]⟩ v 0x00000000#32 h hφ hacc (ix1 r) = ∑ q : Fin k, v (ix2 r q) := by
  refine (Ideal.multiReduction_add_single v 0x00000000#32 h hφ hacc (ix1 r)).trans ?_
  refine Finset.sum_congr rfl fun q _ => congrArg v (funext fun a => Fin.ext ?_)
  match a with
  | ⟨0, _⟩ => rfl
  | ⟨1, _⟩ => rfl

/-- The host's sum along the rows of a matrix from a scalar initial value, at row `r`. -/
theorem host_rowsum_apply {m k : Nat} (v : FVec Ideal ⟨2, ![m, k]⟩ .f32) (init : FVec Ideal ⟨0, ![]⟩ .f32)
    (h' : (⟨2, ![m, k]⟩ : Shape).ReducesTo [1] ⟨1, ![m]⟩) (h : (⟨2, ![m, k]⟩ : Shape).Reduces [1] ⟨1, ![m]⟩)
    (hu : 0 < (⟨0, ![]⟩ : Shape).numel) (r : Fin m) :
    Host.reduceAdd v init h' hu (ix1 r) = init ix0 + ∑ q : Fin k, v (ix2 r q) := by
  show Ideal.hostReduceAdd h' v (init (Shape.Idx.first hu)) (ix1 r) = _
  rw [Ideal.hostReduceAdd_single h' h, eq_ix0 (Shape.Idx.first hu)]
  refine congrArg (_ + ·) (Finset.sum_congr rfl fun q _ => congrArg v (funext fun a => Fin.ext ?_))
  match a with
  | ⟨0, _⟩ => rfl
  | ⟨1, _⟩ => rfl

/-- A column turned on its side and given a leading unit axis, read at `(0, 0, j)`: the column's entry of row `j`. -/
theorem column_as_lanes_apply {a : Nat} {α : Type} (x : (⟨2, ![a, 1]⟩ : Shape).Idx → α)
    (ht : (⟨2, ![a, 1]⟩ : Shape).Transposes [1, 0] ⟨2, ![1, a]⟩)
    (hc : (⟨2, ![1, a]⟩ : Shape).ShapeCasts ⟨3, ![1, 1, a]⟩) (j : Fin a) :
    shapeCast ⟨3, ![1, 1, a]⟩ (transpose ⟨2, ![1, a]⟩ [1, 0] x ht) hc (ix3 (0 : Fin 1) (0 : Fin 1) j) = x (ix2 j (0 : Fin 1)) := by
  rw [shapeCast_ab_1ab_apply, transpose_ix2_apply]

end Cert.LibRowOps

end
-- ==== Proof.KiPayloads.lean ====
/-
  The values the two kernels store, read at an entry of the block, on the extended reals.

  * The first kernel keeps a 1000 by 256 block of partial aggregates. It starts the block at zero; at every step it adds
    the product of a 1000 by 1664 block of the adjacency matrix with a 1664 by 256 block of the embeddings, entry (r, d)
    gaining `∑ j, a (r, j) * e (j, d)`; at the last step it adds the nodes' own embeddings and the separately computed
    remainder to the accumulated block.
  * The second kernel's block is the two-layer perceptron at the padded hidden width 1152 on 2048 rows of features: entry
    (r, o) is `∑ j, max (∑ k, x (r, k) * w1 (k, j) + b1 j) 0 * w2 (j, o) + b2 o`.

  On the extended reals a change of float format is the identity and a cast to the same shape is the identity, so every
  stored value is exactly the textbook expression: a product accumulated into the zero splat is the plain inner product,
  a one-row bias broadcast down the rows reads its one row, and the maximum with the zero splat is the maximum with 0.
-/
import proofs.«116033_j56633438765547_2_alg».proof.Proof.Gen.KernelIdeal.Skeleton
import proofs.«116033_j56633438765547_2_alg».proof.Proof.LibMatmulPlain
import proofs.«116033_j56633438765547_2_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Idealize.ShloMosaic Idealize.ShloMosaic.ValueIdx Cert.KernelIdeal Cert.KernelIdeal.Gen

/-! ## Two general readings -/

/-- An accumulator plus a matrix product (plain dimension numbers, both factors first narrowed to a smaller float format,
    accumulated into the zero splat), cast to its own shape, at an entry: the accumulator's entry plus the inner product. -/
theorem acc_matmul_apply {m k n : ℕ} (dd : DotDims ⟨2, ![m, k]⟩ ⟨2, ![k, n]⟩ ⟨2, ![m, n]⟩) (hdd : dd = DotDims.plain m k n)
    (A : FVec Ideal ⟨2, ![m, k]⟩ .f32) (B : FVec Ideal ⟨2, ![k, n]⟩ .f32) (C : FVec Ideal ⟨2, ![m, n]⟩ .f32)
    (hlt : FTy.bits .bf16 < FTy.bits .f32) (hs : (⟨2, ![m, n]⟩ : Shape).ShapeCasts ⟨2, ![m, n]⟩) (r : Fin m) (d : Fin n) :
    shapeCast ⟨2, ![m, n]⟩
        (addf C (matmul dd none (truncf .bf16 A hlt) (truncf .bf16 B hlt) (constant (F := Ideal) ⟨2, ![m, n]⟩ .f32 0x00000000#32))) hs
        (ix2 r d)
      = C (ix2 r d) + ∑ j : Fin k, A (ix2 r j) * B (ix2 j d) := by
  subst hdd
  rw [shapeCast_self, addf_apply, LibMatmulPlain.matmul_plain_zero_apply]
  rfl

/-- A two-layer perceptron as a kernel spells it, at an entry: each layer a matrix product with the plain dimension numbers
    into the zero splat plus a one-row bias broadcast down the rows, the hidden layer clamped below by the zero splat and
    narrowed to a smaller float format, every operand first cast to its own shape. -/
theorem perceptron_apply {m k n p : ℕ}
    (d1 : DotDims ⟨2, ![m, k]⟩ ⟨2, ![k, n]⟩ ⟨2, ![m, n]⟩) (hd1 : d1 = DotDims.plain m k n)
    (d2 : DotDims ⟨2, ![m, n]⟩ ⟨2, ![n, p]⟩ ⟨2, ![m, p]⟩) (hd2 : d2 = DotDims.plain m n p)
    (X : FVec Ideal ⟨2, ![m, k]⟩ .bf16) (W1 : FVec Ideal ⟨2, ![k, n]⟩ .bf16) (B1 : FVec Ideal ⟨2, ![1, n]⟩ .f32)
    (W2 : FVec Ideal ⟨2, ![n, p]⟩ .bf16) (B2 : FVec Ideal ⟨2, ![1, p]⟩ .f32)
    (hX : (⟨2, ![m, k]⟩ : Shape).ShapeCasts ⟨2, ![m, k]⟩) (hW1 : (⟨2, ![k, n]⟩ : Shape).ShapeCasts ⟨2, ![k, n]⟩)
    (hB1 : (⟨2, ![1, n]⟩ : Shape).ShapeCasts ⟨2, ![1, n]⟩) (hW2 : (⟨2, ![n, p]⟩ : Shape).ShapeCasts ⟨2, ![n, p]⟩)
    (hB2 : (⟨2, ![1, p]⟩ : Shape).ShapeCasts ⟨2, ![1, p]⟩)
    (hb1 : (⟨2, ![1, n]⟩ : Shape).Broadcasts ⟨2, ![m, n]⟩) (hb2 : (⟨2, ![1, p]⟩ : Shape).Broadcasts ⟨2, ![m, p]⟩)
    (hlt : FTy.bits .bf16 < FTy.bits .f32) (r : Fin m) (o : Fin p) :
    addf
        (matmul d2 none
          (truncf .bf16
            (maximumf
              (addf (matmul d1 none (shapeCast ⟨2, ![m, k]⟩ X hX) (shapeCast ⟨2, ![k, n]⟩ W1 hW1)
                  (constant (F := Ideal) ⟨2, ![m, n]⟩ .f32 0x00000000#32))
                (broadcastTo ⟨2, ![m, n]⟩ (shapeCast ⟨2, ![1, n]⟩ B1 hB1) hb1))
              (broadcast ⟨2, ![m, n]⟩ (Scalar.ofBits (F := Ideal) .f32 0x00000000#32)))
            hlt)
          (shapeCast ⟨2, ![n, p]⟩ W2 hW2) (constant (F := Ideal) ⟨2, ![m, p]⟩ .f32 0x00000000#32))
        (broadcastTo ⟨2, ![m, p]⟩ (shapeCast ⟨2, ![1, p]⟩ B2 hB2) hb2) (ix2 r o)
      = (∑ j : Fin n, max ((∑ q : Fin k, X (ix2 r q) * W1 (ix2 q j)) + B1 (ix2 (0 : Fin 1) j)) (0 : EReal) * W2 (ix2 j o))
        + B2 (ix2 (0 : Fin 1) o) := by
  subst hd1 hd2
  rw [shapeCast_self X, shapeCast_self W1, shapeCast_self B1, shapeCast_self W2, shapeCast_self B2, addf_apply,
    LibMatmulPlain.matmul_plain_zero_apply, broadcastTo_1b_ab_apply]
  refine congrArg (· + B2 (ix2 (0 : Fin 1) o)) (Finset.sum_congr rfl fun j _ => ?_)
  refine congrArg (· * W2 (ix2 j o)) ?_
  rw [truncf_apply, maximumf_apply, addf_apply, broadcast_apply, LibMatmulPlain.matmul_plain_zero_apply, broadcastTo_1b_ab_apply]
  exact congrArg (max _) Ideal.ofBits_zero_f32

/-! ## The first kernel's three stored values -/

/-- The block the accumulator is initialised with: zero everywhere. -/
theorem k0_pay1_apply (r : Fin 1000) (d : Fin 256) : k0_pay1 (F := Ideal) (ix2 r d) = (0 : EReal) := by
  unfold k0_pay1
  exact (congrFun (shapeCast_self _ _) (ix2 r d)).trans Ideal.ofBits_zero_f32

/-- A step of the accumulation: the accumulated block plus the product of the two loaded blocks. -/
theorem k0_pay2_apply (v3 : FVec Ideal S1000x1664 .f32) (v5 : FVec Ideal S1664x256 .f32) (v7 : FVec Ideal S1000x256 .f32)
    (r : Fin 1000) (d : Fin 256) :
    k0_pay2 (F := Ideal) v3 v5 v7 (ix2 r d) = v7 (ix2 r d) + ∑ j : Fin 1664, v3 (ix2 r j) * v5 (ix2 j d) := by
  unfold k0_pay2
  exact acc_matmul_apply _ rfl v3 v5 v7 _ _ r d

/-- The last step: the accumulated block, plus the nodes' own embeddings, plus the remainder. -/
theorem k0_pay3_apply (v16 : FVec Ideal S1000x256 .f32) (v17 : FVec Ideal S1000x256 .f32) (v19 : FVec Ideal S1000x256 .f32)
    (r : Fin 1000) (d : Fin 256) :
    k0_pay3 (F := Ideal) v16 v17 v19 (ix2 r d) = (v16 (ix2 r d) + v17 (ix2 r d)) + v19 (ix2 r d) := by
  unfold k0_pay3
  exact congrArg (fun w : FVec Ideal S1000x256 .f32 => (v16 (ix2 r d) + v17 (ix2 r d)) + w (ix2 r d)) (shapeCast_self v19 _)

/-! ## The second kernel's stored value -/

/-- The perceptron at the padded hidden width on a block of 2048 rows of features. -/
theorem k1_pay1_apply (v0 : FVec Ideal S2048x512 .bf16) (v2 : FVec Ideal S512x1152 .bf16) (v5 : FVec Ideal S1x1152 .f32)
    (v12 : FVec Ideal S1152x2 .bf16) (v15 : FVec Ideal S1x2 .f32) (r : Fin 2048) (o : Fin 2) :
    k1_pay1 (F := Ideal) v0 v2 v5 v12 v15 (ix2 r o)
      = (∑ j : Fin 1152, max ((∑ k : Fin 512, v0 (ix2 r k) * v2 (ix2 k j)) + v5 (ix2 (0 : Fin 1) j)) (0 : EReal) * v12 (ix2 j o))
        + v15 (ix2 (0 : Fin 1) o) := by
  unfold k1_pay1
  exact perceptron_apply _ rfl _ rfl v0 v2 v5 v12 v15 _ _ _ _ _ _ _ _ r o

end Cert.KernelIdeal.Payloads

end
-- ==== Proof.KiReg0Acc.lean ====
/-
  The first kernel region's accumulator, unrolled over the six points of a row block.

  At the first point of a row block the accumulator is reset to zero before the block product is added; at each of the
  other five the product is added to what the point before left. So after the last point of row block `b` the entry
  `(r, d)` holds `((((0 + P 0) + P 1) + P 2) + P 3) + P 4) + P 5` where `P k = ∑ j, A (1000 b + r, 1664 k + j) * E (1664 k + j, d)`
  is column block `k`'s share of the inner sum: the sum of the six shares.
-/
import proofs.«116033_j56633438765547_2_alg».proof.Proof.KiReg0Blocks
import proofs.«116033_j56633438765547_2_alg».proof.Proof.KiPayloads

set_option maxRecDepth 16384

noncomputable section

open scoped BigOperators

namespace Cert.KernelIdeal.Reg0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The adjacency matrix, the embeddings and the remainder as the region finds them, as arrays of extended reals. -/
abbrev arrA (c : Dev nD) : FVec Ideal ⟨2, ![10000, 10000]⟩ .f32 := V c main_arg1
abbrev arrE (c : Dev nD) : FVec Ideal ⟨2, ![10000, 256]⟩ .f32 := V c main_arg2
abbrev arrT (c : Dev nD) : FVec Ideal ⟨2, ![10000, 256]⟩ .f32 := V c main_v3

/-- Column block `k`'s share of the inner sum of node `1000 b + r` at feature `d`. -/
def part (c : Dev nD) (b : Fin 10) (r : Fin 1000) (d : Fin 256) (k : Fin 6) : EReal :=
  ∑ j : Fin 1664,
    arrA V c (ix2 (⟨1000 * b.val + r.val, by omega⟩ : Fin 10000) (⟨1664 * k.val + j.val, by omega⟩ : Fin 10000))
      * arrE V c (ix2 (⟨1664 * k.val + j.val, by omega⟩ : Fin 10000) d)

/-- One point's step at an entry: at point `n = 6 b + k` the accumulator gains share `k`, from zero when `k = 0`. -/
theorem acc_succ_apply (c : Dev nD) (n : ℕ) (h : n + 1 ≤ cfg0.N) (b : Fin 10) (k : Fin 6) (hn : n = 6 * b.val + k.val)
    (r : Fin 1000) (d : Fin 256) :
    (acc V c (n + 1) h : S1000x256.Idx → EReal) (ix2 r d)
      = (if k.val = 0 then (0 : EReal) else (acc V c n (Nat.le_of_succ_le h) : S1000x256.Idx → EReal) (ix2 r d)) + part V c b r d k := by
  have hb : (⟨n, h⟩ : Fin cfg0.N).val / 6 = b.val := by show n / 6 = b.val; omega
  have hk : (⟨n, h⟩ : Fin cfg0.N).val % 6 = k.val := by show n % 6 = k.val; omega
  show (accOut (grid0.coords ⟨n, h⟩) (sblk V c 0 ⟨n, h⟩) (sblk V c 1 ⟨n, h⟩) (acc V c n (Nat.le_of_succ_le h)) : S1000x256.Idx → EReal) (ix2 r d) = _
  unfold accOut
  refine (Payloads.k0_pay2_apply _ _ _ r d).trans ?_
  refine congrArg₂ (· + ·) ?_ ?_
  · unfold accIn
    by_cases h0 : k.val = 0
    · rw [if_pos h0, if_pos ((hcondFirst ⟨n, h⟩).mpr (show n % 6 = 0 by omega))]
      exact Payloads.k0_pay1_apply r d
    · rw [if_neg h0, if_neg fun hc => h0 (by have : n % 6 = 0 := (hcondFirst ⟨n, h⟩).mp hc; omega)]
  · unfold part
    exact Finset.sum_congr rfl fun j _ => by
      rw [sblk0_apply V c ⟨n, h⟩ b k hb hk r j, sblk1_apply V c ⟨n, h⟩ k hk j d]

/-- After point `6 b + k` of row block `b` the accumulator holds the first `k + 1` shares. -/
theorem acc_row_apply (c : Dev nD) (b : Fin 10) (r : Fin 1000) (d : Fin 256) :
    ∀ (k : ℕ) (hk : k < 6) (h : 6 * b.val + k + 1 ≤ cfg0.N),
      (acc V c (6 * b.val + k + 1) h : S1000x256.Idx → EReal) (ix2 r d)
        = ∑ q ∈ Finset.range (k + 1), (if hq : q < 6 then part V c b r d ⟨q, hq⟩ else 0) := by
  intro k
  induction k with
  | zero =>
    intro hk h
    refine (acc_succ_apply V c (6 * b.val + 0) h b ⟨0, hk⟩ rfl r d).trans ?_
    rw [if_pos rfl, zero_add, Finset.sum_range_one, dif_pos hk]
  | succ k ih =>
    intro hk h
    refine (acc_succ_apply V c (6 * b.val + (k + 1)) h b ⟨k + 1, hk⟩ rfl r d).trans ?_
    rw [if_neg (Nat.succ_ne_zero k), Finset.sum_range_succ, dif_pos hk]
    exact congrArg (· + part V c b r d ⟨k + 1, hk⟩) (ih (by omega) (Nat.le_of_succ_le h))

/-- After the last point of row block `b` the accumulator holds the sum of the six shares. -/
theorem acc_last_apply (c : Dev nD) (t : Fin cfg0.N) (b : Fin 10) (ht : t.val = 6 * b.val + 5) (r : Fin 1000) (d : Fin 256) :
    (acc V c (t.val + 1) t.isLt : S1000x256.Idx → EReal) (ix2 r d) = ∑ k : Fin 6, part V c b r d k := by
  obtain ⟨n, hn⟩ := t
  have ht' : n = 6 * b.val + 5 := ht
  subst ht'
  refine (acc_row_apply V c b r d 5 (by omega) hn).trans ?_
  refine (Fin.sum_univ_eq_sum_range (fun q => if hq : q < 6 then part V c b r d ⟨q, hq⟩ else 0) 6).symm.trans ?_
  exact Finset.sum_congr rfl fun q _ => dif_pos q.isLt

end Cert.KernelIdeal.Reg0

end
-- ==== Proof.Spec.lean ====
/-
  What the two programs compute, as functions of the argument arrays on the extended reals.

  The inputs are 8192 pairs of row numbers into a 10000-node graph, its dense adjacency matrix `A`, the node embeddings
  `E` (256 wide), and a two-layer perceptron `W1, b1, W2, b2` with 1025 hidden units. A row number `v` is read as jnp
  indexing reads it: a negative one counts from the end (`v + 10000`), and the result is clamped into the table.
  Node `r` aggregates `(A E)(r, ·) + E(r, ·)`; a pair's feature vector is its two nodes' aggregates side by side (512 wide);
  the result is `relu(x W1 + b1) W2 + b2`.

  Two intermediate whole-array forms are stated as well, in the shape the tiled computation leaves them: the aggregate of
  every node with the inner sum cut into six blocks of 1664 columns plus a separately computed remainder `T`, and the
  perceptron at a hidden width padded to 1152.
-/
import Idealize.ShloMosaic.PureOps.Ideal
import Idealize.ShloMosaic.Lib.ValueIdx

noncomputable section

open scoped BigOperators

namespace Cert.Spec

open Idealize.ShloMosaic Idealize.ShloMosaic.ValueIdx

/-- A row number as jnp indexing reads it: a negative one counts from the end of the 10000 rows. -/
def nrm (v : BitVec 32) : BitVec 32 := Scalar.select (IntOp.cmpi .slt v 0#32) (IntOp.addi v 10000#32) v

/-- The table row that entry `e` of the flattened list of pairs reads: member `e % 2` of pair `e / 2`, normalised, read
    signed and clamped into the table. -/
def row (I : IVec ⟨2, ![8192, 2]⟩ 32) (e : Fin 16384) : Fin 10000 :=
  ⟨min (nrm (I (ix2 (⟨e.val / 2, by omega⟩ : Fin 8192) (⟨e.val % 2, by omega⟩ : Fin 2)))).toInt.toNat 9999, by omega⟩

/-- Node `r`'s aggregate at feature `d`: its neighbours' embeddings summed, plus its own. -/
def agg (A : FVec Ideal ⟨2, ![10000, 10000]⟩ .f32) (E : FVec Ideal ⟨2, ![10000, 256]⟩ .f32) (r : Fin 10000) (d : Fin 256) : EReal :=
  (∑ n : Fin 10000, A (ix2 r n) * E (ix2 n d)) + E (ix2 r d)

/-- Pair `b`'s feature `k`: the aggregate of its member `k / 256` at feature `k % 256`. -/
def feat (I : IVec ⟨2, ![8192, 2]⟩ 32) (A : FVec Ideal ⟨2, ![10000, 10000]⟩ .f32) (E : FVec Ideal ⟨2, ![10000, 256]⟩ .f32)
    (b : Fin 8192) (k : Fin 512) : EReal :=
  agg A E (row I ⟨2 * b.val + k.val / 256, by omega⟩) ⟨k.val % 256, by omega⟩

/-- Hidden unit `j` of pair `b`. -/
def hidden (I : IVec ⟨2, ![8192, 2]⟩ 32) (A : FVec Ideal ⟨2, ![10000, 10000]⟩ .f32) (E : FVec Ideal ⟨2, ![10000, 256]⟩ .f32)
    (W1 : FVec Ideal ⟨2, ![512, 1025]⟩ .f32) (b1 : FVec Ideal ⟨1, ![1025]⟩ .f32) (b : Fin 8192) (j : Fin 1025) : EReal :=
  max ((∑ k : Fin 512, feat I A E b k * W1 (ix2 k j)) + b1 (ix1 j)) 0

/-- Output `o` of pair `b`. -/
def outAt (I : IVec ⟨2, ![8192, 2]⟩ 32) (A : FVec Ideal ⟨2, ![10000, 10000]⟩ .f32) (E : FVec Ideal ⟨2, ![10000, 256]⟩ .f32)
    (W1 : FVec Ideal ⟨2, ![512, 1025]⟩ .f32) (b1 : FVec Ideal ⟨1, ![1025]⟩ .f32)
    (W2 : FVec Ideal ⟨2, ![1025, 2]⟩ .f32) (b2 : FVec Ideal ⟨1, ![2]⟩ .f32) (b : Fin 8192) (o : Fin 2) : EReal :=
  (∑ j : Fin 1025, hidden I A E W1 b1 b j * W2 (ix2 j o)) + b2 (ix1 o)

/-- THE RESULT, as one function of the seven argument arrays. -/
def G (I : IVec ⟨2, ![8192, 2]⟩ 32) (A : FVec Ideal ⟨2, ![10000, 10000]⟩ .f32) (E : FVec Ideal ⟨2, ![10000, 256]⟩ .f32)
    (W1 : FVec Ideal ⟨2, ![512, 1025]⟩ .f32) (b1 : FVec Ideal ⟨1, ![1025]⟩ .f32)
    (W2 : FVec Ideal ⟨2, ![1025, 2]⟩ .f32) (b2 : FVec Ideal ⟨1, ![2]⟩ .f32) : FVec Ideal ⟨2, ![8192, 2]⟩ .f32 :=
  fun i => outAt I A E W1 b1 W2 b2 (i 0) (i 1)

/-- The aggregate of every node as the tiled product leaves it: the inner sum over the first 9984 columns cut into six
    blocks of 1664, then the node's own embedding, then the remainder `T` (the last 16 columns' part, computed apart). -/
def R0out (A : FVec Ideal ⟨2, ![10000, 10000]⟩ .f32) (E : FVec Ideal ⟨2, ![10000, 256]⟩ .f32)
    (T : FVec Ideal ⟨2, ![10000, 256]⟩ .f32) : FVec Ideal ⟨2, ![10000, 256]⟩ .f32 :=
  fun i => ((∑ kb : Fin 6, ∑ j : Fin 1664,
      A (ix2 (i 0) (⟨1664 * kb.val + j.val, by omega⟩ : Fin 10000)) * E (ix2 (⟨1664 * kb.val + j.val, by omega⟩ : Fin 10000) (i 1)))
    + E i) + T i

/-- The perceptron at the padded hidden width 1152, on a feature matrix `X`, the biases given as one-row matrices. -/
def R1out {φx φ1 φ2 : FTy} (X : FVec Ideal ⟨2, ![8192, 512]⟩ φx) (W1p : FVec Ideal ⟨2, ![512, 1152]⟩ φ1)
    (B1p : FVec Ideal ⟨2, ![1, 1152]⟩ .f32) (W2p : FVec Ideal ⟨2, ![1152, 2]⟩ φ2) (B2p : FVec Ideal ⟨2, ![1, 2]⟩ .f32) :
    FVec Ideal ⟨2, ![8192, 2]⟩ .f32 :=
  fun i => (∑ j : Fin 1152,
      max ((∑ k : Fin 512, X (ix2 (i 0) k) * W1p (ix2 k j)) + B1p (ix2 (0 : Fin 1) j)) (0 : EReal) * W2p (ix2 j (i 1)))
    + B2p (ix2 (0 : Fin 1) (i 1))

end Cert.Spec

end
-- ==== Proof.KiReg0Value.lean ====
/-
  What the first kernel region leaves in its result array.

  The result's window writes its block back exactly at the last point of each row block. There the staging buffer holds
  the accumulator — the six column blocks' shares of the inner sum — plus the row block of the embeddings plus the row
  block of the remainder: entry `(r, d)` of row block `b` is the tiled aggregate of node `1000 b + r` at feature `d`. The ten
  row blocks cover the array, so the array ends holding the tiled aggregate of every node.
-/
import proofs.«116033_j56633438765547_2_alg».proof.Proof.KiReg0Acc
import proofs.«116033_j56633438765547_2_alg».proof.Proof.Spec

set_option maxRecDepth 16384

noncomputable section

open scoped BigOperators

namespace Cert.KernelIdeal.Reg0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The tiled aggregate of every node, of the arrays as the region finds them. -/
abbrev G4 (c : Dev nD) : FVec Ideal ⟨2, ![10000, 256]⟩ .f32 :=
  Cert.Spec.R0out (arrA V c) (arrE V c) (arrT V c)

/-- What a last point of a row block writes back is that row block of the tiled aggregate. -/
theorem flushed4_eq (c : Dev nD) (t : Fin cfg0.N) (hf : (cfg0.win 4).flush t = true) :
    (dat (F := Ideal) V c).flushed 4 t = ((cfg0.win 4).blk t).view.read (Elt Ideal) (G4 V c) := by
  have h5 : t.val % 6 = 5 := (flush0_4 t).mp hf
  have hN : t.val < 60 := Nat.lt_of_lt_of_eq t.isLt N_0
  obtain ⟨b, hb⟩ : ∃ b : Fin 10, t.val / 6 = b.val := ⟨⟨t.val / 6, by omega⟩, rfl⟩
  show (cfg0.win 4).cut (grid0.coords t) ((dat (F := Ideal) V c).after 4 t) = _
  rw [after_4]
  funext y
  obtain ⟨r, d, rfl⟩ : ∃ (r : Fin 1000) (d : Fin 256), (y : S1000x256.Idx) = ix2 r d := ⟨y 0, y 1, eq_ix2 (n0 := 1000) (n1 := 256) y⟩
  show (k0_pay3 (F := Ideal) (acc V c (t.val + 1) t.isLt) (sblk V c 2 t) (sblk V c 3 t) : S1000x256.Idx → EReal) (ix2 r d)
    = G4 V c (((cfg0.win 4).blk t).view.emb (ix2 r d : S1000x256.Idx))
  rw [blk4_emb t b hb r d]
  refine (Payloads.k0_pay3_apply _ _ _ r d).trans ?_
  rw [acc_last_apply V c t b (by omega) r d, sblk2_apply V c t b hb r d, sblk3_apply V c t b hb r d]
  rfl

/-- Every entry of the array is in the block of the last point of its row block. -/
theorem cover4 (i : S10000x256.Idx) : ∃ t : Fin cfg0.N, (cfg0.win 4).flush t = true ∧ i ∈ ((cfg0.win 4).blk t).view.set := by
  have hi0 : (i 0).val < 10000 := (i 0).isLt
  have hi1 : (i 1).val < 256 := (i 1).isLt
  have hlt : 6 * ((i 0).val / 1000) + 5 < cfg0.N := Nat.lt_of_lt_of_eq (show 6 * ((i 0).val / 1000) + 5 < 60 by omega) N_0.symm
  refine ⟨⟨6 * ((i 0).val / 1000) + 5, hlt⟩, (flush0_4 _).mpr (show (6 * ((i 0).val / 1000) + 5) % 6 = 5 by omega), ?_⟩
  obtain ⟨-, -, -, -, -, -, -, -, e8, e9⟩ := idx_facts ⟨6 * ((i 0).val / 1000) + 5, hlt⟩
  have e8' : win0_4.index ⟨6 * ((i 0).val / 1000) + 5, hlt⟩ (0 : Fin 2) = (i 0).val / 1000 := by
    rw [e8]; show (6 * ((i 0).val / 1000) + 5) / 6 = (i 0).val / 1000; omega
  show i ∈ ((View.whole main_v4).slice (win0_4.rect ⟨6 * ((i 0).val / 1000) + 5, hlt⟩)).set
  rw [View.set_slice_whole, Rect.mem_set_unit]
  intro a
  match a with
  | ⟨0, _⟩ =>
    show win0_4.index ⟨6 * ((i 0).val / 1000) + 5, hlt⟩ (0 : Fin 2) * 1000 ≤ (i 0).val
      ∧ (i 0).val < win0_4.index ⟨6 * ((i 0).val / 1000) + 5, hlt⟩ (0 : Fin 2) * 1000 + 1000
    omega
  | ⟨1, _⟩ =>
    show win0_4.index ⟨6 * ((i 0).val / 1000) + 5, hlt⟩ (1 : Fin 2) * 256 ≤ (i 1).val
      ∧ (i 1).val < win0_4.index ⟨6 * ((i 0).val / 1000) + 5, hlt⟩ (1 : Fin 2) * 256 + 256
    omega

/-- The result array after the region: the tiled aggregate of every node. -/
theorem final (c : Dev nD) :
    (dat (F := Ideal) V c).arrAt 4 cfg0.N
      = Cert.Spec.R0out (V c main_arg1) (V c main_arg2) (V c main_v3) :=
  (dat (F := Ideal) V c).arrAt_eq_of_cover 4 (G4 V c) (fun t hf => flushed4_eq V c t hf) (cover4)

end Cert.KernelIdeal.Reg0

end
-- ==== Proof.KiReg1Value.lean ====
/-
  What the second kernel region leaves in the result array: the perceptron at the padded hidden width, of the arrays
  the region finds.

  At point `t` of the four the body stores, over its whole block, its one arithmetic term of the five input blocks. The
  feature block at `t` is rows `2048 t … 2048 t + 2047` of the feature matrix; the other four windows are whole arrays, so
  their blocks are the arrays themselves at every point. The body's term at row `r` of its block is therefore the
  perceptron's value at row `2048 t + r` of the whole feature matrix, which is what the write-back of point `t` puts at
  rows `2048 t … 2048 t + 2047` of the result. Row `i` of the result lies in the block of point `i / 2048`, so the four
  blocks cover the array and it ends holding the perceptron's value everywhere.
-/
import proofs.«116033_j56633438765547_2_alg».proof.Proof.KiReg1
import proofs.«116033_j56633438765547_2_alg».proof.Proof.Spec
import proofs.«116033_j56633438765547_2_alg».proof.Proof.KiPayloads
import Idealize.ShloMosaic.Lib.Pipeline.Value
import Idealize.ShloMosaic.Lib.ValueIdx

noncomputable section

open scoped BigOperators

namespace Cert.KernelIdeal.Reg1

open Cert.KernelIdeal Cert.KernelIdeal.Gen
open Idealize.ShloMosaic Idealize.ShloMosaic.TcCoe Idealize.SL.Sem Idealize.ShloMosaic.ValueIdx
open Idealize.ShloMosaic.Pipeline (Dat)

-- the core's buffer contents when the region is entered
variable (V : (c : Dev nD) → (b : Ref sig .tc) → Buf (Elt Ideal) ((c : Thread nD τ).loc b))

/-! ## The body's one store -/

theorem zeroOffsets : (![0, 0] : Fin 2 → Nat) = fun _ => 0 := funext fun a => by fin_cases a <;> rfl

/-- One store over the whole block, of a term of whole-block loads: the block ends at the term of the input blocks. -/
theorem out5_eq (x0 : Vec Ideal S2048x512 .bf16) (x1 : Vec Ideal S512x1152 .bf16) (x2 : Vec Ideal S1x1152 .f32)
    (x3 : Vec Ideal S1152x2 .bf16) (x4 : Vec Ideal S1x2 .f32) :
    out5 (F := Ideal) x0 x1 x2 x3 x4 = k1_pay1 x0 x1 x2 x3 x4 := by
  unfold out5
  rw [View.canon_unit_zero zeroOffsets]
  simp only [View.ld_unit_zero (S := S2048x512) zeroOffsets, View.ld_unit_zero (S := S512x1152) zeroOffsets,
    View.ld_unit_zero (S := S1x1152) zeroOffsets, View.ld_unit_zero (S := S1152x2) zeroOffsets,
    View.ld_unit_zero (S := S1x2) zeroOffsets]

/-! ## Where the blocks sit -/

/-- The printed index maps over the four points: the feature block and the result block are at block row `t`, every
    other block at the origin. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The feature block at point `t` is rows `2048 t … 2048 t + 2047` of the feature matrix. -/
theorem featBlock_apply (c : Dev nD) (t : Fin cfg1.N) (x : S2048x512.Idx) (i : S8192x512.Idx)
    (h0 : (i 0).val = 2048 * t.val + (x 0).val) (h1 : (i 1).val = (x 1).val) :
    (iblk V c 0 t : Vec Ideal S2048x512 .bf16) x = (V c main_v16 : S8192x512.Idx → Elt Ideal .bf16) i := by
  obtain ⟨e0, e1, -⟩ := idx_facts t
  unfold iblk
  rw [View.read_apply]
  show V c main_v16 _ = V c main_v16 i
  congr 1
  funext a
  apply Fin.ext
  match a with
  | ⟨0, _⟩ => show win1_0.index t 0 * 2048 + 1 * (x 0).val = (i 0).val; rw [e0, h0]; omega
  | ⟨1, _⟩ => show win1_0.index t 1 * 512 + 1 * (x 1).val = (i 1).val; rw [e1, h1]; omega

/-- The first layer's weight window is the whole array: its block at every point is the array. -/
theorem w1Block_eq (c : Dev nD) (t : Fin cfg1.N) :
    (iblk V c 1 t : Vec Ideal S512x1152 .bf16) = (V c main_v17 : S512x1152.Idx → Elt Ideal .bf16) := by
  obtain ⟨-, -, e0, e1, -⟩ := idx_facts t
  funext x
  unfold iblk
  rw [View.read_apply]
  show V c main_v17 _ = V c main_v17 x
  congr 1
  funext a
  apply Fin.ext
  match a with
  | ⟨0, _⟩ => show win1_1.index t 0 * 512 + 1 * (x 0).val = (x 0).val; rw [e0]; omega
  | ⟨1, _⟩ => show win1_1.index t 1 * 1152 + 1 * (x 1).val = (x 1).val; rw [e1]; omega

/-- The first layer's bias window is the whole array: its block at every point is the array. -/
theorem b1Block_eq (c : Dev nD) (t : Fin cfg1.N) :
    (iblk V c 2 t : Vec Ideal S1x1152 .f32) = (V c main_v19 : S1x1152.Idx → Elt Ideal .f32) := by
  obtain ⟨-, -, -, -, e0, e1, -⟩ := idx_facts t
  funext x
  unfold iblk
  rw [View.read_apply]
  show V c main_v19 _ = V c main_v19 x
  congr 1
  funext a
  apply Fin.ext
  match a with
  | ⟨0, _⟩ => show win1_2.index t 0 * 1 + 1 * (x 0).val = (x 0).val; rw [e0]; omega
  | ⟨1, _⟩ => show win1_2.index t 1 * 1152 + 1 * (x 1).val = (x 1).val; rw [e1]; omega

/-- The second layer's weight window is the whole array: its block at every point is the array. -/
theorem w2Block_eq (c : Dev nD) (t : Fin cfg1.N) :
    (iblk V c 3 t : Vec Ideal S1152x2 .bf16) = (V c main_v18 : S1152x2.Idx → Elt Ideal .bf16) := by
  obtain ⟨-, -, -, -, -, -, e0, e1, -⟩ := idx_facts t
  funext x
  unfold iblk
  rw [View.read_apply]
  show V c main_v18 _ = V c main_v18 x
  congr 1
  funext a
  apply Fin.ext
  match a with
  | ⟨0, _⟩ => show win1_3.index t 0 * 1152 + 1 * (x 0).val = (x 0).val; rw [e0]; omega
  | ⟨1, _⟩ => show win1_3.index t 1 * 2 + 1 * (x 1).val = (x 1).val; rw [e1]; omega

/-- The second layer's bias window is the whole array: its block at every point is the array. -/
theorem b2Block_eq (c : Dev nD) (t : Fin cfg1.N) :
    (iblk V c 4 t : Vec Ideal S1x2 .f32) = (V c main_v20 : S1x2.Idx → Elt Ideal .f32) := by
  obtain ⟨-, -, -, -, -, -, -, -, e0, e1, -⟩ := idx_facts t
  funext x
  unfold iblk
  rw [View.read_apply]
  show V c main_v20 _ = V c main_v20 x
  congr 1
  funext a
  apply Fin.ext
  match a with
  | ⟨0, _⟩ => show win1_4.index t 0 * 1 + 1 * (x 0).val = (x 0).val; rw [e0]; omega
  | ⟨1, _⟩ => show win1_4.index t 1 * 2 + 1 * (x 1).val = (x 1).val; rw [e1]; omega

/-! ## One entry of one block -/

/-- The body's term on a block of rows of `X` starting at row `2048 t`, at entry `y` of the block, is the perceptron of
    `X` at the entry `i` of the whole result that `y` is. -/
theorem point_value (x0 : FVec Ideal S2048x512 .bf16) (X : FVec Ideal S8192x512 .bf16)
    (W1p : FVec Ideal S512x1152 .bf16) (B1p : FVec Ideal S1x1152 .f32) (W2p : FVec Ideal S1152x2 .bf16)
    (B2p : FVec Ideal S1x2 .f32) (t : Nat)
    (hX : ∀ (x : S2048x512.Idx) (i : S8192x512.Idx), (i 0).val = 2048 * t + (x 0).val → (i 1).val = (x 1).val → x0 x = X i)
    (y : S2048x2.Idx) (i : S8192x2.Idx) (h0 : (i 0).val = 2048 * t + (y 0).val) (h1 : (i 1).val = (y 1).val) :
    k1_pay1 (F := Ideal) x0 W1p B1p W2p B2p y = Spec.R1out X W1p B1p W2p B2p i := by
  obtain ⟨r, o, rfl⟩ : ∃ (r : Fin 2048) (o : Fin 2), y = ix2 r o := ⟨y 0, y 1, eq_ix2 y⟩
  obtain ⟨a, o', rfl⟩ : ∃ (a : Fin 8192) (o' : Fin 2), i = ix2 a o' := ⟨i 0, i 1, eq_ix2 i⟩
  obtain rfl : o' = o := Fin.ext h1
  have hx : ∀ k : Fin 512, x0 (ix2 r k) = X (ix2 a k) := fun k => hX (ix2 r k) (ix2 a k) h0 rfl
  rw [Payloads.k1_pay1_apply]
  unfold Spec.R1out
  simp only [hx]

/-! ## The write-backs and the array -/

/-- WHAT POINT `t` WRITES BACK is block `t` of the perceptron of the arrays the region finds. -/
theorem flushed_eq (c : Dev nD) (t : Fin cfg1.N) :
    (dat V c).flushed 5 t = ((cfg1.win 5).blk t).view.read (Elt Ideal)
      (Spec.R1out (φx := .bf16) (φ1 := .bf16) (φ2 := .bf16) (V c main_v16) (V c main_v17) (V c main_v19) (V c main_v18) (V c main_v20)) := by
  obtain ⟨-, -, -, -, -, -, -, -, -, -, e0, e1⟩ := idx_facts t
  show (cfg1.win 5).cut (grid1.coords t) ((dat V c).after 5 t) = _
  rw [after_5, out5_eq, w1Block_eq, b1Block_eq, w2Block_eq, b2Block_eq]
  funext y
  show k1_pay1 (F := Ideal) (iblk V c 0 t) (V c main_v17) (V c main_v19) (V c main_v18) (V c main_v20) y
    = Spec.R1out (φx := .bf16) (φ1 := .bf16) (φ2 := .bf16) (V c main_v16) (V c main_v17) (V c main_v19) (V c main_v18) (V c main_v20)
      (((cfg1.win 5).blk t).view.emb y)
  refine point_value (iblk V c 0 t) _ _ _ _ _ t.val (fun x i h0 h1 => featBlock_apply V c t x i h0 h1) y _ ?_ ?_
  · show win1_5.index t 0 * 2048 + 1 * (y 0).val = 2048 * t.val + (y 0).val
    rw [e0]; omega
  · show win1_5.index t 1 * 2 + 1 * (y 1).val = (y 1).val
    rw [e1]; omega

/-- An entry of the result is in point `t`'s block iff each coordinate is in the block's range on its axis. -/
theorem mem_block (t : Fin cfg1.N) (i : S8192x2.Idx) :
    i ∈ ((cfg1.win 5).blk t).view.set
      ↔ ∀ a : Fin 2, win1_5.index t a * S2048x2.size a ≤ (i a).val ∧ (i a).val < win1_5.index t a * S2048x2.size a + S2048x2.size a := by
  show i ∈ ((View.whole main_v21).slice (win1_5.rect t)).set ↔ _
  rw [View.set_slice_whole, Rect.mem_set_unit]
  exact Iff.rfl

/-- Row `i` of the result is in the block of point `i / 2048`, which writes back: the four blocks cover the array. -/
theorem covered (i : S8192x2.Idx) :
    ∃ t : Fin cfg1.N, (cfg1.win 5).flush t = true ∧ i ∈ ((cfg1.win 5).blk t).view.set := by
  have hi0 : (i 0).val < 8192 := (i 0).isLt
  have hi1 : (i 1).val < 2 := (i 1).isLt
  obtain ⟨t, ht⟩ : ∃ t : Fin cfg1.N, t.val = (i 0).val / 2048 :=
    ⟨⟨(i 0).val / 2048, by rw [show cfg1.N = 4 from N_1]; omega⟩, rfl⟩
  obtain ⟨-, -, -, -, -, -, -, -, -, -, e0, e1⟩ := idx_facts t
  refine ⟨t, flush1_5 t, ?_⟩
  rw [mem_block]
  intro a
  match a with
  | ⟨0, _⟩ =>
    show win1_5.index t 0 * 2048 ≤ (i 0).val ∧ (i 0).val < win1_5.index t 0 * 2048 + 2048
    rw [e0, ht]; omega
  | ⟨1, _⟩ =>
    show win1_5.index t 1 * 2 ≤ (i 1).val ∧ (i 1).val < win1_5.index t 1 * 2 + 2
    rw [e1]; omega

/-- THE RESULT ARRAY after the region: the perceptron at the padded width, of the arrays the region finds. -/
theorem final (c : Dev nD) :
    (dat (F := Ideal) V c).arrAt 5 cfg1.N
      = Spec.R1out (φx := .bf16) (φ1 := .bf16) (φ2 := .bf16) (V c main_v16) (V c main_v17) (V c main_v19) (V c main_v18) (V c main_v20) :=
  (dat V c).arrAt_eq_of_cover 5 _ (fun t _ => flushed_eq V c t) covered

end Cert.KernelIdeal.Reg1

end
-- ==== Proof.SpecAlgebra.lean ====
/-
  Two sum identities on the extended reals behind the tiling of the aggregate and the padding of the perceptron.

  * Cutting the 10000 columns of the inner sum into six blocks of 1664 and a remainder of 16 changes nothing: addition of
    extended reals is commutative and associative, so a finite sum may be regrouped freely.
  * Widening the hidden layer from 1025 to 1152 units changes nothing when the added units' outgoing weights are zero:
    each added term is a product with zero, and `x * 0 = 0` for every extended real `x`, the infinities included.
-/
import proofs.«116033_j56633438765547_2_alg».proof.Proof.Spec

noncomputable section

open scoped BigOperators

namespace Cert.Spec

open Idealize.ShloMosaic Idealize.ShloMosaic.ValueIdx

/-- The last 16 columns' part of every node's inner sum. -/
def tail (A : FVec Ideal ⟨2, ![10000, 10000]⟩ .f32) (E : FVec Ideal ⟨2, ![10000, 256]⟩ .f32) : FVec Ideal ⟨2, ![10000, 256]⟩ .f32 :=
  fun i => ∑ q : Fin 16, A (ix2 (i 0) (⟨9984 + q.val, by omega⟩ : Fin 10000)) * E (ix2 (⟨9984 + q.val, by omega⟩ : Fin 10000) (i 1))

/-! ## Regrouping a finite sum in a commutative monoid -/

/-- A sum over the first `n * m` naturals is the sum of `m` consecutive blocks of `n`. -/
theorem sum_range_blocks {M : Type*} [AddCommMonoid M] (g : ℕ → M) (n : ℕ) :
    ∀ m : ℕ, ∑ x ∈ Finset.range (n * m), g x = ∑ i ∈ Finset.range m, ∑ j ∈ Finset.range n, g (n * i + j)
  | 0 => by simp
  | m + 1 => by
    rw [Nat.mul_succ, Finset.sum_range_add, sum_range_blocks g n m, Finset.sum_range_succ]

/-- The 10000 columns are six blocks of 1664 followed by a remainder of 16: the sum over all of them is the sum of the
    seven partial sums. The function is first extended to all naturals, where sums over initial segments split by
    `Finset.sum_range_add`. -/
theorem sum_cols {M : Type*} [AddCommMonoid M] (f : Fin 10000 → M) :
    ∑ n : Fin 10000, f n
      = (∑ kb : Fin 6, ∑ j : Fin 1664, f ⟨1664 * kb.val + j.val, by omega⟩) + ∑ q : Fin 16, f ⟨9984 + q.val, by omega⟩ := by
  obtain ⟨g, hg⟩ : ∃ g : ℕ → M, ∀ (n : ℕ) (h : n < 10000), f ⟨n, h⟩ = g n :=
    ⟨fun n => if h : n < 10000 then f ⟨n, h⟩ else 0, fun n h => by simp only [dif_pos h]⟩
  have e1 : ∑ n : Fin 10000, f n = ∑ n : Fin 10000, g n.val := Finset.sum_congr rfl fun n _ => hg n.val n.isLt
  have e2 : (∑ kb : Fin 6, ∑ j : Fin 1664, f ⟨1664 * kb.val + j.val, by omega⟩)
      = ∑ i ∈ Finset.range 6, ∑ j ∈ Finset.range 1664, g (1664 * i + j) := by
    rw [← Fin.sum_univ_eq_sum_range (fun i => ∑ j ∈ Finset.range 1664, g (1664 * i + j)) 6]
    refine Finset.sum_congr rfl fun kb _ => ?_
    rw [← Fin.sum_univ_eq_sum_range (fun j => g (1664 * kb.val + j)) 1664]
    exact Finset.sum_congr rfl fun j _ => hg _ _
  have e3 : ∑ q : Fin 16, f ⟨9984 + q.val, by omega⟩ = ∑ q ∈ Finset.range 16, g (9984 + q) := by
    rw [← Fin.sum_univ_eq_sum_range (fun q => g (9984 + q)) 16]
    exact Finset.sum_congr rfl fun q _ => hg _ _
  have e4 : ∑ x ∈ Finset.range 10000, g x = ∑ x ∈ Finset.range 9984, g x + ∑ q ∈ Finset.range 16, g (9984 + q) :=
    Finset.sum_range_add g 9984 16
  have e5 : ∑ x ∈ Finset.range 9984, g x = ∑ i ∈ Finset.range 6, ∑ j ∈ Finset.range 1664, g (1664 * i + j) :=
    sum_range_blocks g 1664 6
  rw [e1, e2, e3, Fin.sum_univ_eq_sum_range g 10000, e4, e5]

/-- Of 1152 terms of which all from the 1025th on are zero, only the first 1025 count. -/
theorem sum_pad {M : Type*} [AddCommMonoid M] (f : Fin 1152 → M) (h0 : ∀ j : Fin 1152, 1025 ≤ j.val → f j = 0) :
    ∑ j : Fin 1152, f j = ∑ j : Fin 1025, f ⟨j.val, by omega⟩ := by
  obtain ⟨g, hg⟩ : ∃ g : ℕ → M, ∀ (n : ℕ) (h : n < 1152), f ⟨n, h⟩ = g n :=
    ⟨fun n => if h : n < 1152 then f ⟨n, h⟩ else 0, fun n h => by simp only [dif_pos h]⟩
  have e1 : ∑ j : Fin 1152, f j = ∑ j : Fin 1152, g j.val := Finset.sum_congr rfl fun j _ => hg j.val j.isLt
  have e2 : ∑ j : Fin 1025, f ⟨j.val, by omega⟩ = ∑ j : Fin 1025, g j.val := Finset.sum_congr rfl fun j _ => hg _ _
  have e3 : ∑ x ∈ Finset.range 1152, g x = ∑ x ∈ Finset.range 1025, g x + ∑ q ∈ Finset.range 127, g (1025 + q) :=
    Finset.sum_range_add g 1025 127
  have e4 : ∑ q ∈ Finset.range 127, g (1025 + q) = 0 := by
    refine Finset.sum_eq_zero fun q hq => ?_
    have hq' : 1025 + q < 1152 := by have := Finset.mem_range.mp hq; omega
    rw [← hg _ hq']
    exact h0 ⟨1025 + q, hq'⟩ (Nat.le_add_right 1025 q)
  rw [e1, e2, Fin.sum_univ_eq_sum_range g 1152, Fin.sum_univ_eq_sum_range g 1025, e3, e4, add_zero]

/-! ## The two identities -/

/-- Six blocks of 1664 columns and the remainder of 16 make the whole inner sum: the tiled aggregate is the aggregate. -/
theorem R0out_tail (A : FVec Ideal ⟨2, ![10000, 10000]⟩ .f32) (E : FVec Ideal ⟨2, ![10000, 256]⟩ .f32) (r : Fin 10000) (d : Fin 256) :
    R0out A E (tail A E) (ix2 r d) = agg A E r d := by
  unfold R0out tail agg
  rw [sum_cols (fun n => A (ix2 r n) * E (ix2 n d)), add_right_comm]

/-- The perceptron at the padded width is the perceptron: the padded weights and bias agree with the given ones on the
    first 1025 hidden units and are zero on the other 127. -/
theorem R1out_padded {φx φ1 φ2 : FTy} (X : FVec Ideal ⟨2, ![8192, 512]⟩ φx)
    (W1 : FVec Ideal ⟨2, ![512, 1025]⟩ .f32) (b1 : FVec Ideal ⟨1, ![1025]⟩ .f32)
    (W2 : FVec Ideal ⟨2, ![1025, 2]⟩ .f32) (b2 : FVec Ideal ⟨1, ![2]⟩ .f32)
    (W1p : FVec Ideal ⟨2, ![512, 1152]⟩ φ1) (B1p : FVec Ideal ⟨2, ![1, 1152]⟩ .f32)
    (W2p : FVec Ideal ⟨2, ![1152, 2]⟩ φ2) (B2p : FVec Ideal ⟨2, ![1, 2]⟩ .f32)
    (hW1 : ∀ (k : Fin 512) (j : Fin 1152), (W1p (ix2 k j) : EReal) = if h : j.val < 1025 then W1 (ix2 k ⟨j.val, h⟩) else 0)
    (hB1 : ∀ j : Fin 1152, (B1p (ix2 (0 : Fin 1) j) : EReal) = if h : j.val < 1025 then b1 (ix1 ⟨j.val, h⟩) else 0)
    (hW2 : ∀ (j : Fin 1152) (o : Fin 2), (W2p (ix2 j o) : EReal) = if h : j.val < 1025 then W2 (ix2 ⟨j.val, h⟩ o) else 0)
    (hB2 : ∀ o : Fin 2, (B2p (ix2 (0 : Fin 1) o) : EReal) = b2 (ix1 o)) (b : Fin 8192) (o : Fin 2) :
    R1out X W1p B1p W2p B2p (ix2 b o)
      = (∑ j : Fin 1025, max ((∑ k : Fin 512, (X (ix2 b k) : EReal) * W1 (ix2 k j)) + b1 (ix1 j)) 0 * W2 (ix2 j o)) + b2 (ix1 o) := by
  -- the added hidden units contribute a product with a zero weight each
  have hsum := sum_pad
    (fun j : Fin 1152 => max ((∑ k : Fin 512, (X (ix2 b k) : EReal) * W1p (ix2 k j)) + B1p (ix2 (0 : Fin 1) j)) (0 : EReal)
      * W2p (ix2 j o))
    (fun j hj => by
      show _ * (W2p (ix2 j o) : EReal) = 0
      rw [hW2 j o, dif_neg (by omega), mul_zero])
  -- on the first 1025 hidden units the padded arrays are the given ones
  have hterm : ∀ j : Fin 1025,
      max ((∑ k : Fin 512, (X (ix2 b k) : EReal) * W1p (ix2 k (⟨j.val, by omega⟩ : Fin 1152)))
          + B1p (ix2 (0 : Fin 1) (⟨j.val, by omega⟩ : Fin 1152))) (0 : EReal) * W2p (ix2 (⟨j.val, by omega⟩ : Fin 1152) o)
        = max ((∑ k : Fin 512, (X (ix2 b k) : EReal) * W1 (ix2 k j)) + b1 (ix1 j)) 0 * W2 (ix2 j o) := by
    intro j
    have hj : (⟨j.val, by omega⟩ : Fin 1152).val < 1025 := j.isLt
    have w1 : ∀ k : Fin 512, (W1p (ix2 k (⟨j.val, by omega⟩ : Fin 1152)) : EReal) = W1 (ix2 k j) := fun k => by
      rw [hW1, dif_pos hj]
    have bb : (B1p (ix2 (0 : Fin 1) (⟨j.val, by omega⟩ : Fin 1152)) : EReal) = b1 (ix1 j) := by rw [hB1, dif_pos hj]
    have w2 : (W2p (ix2 (⟨j.val, by omega⟩ : Fin 1152) o) : EReal) = W2 (ix2 j o) := by rw [hW2, dif_pos hj]
    rw [bb, w2, Finset.sum_congr rfl fun k _ => by rw [w1 k]]
  calc R1out X W1p B1p W2p B2p (ix2 b o)
      = (∑ j : Fin 1152, max ((∑ k : Fin 512, (X (ix2 b k) : EReal) * W1p (ix2 k j)) + B1p (ix2 (0 : Fin 1) j)) (0 : EReal)
          * W2p (ix2 j o)) + B2p (ix2 (0 : Fin 1) o) := rfl
    _ = _ := by rw [hsum, hB2 o, Finset.sum_congr rfl fun j _ => hterm j]

end Cert.Spec

end
-- ==== Proof.LibGatherRows.lean ====
/-
  A gather of whole rows, read at an entry.

  `x[ids]` of a table `x : [N, D]` at a column of row numbers `ids : [E, 1]` lowers to a `stablehlo.gather` with offset
  axis 1, collapsed axis 0, start index map `[0]`, index vector axis 1 and slice sizes `[1, D]`. Entry `(e, q)` of the
  result is the table at row `ids[e]` — read signed and clamped into `[0, N − 1]`, as the gather clamps every start
  index — and column `q`. The row depends on the edge `e` alone, never on the column `q`.
-/
import Idealize.ShloMosaic.PureOps.Ideal
import Idealize.ShloMosaic.Lib.ValueIdx

noncomputable section

namespace Cert.GatherRows

open Idealize.ShloMosaic Idealize.ShloMosaic.ValueIdx

/-- Those dimension numbers for a table `[N, D]`, row numbers `[E, 1]` and a result `[E, D]`. -/
abbrev rowsDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The table row edge `e` reads: its row number, read signed and clamped into the table. -/
def rowOf {N E w : Nat} (hN : 0 < N) (idx : IVec ⟨2, ![E, 1]⟩ w) (e : Fin E) : Fin N :=
  ⟨min (idx (ix2 e (0 : Fin 1))).toInt.toNat (N - 1), by omega⟩

variable {α : Type}

/-- THE GATHER READ AT `(e, q)`: the table at the clamped row of edge `e` and column `q`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowsDims N E D wf) x idx (ix2 e q) = x (ix2 (rowOf hN idx e) q) := by
  have hs0 : (rowsDims N E D wf).start (ix2 e q) idx 0 = (rowOf hN idx e).val := by
    unfold GatherDims.start
    rw [dif_pos (show (0 : Fin 2) ∈ (rowsDims N E D wf).startIndexMap from List.mem_singleton.mpr rfl)]
    have hsi : (rowsDims N E D wf).siIdx (ix2 e q) ⟨List.idxOf (0 : Fin 2) (rowsDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have ho0 : (rowsDims N E D wf).offCoord (ix2 e q) 0 = 0 :=
    GatherDims.offCoord_eq_zero _ _ _ (fun h => ((GatherDims.mem_sKept _ _).mp h).1 (List.mem_singleton.mpr rfl))
  have hs1 : (rowsDims N E D wf).start (ix2 e q) idx 1 = 0 := by
    unfold GatherDims.start
    rw [dif_neg (show ¬ (1 : Fin 2) ∈ (rowsDims N E D wf).startIndexMap by
      show ¬ (1 : Fin 2) ∈ [(0 : Fin 2)]; decide)]
  have ho1 : (rowsDims N E D wf).offCoord (ix2 e q) 1 = q.val := by
    unfold GatherDims.offCoord
    rw [dif_pos (show (1 : Fin 2) ∈ (rowsDims N E D wf).sKept by
      show (1 : Fin 2) ∈ (List.finRange 2).filter (fun a => a ∉ ([(0 : Fin 2)] ++ [])); decide)]
    rfl
  unfold Host.gather
  congr 1
  funext a
  refine Fin.ext ?_
  match a with
  | ⟨0, _⟩ =>
    show (rowsDims N E D wf).start (ix2 e q) idx 0 + (rowsDims N E D wf).batchCoord (ix2 e q) 0
      + (rowsDims N E D wf).offCoord (ix2 e q) 0 = (rowOf hN idx e).val
    rw [GatherDims.batchCoord_eq_zero _ _ _ List.not_mem_nil, hs0, ho0]
    rfl
  | ⟨1, _⟩ =>
    show (rowsDims N E D wf).start (ix2 e q) idx 1 + (rowsDims N E D wf).batchCoord (ix2 e q) 1
      + (rowsDims N E D wf).offCoord (ix2 e q) 1 = q.val
    rw [GatherDims.batchCoord_eq_zero _ _ _ List.not_mem_nil, hs1, ho1]
    omega

end Cert.GatherRows

end
-- ==== Proof.HostValueMath.lean ====
/-
  The host-side operations of the tiled program, read at an entry, over arbitrary arrays of the literal shapes.

  * The remainder product: the last 16 columns of the adjacency matrix times the last 16 rows of the embeddings is, entry
    by entry, the last 16 columns' part of every node's inner sum.
  * The row numbers: the 8192 pairs flattened to 16384 entries, a negative one moved up by the table's height, laid out
    as one column; entry `e` is member `e % 2` of pair `e / 2`, normalised, and the table row it names (read signed and
    clamped) is the specification's row.
  * The features: the rows gathered from a table `Y`, two consecutive rows laid side by side; feature `k` of pair `b` is
    `Y` at the row of entry `2 b + k / 256` and column `k % 256`.
  * The perceptron's arrays widened by zeros from 1025 to 1152 hidden units: inside the given array its entry, outside
    it zero.
  * With these readings the padded perceptron on the gathered aggregates is the specified result.
-/
import proofs.«116033_j56633438765547_2_alg».proof.Proof.Spec
import proofs.«116033_j56633438765547_2_alg».proof.Proof.SpecAlgebra
import proofs.«116033_j56633438765547_2_alg».proof.Proof.LibGatherRows
import Idealize.ShloMosaic.Lib.StackMember
import Idealize.ShloMosaic.Lib.KernelVsHost
import Idealize.ShloMosaic.Lib.ValueIdx
import Idealize.ShloMosaic.Lib.ValueLayout
import Idealize.ShloMosaic.Lib.Pipeline.Value

noncomputable section

open scoped BigOperators

namespace Cert.HostMath

open Idealize.ShloMosaic Idealize.ShloMosaic.ValueIdx

/-! ## The remainder product -/

/-- The product of the adjacency matrix's last 16 columns with the embeddings' last 16 rows is the remainder of every
    node's inner sum. -/
theorem tail_read (A : FVec Ideal ⟨2, ![10000, 10000]⟩ .f32) (E : FVec Ideal ⟨2, ![10000, 256]⟩ .f32)
    (hA : (⟨2, ![10000, 10000]⟩ : Shape).Slices ![0, 9984] ⟨2, ![10000, 16]⟩)
    (hE : (⟨2, ![10000, 256]⟩ : Shape).Slices ![9984, 0] ⟨2, ![16, 256]⟩) :
    Host.dotGeneral (F := Ideal) (DotDims.plain 10000 16 256) none
      (extractStridedSlice ⟨2, ![10000, 16]⟩ ![0, 9984] A hA) (extractStridedSlice ⟨2, ![16, 256]⟩ ![9984, 0] E hE)
      = Cert.Spec.tail A E := by
  funext i
  obtain ⟨r, d, rfl⟩ : ∃ (r : Fin 10000) (d : Fin 256), i = ix2 r d := ⟨i 0, i 1, eq_ix2 i⟩
  rw [StackMember.dotGeneral_plain_apply]
  unfold Cert.Spec.tail
  refine Finset.sum_congr rfl fun q _ => ?_
  rw [slice2_axis1_eq, slice2_axis0_eq]

/-! ## The row numbers -/

/-- The pairs' row numbers flattened, normalised, and laid out as one column. -/
def idsCol (I : IVec ⟨2, ![8192, 2]⟩ 32) (hc : (⟨2, ![8192, 2]⟩ : Shape).ShapeCasts ⟨1, ![16384]⟩)
    (hb : (⟨0, ![]⟩ : Shape).BroadcastsInDim ⟨1, ![16384]⟩ (![] : Fin 0 → Fin 1))
    (hb1 : (⟨1, ![16384]⟩ : Shape).BroadcastsInDim ⟨2, ![16384, 1]⟩ (![0] : Fin 1 → Fin 2)) : IVec ⟨2, ![16384, 1]⟩ 32 :=
  broadcastInDim ⟨2, ![16384, 1]⟩ ![0] hb1
    (select (cmpi .slt (shapeCast ⟨1, ![16384]⟩ I hc) (broadcastInDim ⟨1, ![16384]⟩ ![] hb (constantI ⟨0, ![]⟩ 32 0#32)))
      (addi (shapeCast ⟨1, ![16384]⟩ I hc) (broadcastInDim ⟨1, ![16384]⟩ ![] hb (constantI ⟨0, ![]⟩ 32 10000#32)))
      (shapeCast ⟨1, ![16384]⟩ I hc))

/-- Entry `e` of the column is member `e % 2` of pair `e / 2`, normalised. -/
theorem idsCol_apply (I : IVec ⟨2, ![8192, 2]⟩ 32) (hc : (⟨2, ![8192, 2]⟩ : Shape).ShapeCasts ⟨1, ![16384]⟩)
    (hb : (⟨0, ![]⟩ : Shape).BroadcastsInDim ⟨1, ![16384]⟩ (![] : Fin 0 → Fin 1))
    (hb1 : (⟨1, ![16384]⟩ : Shape).BroadcastsInDim ⟨2, ![16384, 1]⟩ (![0] : Fin 1 → Fin 2)) (e : Fin 16384) :
    idsCol I hc hb hb1 (ix2 e (0 : Fin 1))
      = Cert.Spec.nrm (I (ix2 (⟨e.val / 2, by omega⟩ : Fin 8192) (⟨e.val % 2, by omega⟩ : Fin 2))) := by
  unfold idsCol
  refine (broadcastInDim_apply _ hb1 _ (ix2 e (0 : Fin 1)) (ix1 e) (fun a => ?_)).trans ?_
  · match a with
    | ⟨0, _⟩ => show e.val = if (16384 : Nat) = 1 then 0 else e.val; rw [if_neg (by decide)]
  · have h0 : shapeCast ⟨1, ![16384]⟩ I hc (ix1 e)
        = I (ix2 (⟨e.val / 2, by omega⟩ : Fin 8192) (⟨e.val % 2, by omega⟩ : Fin 2)) :=
      shapeCast_apply I hc _ _ (by
        rw [Shape.rowMajor_val_two, Shape.rowMajor_val_one]
        show e.val / 2 * 2 + e.val % 2 = e.val
        omega)
    show Scalar.select (IntOp.cmpi .slt (shapeCast ⟨1, ![16384]⟩ I hc (ix1 e)) 0#32)
        (IntOp.addi (shapeCast ⟨1, ![16384]⟩ I hc (ix1 e)) 10000#32) (shapeCast ⟨1, ![16384]⟩ I hc (ix1 e)) = _
    rw [h0]
    rfl

/-- The table row entry `e` of the column names, read signed and clamped, is the specification's row. -/
theorem rowOf_idsCol (I : IVec ⟨2, ![8192, 2]⟩ 32) (hc : (⟨2, ![8192, 2]⟩ : Shape).ShapeCasts ⟨1, ![16384]⟩)
    (hb : (⟨0, ![]⟩ : Shape).BroadcastsInDim ⟨1, ![16384]⟩ (![] : Fin 0 → Fin 1))
    (hb1 : (⟨1, ![16384]⟩ : Shape).BroadcastsInDim ⟨2, ![16384, 1]⟩ (![0] : Fin 1 → Fin 2)) (e : Fin 16384) :
    Cert.GatherRows.rowOf (N := 10000) (by decide) (idsCol I hc hb hb1) e = Cert.Spec.row I e := by
  refine Fin.ext ?_
  show min (idsCol I hc hb hb1 (ix2 e (0 : Fin 1))).toInt.toNat (10000 - 1) = _
  rw [idsCol_apply]
  rfl

/-! ## The features -/

/-- The rows of a table `Y` gathered at a column of row numbers, two consecutive rows side by side. -/
def feats (Y : FVec Ideal ⟨2, ![10000, 256]⟩ .f32) (ids : IVec ⟨2, ![16384, 1]⟩ 32)
    (wf : GatherDims.WF ⟨2, ![10000, 256]⟩ ⟨2, ![16384, 1]⟩ ⟨2, ![16384, 256]⟩ [1] [0] [] [0] [] 1 ![1, 256])
    (hs : (⟨2, ![16384, 256]⟩ : Shape).ShapeCasts ⟨2, ![8192, 512]⟩) (hlt : FTy.bf16.bits < FTy.f32.bits) :
    FVec Ideal ⟨2, ![8192, 512]⟩ .bf16 :=
  truncf .bf16 (shapeCast ⟨2, ![8192, 512]⟩ (Host.gather (Cert.GatherRows.rowsDims 10000 16384 256 wf) Y ids) hs) hlt

/-- Feature `k` of pair `b` is the table at the row of entry `2 b + k / 256` and column `k % 256`. -/
theorem feats_apply (Y : FVec Ideal ⟨2, ![10000, 256]⟩ .f32) (ids : IVec ⟨2, ![16384, 1]⟩ 32)
    (wf : GatherDims.WF ⟨2, ![10000, 256]⟩ ⟨2, ![16384, 1]⟩ ⟨2, ![16384, 256]⟩ [1] [0] [] [0] [] 1 ![1, 256])
    (hs : (⟨2, ![16384, 256]⟩ : Shape).ShapeCasts ⟨2, ![8192, 512]⟩) (hlt : FTy.bf16.bits < FTy.f32.bits)
    (b : Fin 8192) (k : Fin 512) :
    feats Y ids wf hs hlt (ix2 b k)
      = Y (ix2 (Cert.GatherRows.rowOf (N := 10000) (by decide) ids (⟨2 * b.val + k.val / 256, by omega⟩ : Fin 16384))
          (⟨k.val % 256, by omega⟩ : Fin 256)) := by
  unfold feats
  show shapeCast ⟨2, ![8192, 512]⟩ (Host.gather (Cert.GatherRows.rowsDims 10000 16384 256 wf) Y ids) hs (ix2 b k) = _
  refine (shapeCast_apply _ hs (ix2 b k)
    (ix2 (⟨2 * b.val + k.val / 256, by omega⟩ : Fin 16384) (⟨k.val % 256, by omega⟩ : Fin 256)) ?_).trans ?_
  · rw [Shape.rowMajor_val_two, Shape.rowMajor_val_two]
    show (2 * b.val + k.val / 256) * 256 + k.val % 256 = b.val * 512 + k.val
    omega
  · exact Cert.GatherRows.gather_rows_apply (by decide) wf Y ids _ _

/-! ## The widened arrays -/

/-- The integer constant 0 converted is the float zero. -/
theorem zeroPad_apply (i : (⟨0, ![]⟩ : Shape).Idx) :
    (sitofp (F := Ideal) .f32 (constantI ⟨0, ![]⟩ 32 0#32) : FVec Ideal ⟨0, ![]⟩ .f32) i = 0 := by
  show ((((0#32 : BitVec 32).toInt : ℤ) : ℝ) : EReal) = 0
  simp

/-- The first layer's weights widened by 127 zero columns. -/
theorem padW1_apply (W1 : FVec Ideal ⟨2, ![512, 1025]⟩ .f32) (z : FVec Ideal ⟨0, ![]⟩ .f32) (hz : ∀ i, z i = 0)
    (hp : (⟨2, ![512, 1025]⟩ : Shape).Pads (![0, 0] : Fin 2 → Nat) ![0, 127] ![0, 0] ⟨2, ![512, 1152]⟩)
    (hu : 0 < (⟨0, ![]⟩ : Shape).numel) (k : Fin 512) (j : Fin 1152) :
    pad ⟨2, ![512, 1152]⟩ ![0, 0] ![0, 127] ![0, 0] W1 z hp hu (ix2 k j)
      = if h : j.val < 1025 then W1 (ix2 k ⟨j.val, h⟩) else 0 := by
  by_cases h : j.val < 1025
  · rw [dif_pos h]
    exact pad_apply_of_inside _ _ _ W1 z hp hu (ix2 k j) (ix2 k ⟨j.val, h⟩) (fun a => by
      match a with
      | ⟨0, _⟩ => show k.val = 0 + k.val * (0 + 1); omega
      | ⟨1, _⟩ => show j.val = 0 + j.val * (0 + 1); omega)
  · rw [dif_neg h]
    refine (pad_apply_of_not_inside _ _ _ W1 z hp hu (ix2 k j) (1 : Fin 2) (fun hh => ?_)).trans (hz _)
    have h2 : (j.val - 0) / (0 + 1) < 1025 := hh.2.2
    omega

/-- The first layer's bias widened by 127 zeros. -/
theorem padB1_apply (b1 : FVec Ideal ⟨1, ![1025]⟩ .f32) (z : FVec Ideal ⟨0, ![]⟩ .f32) (hz : ∀ i, z i = 0)
    (hp : (⟨1, ![1025]⟩ : Shape).Pads (![0] : Fin 1 → Nat) ![127] ![0] ⟨1, ![1152]⟩)
    (hu : 0 < (⟨0, ![]⟩ : Shape).numel) (j : Fin 1152) :
    pad ⟨1, ![1152]⟩ ![0] ![127] ![0] b1 z hp hu (ix1 j)
      = if h : j.val < 1025 then b1 (ix1 ⟨j.val, h⟩) else 0 := by
  by_cases h : j.val < 1025
  · rw [dif_pos h]
    exact pad_apply_of_inside _ _ _ b1 z hp hu (ix1 j) (ix1 ⟨j.val, h⟩) (fun a => by
      match a with
      | ⟨0, _⟩ => show j.val = 0 + j.val * (0 + 1); omega)
  · rw [dif_neg h]
    refine (pad_apply_of_not_inside _ _ _ b1 z hp hu (ix1 j) (0 : Fin 1) (fun hh => ?_)).trans (hz _)
    have h2 : (j.val - 0) / (0 + 1) < 1025 := hh.2.2
    omega

/-- The second layer's weights widened by 127 zero rows. -/
theorem padW2_apply (W2 : FVec Ideal ⟨2, ![1025, 2]⟩ .f32) (z : FVec Ideal ⟨0, ![]⟩ .f32) (hz : ∀ i, z i = 0)
    (hp : (⟨2, ![1025, 2]⟩ : Shape).Pads (![0, 0] : Fin 2 → Nat) ![127, 0] ![0, 0] ⟨2, ![1152, 2]⟩)
    (hu : 0 < (⟨0, ![]⟩ : Shape).numel) (j : Fin 1152) (o : Fin 2) :
    pad ⟨2, ![1152, 2]⟩ ![0, 0] ![127, 0] ![0, 0] W2 z hp hu (ix2 j o)
      = if h : j.val < 1025 then W2 (ix2 ⟨j.val, h⟩ o) else 0 := by
  by_cases h : j.val < 1025
  · rw [dif_pos h]
    exact pad_apply_of_inside _ _ _ W2 z hp hu (ix2 j o) (ix2 ⟨j.val, h⟩ o) (fun a => by
      match a with
      | ⟨0, _⟩ => show j.val = 0 + j.val * (0 + 1); omega
      | ⟨1, _⟩ => show o.val = 0 + o.val * (0 + 1); omega)
  · rw [dif_neg h]
    refine (pad_apply_of_not_inside _ _ _ W2 z hp hu (ix2 j o) (0 : Fin 2) (fun hh => ?_)).trans (hz _)
    have h2 : (j.val - 0) / (0 + 1) < 1025 := hh.2.2
    omega

/-! ## The padded perceptron on the gathered aggregates is the result -/

/-- Given the features as the specification's and the four widened arrays' readings, the perceptron at the padded
    width is the specified result. -/
theorem perceptron_eq_G {φx φ1 φ2 : FTy} (I : IVec ⟨2, ![8192, 2]⟩ 32) (A : FVec Ideal ⟨2, ![10000, 10000]⟩ .f32)
    (E : FVec Ideal ⟨2, ![10000, 256]⟩ .f32) (W1 : FVec Ideal ⟨2, ![512, 1025]⟩ .f32) (b1 : FVec Ideal ⟨1, ![1025]⟩ .f32)
    (W2 : FVec Ideal ⟨2, ![1025, 2]⟩ .f32) (b2 : FVec Ideal ⟨1, ![2]⟩ .f32)
    (X : FVec Ideal ⟨2, ![8192, 512]⟩ φx) (W1p : FVec Ideal ⟨2, ![512, 1152]⟩ φ1) (B1p : FVec Ideal ⟨2, ![1, 1152]⟩ .f32)
    (W2p : FVec Ideal ⟨2, ![1152, 2]⟩ φ2) (B2p : FVec Ideal ⟨2, ![1, 2]⟩ .f32)
    (hX : ∀ (b : Fin 8192) (k : Fin 512), (X (ix2 b k) : EReal) = Cert.Spec.feat I A E b k)
    (hW1 : ∀ (k : Fin 512) (j : Fin 1152), (W1p (ix2 k j) : EReal) = if h : j.val < 1025 then W1 (ix2 k ⟨j.val, h⟩) else 0)
    (hB1 : ∀ j : Fin 1152, (B1p (ix2 (0 : Fin 1) j) : EReal) = if h : j.val < 1025 then b1 (ix1 ⟨j.val, h⟩) else 0)
    (hW2 : ∀ (j : Fin 1152) (o : Fin 2), (W2p (ix2 j o) : EReal) = if h : j.val < 1025 then W2 (ix2 ⟨j.val, h⟩ o) else 0)
    (hB2 : ∀ o : Fin 2, (B2p (ix2 (0 : Fin 1) o) : EReal) = b2 (ix1 o)) :
    Cert.Spec.R1out X W1p B1p W2p B2p = Cert.Spec.G I A E W1 b1 W2 b2 := by
  funext i
  obtain ⟨b, o, rfl⟩ : ∃ (b : Fin 8192) (o : Fin 2), i = ix2 b o := ⟨i 0, i 1, eq_ix2 i⟩
  rw [Cert.Spec.R1out_padded X W1 b1 W2 b2 W1p B1p W2p B2p hW1 hB1 hW2 hB2 b o]
  show _ = Cert.Spec.outAt I A E W1 b1 W2 b2 b o
  unfold Cert.Spec.outAt Cert.Spec.hidden
  refine congrArg (· + b2 (ix1 o)) (Finset.sum_congr rfl fun j _ => ?_)
  refine congrArg (fun x => max (x + b1 (ix1 j)) 0 * W2 (ix2 j o)) (Finset.sum_congr rfl fun k _ => ?_)
  rw [hX b k]

/-! ## The perceptron's operands as the program forms them -/

/-- The first layer's weights widened and narrowed to the product's format. -/
def W1pad (W1 : FVec Ideal ⟨2, ![512, 1025]⟩ .f32)
    (hp : (⟨2, ![512, 1025]⟩ : Shape).Pads (![0, 0] : Fin 2 → Nat) ![0, 127] ![0, 0] ⟨2, ![512, 1152]⟩)
    (hu : 0 < (⟨0, ![]⟩ : Shape).numel) (hlt : FTy.bf16.bits < FTy.f32.bits) : FVec Ideal ⟨2, ![512, 1152]⟩ .bf16 :=
  truncf .bf16 (pad ⟨2, ![512, 1152]⟩ ![0, 0] ![0, 127] ![0, 0] W1
    (sitofp (F := Ideal) .f32 (constantI ⟨0, ![]⟩ 32 0#32)) hp hu) hlt

theorem W1pad_apply (W1 : FVec Ideal ⟨2, ![512, 1025]⟩ .f32)
    (hp : (⟨2, ![512, 1025]⟩ : Shape).Pads (![0, 0] : Fin 2 → Nat) ![0, 127] ![0, 0] ⟨2, ![512, 1152]⟩)
    (hu : 0 < (⟨0, ![]⟩ : Shape).numel) (hlt : FTy.bf16.bits < FTy.f32.bits) (k : Fin 512) (j : Fin 1152) :
    (W1pad W1 hp hu hlt (ix2 k j) : EReal) = if h : j.val < 1025 then W1 (ix2 k ⟨j.val, h⟩) else 0 :=
  padW1_apply W1 _ zeroPad_apply hp hu k j

/-- The first layer's bias widened, as a one-row matrix. -/
def B1pad (b1 : FVec Ideal ⟨1, ![1025]⟩ .f32)
    (hp : (⟨1, ![1025]⟩ : Shape).Pads (![0] : Fin 1 → Nat) ![127] ![0] ⟨1, ![1152]⟩)
    (hu : 0 < (⟨0, ![]⟩ : Shape).numel) (hs : (⟨1, ![1152]⟩ : Shape).ShapeCasts ⟨2, ![1, 1152]⟩) :
    FVec Ideal ⟨2, ![1, 1152]⟩ .f32 :=
  shapeCast ⟨2, ![1, 1152]⟩ (pad ⟨1, ![1152]⟩ ![0] ![127] ![0] b1
    (sitofp (F := Ideal) .f32 (constantI ⟨0, ![]⟩ 32 0#32)) hp hu) hs

theorem B1pad_apply (b1 : FVec Ideal ⟨1, ![1025]⟩ .f32)
    (hp : (⟨1, ![1025]⟩ : Shape).Pads (![0] : Fin 1 → Nat) ![127] ![0] ⟨1, ![1152]⟩)
    (hu : 0 < (⟨0, ![]⟩ : Shape).numel) (hs : (⟨1, ![1152]⟩ : Shape).ShapeCasts ⟨2, ![1, 1152]⟩) (j : Fin 1152) :
    (B1pad b1 hp hu hs (ix2 (0 : Fin 1) j) : EReal) = if h : j.val < 1025 then b1 (ix1 ⟨j.val, h⟩) else 0 := by
  unfold B1pad
  rw [shapeCast_a_1a_apply]
  exact padB1_apply b1 _ zeroPad_apply hp hu j

/-- The second layer's weights widened and narrowed to the product's format. -/
def W2pad (W2 : FVec Ideal ⟨2, ![1025, 2]⟩ .f32)
    (hp : (⟨2, ![1025, 2]⟩ : Shape).Pads (![0, 0] : Fin 2 → Nat) ![127, 0] ![0, 0] ⟨2, ![1152, 2]⟩)
    (hu : 0 < (⟨0, ![]⟩ : Shape).numel) (hlt : FTy.bf16.bits < FTy.f32.bits) : FVec Ideal ⟨2, ![1152, 2]⟩ .bf16 :=
  truncf .bf16 (pad ⟨2, ![1152, 2]⟩ ![0, 0] ![127, 0] ![0, 0] W2
    (sitofp (F := Ideal) .f32 (constantI ⟨0, ![]⟩ 32 0#32)) hp hu) hlt

theorem W2pad_apply (W2 : FVec Ideal ⟨2, ![1025, 2]⟩ .f32)
    (hp : (⟨2, ![1025, 2]⟩ : Shape).Pads (![0, 0] : Fin 2 → Nat) ![127, 0] ![0, 0] ⟨2, ![1152, 2]⟩)
    (hu : 0 < (⟨0, ![]⟩ : Shape).numel) (hlt : FTy.bf16.bits < FTy.f32.bits) (j : Fin 1152) (o : Fin 2) :
    (W2pad W2 hp hu hlt (ix2 j o) : EReal) = if h : j.val < 1025 then W2 (ix2 ⟨j.val, h⟩ o) else 0 :=
  padW2_apply W2 _ zeroPad_apply hp hu j o

/-- The second layer's bias as a one-row matrix. -/
def B2row (b2 : FVec Ideal ⟨1, ![2]⟩ .f32) (hs : (⟨1, ![2]⟩ : Shape).ShapeCasts ⟨2, ![1, 2]⟩) :
    FVec Ideal ⟨2, ![1, 2]⟩ .f32 :=
  shapeCast ⟨2, ![1, 2]⟩ b2 hs

theorem B2row_apply (b2 : FVec Ideal ⟨1, ![2]⟩ .f32) (hs : (⟨1, ![2]⟩ : Shape).ShapeCasts ⟨2, ![1, 2]⟩) (o : Fin 2) :
    (B2row b2 hs (ix2 (0 : Fin 1) o) : EReal) = b2 (ix1 o) := by
  unfold B2row
  rw [shapeCast_a_1a_apply]

/-- THE CHAIN: with the gathered table holding every node's aggregate, the padded perceptron on the program's operands
    is the specified result. -/
theorem chain_eq_G (I : IVec ⟨2, ![8192, 2]⟩ 32) (A : FVec Ideal ⟨2, ![10000, 10000]⟩ .f32)
    (E : FVec Ideal ⟨2, ![10000, 256]⟩ .f32) (W1 : FVec Ideal ⟨2, ![512, 1025]⟩ .f32) (b1 : FVec Ideal ⟨1, ![1025]⟩ .f32)
    (W2 : FVec Ideal ⟨2, ![1025, 2]⟩ .f32) (b2 : FVec Ideal ⟨1, ![2]⟩ .f32)
    (Y : FVec Ideal ⟨2, ![10000, 256]⟩ .f32) (hY : ∀ (r : Fin 10000) (d : Fin 256), Y (ix2 r d) = Cert.Spec.agg A E r d)
    (hc : (⟨2, ![8192, 2]⟩ : Shape).ShapeCasts ⟨1, ![16384]⟩)
    (hb : (⟨0, ![]⟩ : Shape).BroadcastsInDim ⟨1, ![16384]⟩ (![] : Fin 0 → Fin 1))
    (hb1 : (⟨1, ![16384]⟩ : Shape).BroadcastsInDim ⟨2, ![16384, 1]⟩ (![0] : Fin 1 → Fin 2))
    (wf : GatherDims.WF ⟨2, ![10000, 256]⟩ ⟨2, ![16384, 1]⟩ ⟨2, ![16384, 256]⟩ [1] [0] [] [0] [] 1 ![1, 256])
    (hs : (⟨2, ![16384, 256]⟩ : Shape).ShapeCasts ⟨2, ![8192, 512]⟩) (hlt : FTy.bf16.bits < FTy.f32.bits)
    (hp1 : (⟨2, ![512, 1025]⟩ : Shape).Pads (![0, 0] : Fin 2 → Nat) ![0, 127] ![0, 0] ⟨2, ![512, 1152]⟩)
    (hu : 0 < (⟨0, ![]⟩ : Shape).numel)
    (hpb : (⟨1, ![1025]⟩ : Shape).Pads (![0] : Fin 1 → Nat) ![127] ![0] ⟨1, ![1152]⟩)
    (hsb : (⟨1, ![1152]⟩ : Shape).ShapeCasts ⟨2, ![1, 1152]⟩)
    (hp2 : (⟨2, ![1025, 2]⟩ : Shape).Pads (![0, 0] : Fin 2 → Nat) ![127, 0] ![0, 0] ⟨2, ![1152, 2]⟩)
    (hs2 : (⟨1, ![2]⟩ : Shape).ShapeCasts ⟨2, ![1, 2]⟩) :
    Cert.Spec.R1out (feats Y (idsCol I hc hb hb1) wf hs hlt) (W1pad W1 hp1 hu hlt) (B1pad b1 hpb hu hsb)
        (W2pad W2 hp2 hu hlt) (B2row b2 hs2)
      = Cert.Spec.G I A E W1 b1 W2 b2 :=
  perceptron_eq_G I A E W1 b1 W2 b2 _ _ _ _ _
    (fun b k => by
      rw [feats_apply, rowOf_idsCol, hY]
      rfl)
    (W1pad_apply W1 hp1 hu hlt) (B1pad_apply b1 hpb hu hsb) (W2pad_apply W2 hp2 hu hlt) (B2row_apply b2 hs2)

end Cert.HostMath

end
-- ==== Proof.HostValueRead.lean ====
/-
  What the tiled program's host operations leave in the buffers the second region reads, and in the remainder the first
  region adds: each buffer's contents after the host stretches, as one term of the launch contents and of what the first
  region left. Every operation's result is read off the fold of the stretches; the buffers no stretch writes are read
  back through the stretches unchanged.
-/
import proofs.«116033_j56633438765547_2_alg».proof.Proof.Gen.KernelIdeal.Regions
import proofs.«116033_j56633438765547_2_alg».proof.Proof.HostValueMath
import Idealize.ShloMosaic.Lib.StableHlo.Run

noncomputable section

namespace Cert.KernelIdeal.HostValue

open Idealize.ShloMosaic Idealize.ShloMosaic.TcCoe Idealize.ShloMosaic.ValueIdx
open Idealize.SL.Sem
open Cert.KernelIdeal Cert.KernelIdeal.Gen
open Idealize.ShloMosaic.StableHlo

variable (m : (ℓ : Loc nD τ sig) → Buf (Elt Ideal) ℓ) (outs : Outs (F := Ideal)) (c : Dev nD)

/-- After the first region its output array holds what the region left. -/
theorem V2_v4 : V2 m outs c main_v4 = outs 2 main_v4 c := by
  simp only [V2, Function.update_self]

/-- A buffer neither the first host stretch nor the first region writes holds its launch contents. -/
theorem V2_arg (r : Ref sig .tc) (h2 : r ∉ ([main_v4] : List (Ref sig .tc))) (h1 : r ∉ hostOps0_W) :
    V2 m outs c r = V0 m c r :=
  (V2_of m outs c r h2).trans (V1_of m c r h1)

/-- The flattened row numbers. -/
theorem v0_eq : V2 m outs c main_v0
    = shapeCast (s := S8192x2) (α := BitVec 32) S16384 (V0 m c main_arg0) shapeCasts_S8192x2_S16384 := by
  rw [V2_of m outs c main_v0 (by decide)]
  dsimp only [V1, hostOps0]
  after_results
  all_goals rfl

/-- The remainder product is the last 16 columns' part of every node's inner sum. -/
theorem v3_eq : V1 m c main_v3 = Cert.Spec.tail (V0 m c main_arg1) (V0 m c main_arg2) := by
  refine Eq.trans ?_ (Cert.HostMath.tail_read (V0 m c main_arg1) (V0 m c main_arg2)
    slices_S10000x10000_S10000x16_0_9984 slices_S10000x256_S16x256_9984_0)
  dsimp only [V1, hostOps0]
  after_results
  all_goals rfl

/-- The features: the rows of the first region's output gathered at the normalised row numbers, side by side. -/
theorem v16_eq : V9 m outs c main_v16
    = Cert.HostMath.feats (outs 2 main_v4 c)
        (Cert.HostMath.idsCol (V0 m c main_arg0) shapeCasts_S8192x2_S16384 bcast_S_S16384 bcast_S16384_S16384x1_0)
        gather_S10000x256_S16384x1_S16384x256_1_0_n_n_0_1_1256_wf shapeCasts_S16384x256_S8192x512 bitsLt_bf16_f32 := by
  dsimp only [V9, hostOps1_6]
  after_results
  rw [V2_v4, v0_eq]
  all_goals rfl

/-- The first layer's weights widened by zero columns, in the product's format. -/
theorem v17_eq : V9 m outs c main_v17
    = Cert.HostMath.W1pad (V0 m c main_arg3) pads_S512x1025_S512x1152_000_01270 h_S_ bitsLt_bf16_f32 := by
  dsimp only [V9, hostOps1_6]
  after_results
  rw [V2_arg m outs c main_arg3 (by decide) (by decide)]
  all_goals rfl

/-- The first layer's bias widened by zeros, as a one-row matrix. -/
theorem v19_eq : V9 m outs c main_v19
    = Cert.HostMath.B1pad (V0 m c main_arg4) pads_S1025_S1152_01270 h_S_ shapeCasts_S1152_S1x1152 := by
  dsimp only [V9, hostOps1_6]
  after_results
  rw [V2_arg m outs c main_arg4 (by decide) (by decide)]
  all_goals rfl

/-- The second layer's weights widened by zero rows, in the product's format. -/
theorem v18_eq : V9 m outs c main_v18
    = Cert.HostMath.W2pad (V0 m c main_arg5) pads_S1025x2_S1152x2_01270_000 h_S_ bitsLt_bf16_f32 := by
  dsimp only [V9, hostOps1_6]
  after_results
  rw [V2_arg m outs c main_arg5 (by decide) (by decide)]
  all_goals rfl

/-- The second layer's bias as a one-row matrix. -/
theorem v20_eq : V9 m outs c main_v20 = Cert.HostMath.B2row (V0 m c main_arg6) shapeCasts_S2_S1x2 := by
  dsimp only [V9, hostOps1_6]
  after_results
  rw [V2_arg m outs c main_arg6 (by decide) (by decide)]
  all_goals rfl

end Cert.KernelIdeal.HostValue

end
-- ==== Proof.HostValue.lean ====
/-
  The tiled program's result is the specified result, given what its two regions leave.

  The first region leaves every node's aggregate with the inner sum cut into blocks and the separately computed
  remainder added; the remainder the host computed is the last 16 columns' part of the sum, so the blocks and the
  remainder make the whole sum. The rows the host gathers from it, two side by side, are the pairs' features. The second
  region leaves the perceptron at the padded hidden width on those features and on the weights and biases widened by
  zeros; the added hidden units contribute products with zero, so that is the perceptron at the given width.
-/
import proofs.«116033_j56633438765547_2_alg».proof.Proof.HostValueRead

noncomputable section

namespace Cert.KernelIdeal.HostValue

open Idealize.ShloMosaic Idealize.ShloMosaic.TcCoe Idealize.ShloMosaic.ValueIdx
open Idealize.SL.Sem
open Cert.KernelIdeal Cert.KernelIdeal.Gen

/-- THE HOST CHAIN: if the first region leaves the tiled aggregate (on the host's remainder product) and the second
    region leaves the padded perceptron (on the host's operands), the program's result array holds the specified
    result of the seven argument arrays. -/
theorem result_eq_G (m : (ℓ : Loc nD τ sig) → Buf (Elt Ideal) ℓ) (outs : Outs (F := Ideal)) (c : Dev nD)
    (h0 : outs 2 main_v4 c = Cert.Spec.R0out (V1 m c main_arg1) (V1 m c main_arg2) (V1 m c main_v3))
    (h1 : outs 10 main_v21 c = Cert.Spec.R1out (φx := .bf16) (φ1 := .bf16) (φ2 := .bf16) (V9 m outs c main_v16)
      (V9 m outs c main_v17) (V9 m outs c main_v19) (V9 m outs c main_v18) (V9 m outs c main_v20)) :
    V10 m outs c main_v21
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  have e10 : V10 m outs c main_v21 = outs 10 main_v21 c := by
    simp only [V10, Function.update_self]
  rw [e10, h1, v16_eq, v17_eq, v19_eq, v18_eq, v20_eq]
  exact Cert.HostMath.chain_eq_G (V0 m c main_arg0) (V0 m c main_arg1) (V0 m c main_arg2) (V0 m c main_arg3)
    (V0 m c main_arg4) (V0 m c main_arg5) (V0 m c main_arg6) (outs 2 main_v4 c)
    (fun r d => by
      rw [h0, V1_of m c main_arg1 (by decide), V1_of m c main_arg2 (by decide), v3_eq]
      exact Cert.Spec.R0out_tail _ _ r d)
    _ _ _ _ _ _ _ _ _ _ _ _

end Cert.KernelIdeal.HostValue

end
-- ==== Proof.KiMain.lean ====
/-
  The tiled program's frame and value.

  The program is two kernel regions between stretches of host operations. Each region's record, entered from the contents
  before it and left at the contents after it, gives the whole run: every weakly fair execution terminates with every
  unscoped buffer at the last valuation. No item writes an argument array, so each ends as launched. On the extended
  reals the result array ends at the specified result: cutting the inner sum into blocks and a remainder only regroups
  a finite sum, and the hidden units added by the padding contribute products with zero.
-/
import proofs.«116033_j56633438765547_2_alg».proof.Proof.KiSegs
import proofs.«116033_j56633438765547_2_alg».proof.Proof.KiLaunch
import proofs.«116033_j56633438765547_2_alg».proof.Proof.KiReg0Value
import proofs.«116033_j56633438765547_2_alg».proof.Proof.KiReg1Value
import proofs.«116033_j56633438765547_2_alg».proof.Proof.HostValue

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

/-- THE FRAME: every weakly fair execution of the program from memory `m` with zero counters terminates, and every
    argument array ends as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_records m ρ (reg0 m) (fun _ => .rfl) (fun _ => .rfl) (reg1 m) (fun _ => .rfl) (fun _ => .rfl)

/-- What the last valuation holds at the result array, on the extended reals: the first region leaves the tiled
    aggregate on the host's remainder product, the second the padded perceptron on the host's operands, and the host
    chain between them makes that the specified result. -/
theorem result_value (m : (ℓ : Loc nD τ sig) → Buf (Elt Ideal) ℓ) (c : Dev nD) :
    V10 m (outs m) c main_v21 = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  Cert.KernelIdeal.HostValue.result_eq_G m (outs m) c
    ((outs_2 m c).trans (Cert.KernelIdeal.Reg0.final (Ve0 m) c))
    ((outs_10 m c).trans ((Cert.KernelIdeal.Reg1.final (Ve1 m) c).trans (by rw [V9_outs])))

/-- THE VALUE: on the extended reals every weakly fair execution terminates with the result array at the specified
    result of the seven argument arrays, and every argument array as launched. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v21) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_value m c), (h c).2⟩)
    (value_of_records m ρ (reg0 m) (fun _ => .rfl) (fun _ => .rfl) (reg1 m) (fun _ => .rfl) (fun _ => .rfl))

end Cert.KernelIdeal.Run

end
-- ==== Proof.RefValue.lean ====
/-
  The reference program computes the specified result.

  Read one entry at a time, from the result backwards. The list of pairs is flattened to 16384 row numbers, entry `e`
  being member `e % 2` of pair `e / 2`; each is normalised as indexing normalises it (a negative one counts from the end
  of the 10000 rows) and laid as a column. Gathering whole rows of the adjacency matrix and of the embeddings at that
  column reads, at entry `e`, row `row e` of each (the row number read signed and clamped into the table). The product
  of the gathered adjacency rows with the embeddings, plus the gathered embeddings, is therefore the aggregate of node
  `row e`. Reshaping `[16384, 256]` to `[8192, 512]` puts, at `(b, k)`, the entry `(2 b + k / 256, k % 256)`: the
  pair's two aggregates side by side. The two dense layers are sums over the contracted axis plus the bias of the
  column, the bias vector being broadcast first to one row and then down the rows; the rectifier is the maximum with the
  broadcast zero constant, whose word encodes the extended real `0`.
-/
import proofs.«116033_j56633438765547_2_alg».proof.Proof.Gen.ReferenceIdeal.Read
import proofs.«116033_j56633438765547_2_alg».proof.Proof.Spec
import proofs.«116033_j56633438765547_2_alg».proof.Proof.LibGatherRows
import proofs.«116033_j56633438765547_2_alg».proof.Proof.LibRowOps

noncomputable section

open scoped BigOperators

namespace Cert.RefValue

open Cert.ReferenceIdeal Cert.ReferenceIdeal.Gen Cert.ReferenceIdeal.Read Idealize.ShloMosaic Idealize.ShloMosaic.ValueIdx

/-! ## The row numbers -/

/-- Entry `e` of the flattened list of pairs is member `e % 2` of pair `e / 2`. -/
theorem flat_apply (x0 : (⟨S8192x2, .i32⟩ : BufTy).Contents (Elt Ideal)) (e : Fin 16384) :
    val_main_v0 (F := Ideal) x0 (ix1 e) = x0 (ix2 (⟨e.val / 2, by omega⟩ : Fin 8192) (⟨e.val % 2, by omega⟩ : Fin 2)) := by
  rw [val_main_v0_apply]
  refine congrArg x0 (funext fun a => ?_)
  match a with
  | ⟨0, _⟩ => rfl
  | ⟨1, _⟩ => rfl

/-- Entry `e` of the normalised list (the one the adjacency rows are gathered at). -/
theorem norm_apply (x0 : (⟨S8192x2, .i32⟩ : BufTy).Contents (Elt Ideal)) (e : Fin 16384) :
    val_main_v5 (F := Ideal) x0 (ix1 e) = Spec.nrm (x0 (ix2 (⟨e.val / 2, by omega⟩ : Fin 8192) (⟨e.val % 2, by omega⟩ : Fin 2))) := by
  rw [val_main_v5_apply, val_main_v2_apply, val_main_v4_apply, val_main_v1_apply, val_main_v3_apply, val_main_c_apply,
    val_main_c_0_apply, flat_apply]
  rfl

/-- The normalised list laid as a column, at row `e`. -/
theorem col_apply (x0 : (⟨S8192x2, .i32⟩ : BufTy).Contents (Elt Ideal)) (e : Fin 16384) :
    val_main_v6 (F := Ideal) x0 (ix2 e (0 : Fin 1)) = Spec.nrm (x0 (ix2 (⟨e.val / 2, by omega⟩ : Fin 8192) (⟨e.val % 2, by omega⟩ : Fin 2))) := by
  have h : idx_main_v6 (ix2 e (0 : Fin 1)) = ix1 e := funext fun a => by
    match a with
    | ⟨0, _⟩ => rfl
  rw [val_main_v6_apply, h, norm_apply]

/-- The program normalises the list a second time, for the gather of the embeddings, by the same operations on the same
    list: the two columns are one array. -/
theorem col_again (x0 : (⟨S8192x2, .i32⟩ : BufTy).Contents (Elt Ideal)) : val_main_v14 (F := Ideal) x0 = val_main_v6 (F := Ideal) x0 := rfl

/-- The table row the gathers read at entry `e` is the specification's `row`. -/
theorem rowOf_eq (x0 : (⟨S8192x2, .i32⟩ : BufTy).Contents (Elt Ideal)) (e : Fin 16384) :
    GatherRows.rowOf (N := 10000) (by decide) (val_main_v6 (F := Ideal) x0) e = Spec.row x0 e := by
  refine Fin.ext ?_
  show min (val_main_v6 (F := Ideal) x0 (ix2 e (0 : Fin 1))).toInt.toNat (10000 - 1)
    = min (Spec.nrm (x0 (ix2 (⟨e.val / 2, by omega⟩ : Fin 8192) (⟨e.val % 2, by omega⟩ : Fin 2)))).toInt.toNat 9999
  rw [col_apply]

/-! ## The two gathers -/

/-- The printed dimension numbers of the gather of adjacency rows are those of a gather of whole rows. -/
theorem gatherAdj_eq : gather_S10000x10000_S16384x1_S16384x10000_1_0_n_n_0_1_110000 = GatherRows.rowsDims 10000 16384 10000 gather_S10000x10000_S16384x1_S16384x10000_1_0_n_n_0_1_110000_wf := rfl

/-- The printed dimension numbers of the gather of embedding rows are those of a gather of whole rows. -/
theorem gatherEmb_eq : gather_S10000x256_S16384x1_S16384x256_1_0_n_n_0_1_1256 = GatherRows.rowsDims 10000 16384 256 gather_S10000x256_S16384x1_S16384x256_1_0_n_n_0_1_1256_wf := rfl

/-- The gathered adjacency rows at `(e, n)`: row `row e` of the adjacency matrix, column `n`. -/
theorem adjRows_apply (x0 : (⟨S8192x2, .i32⟩ : BufTy).Contents (Elt Ideal)) (x1 : (⟨S10000x10000, .f32⟩ : BufTy).Contents (Elt Ideal)) (e : Fin 16384) (n : Fin 10000) :
    val_main_v7 (F := Ideal) x0 x1 (ix2 e n) = x1 (ix2 (Spec.row x0 e) n) := by
  unfold val_main_v7
  rw [gatherAdj_eq, GatherRows.gather_rows_apply (by decide : 0 < 10000), rowOf_eq]

/-- The gathered embeddings at `(e, d)`: row `row e` of the embeddings, feature `d`. -/
theorem embRows_apply (x0 : (⟨S8192x2, .i32⟩ : BufTy).Contents (Elt Ideal)) (x2 : (⟨S10000x256, .f32⟩ : BufTy).Contents (Elt Ideal)) (e : Fin 16384) (d : Fin 256) :
    val_main_v15 (F := Ideal) x0 x2 (ix2 e d) = x2 (ix2 (Spec.row x0 e) d) := by
  unfold val_main_v15
  rw [col_again, gatherEmb_eq, GatherRows.gather_rows_apply (by decide : 0 < 10000), rowOf_eq]

/-! ## The aggregate and the features -/

/-- The gathered adjacency rows times the embeddings, at `(e, d)`. -/
theorem neighbours_apply (x0 : (⟨S8192x2, .i32⟩ : BufTy).Contents (Elt Ideal)) (x1 : (⟨S10000x10000, .f32⟩ : BufTy).Contents (Elt Ideal)) (x2 : (⟨S10000x256, .f32⟩ : BufTy).Contents (Elt Ideal)) (e : Fin 16384) (d : Fin 256) :
    val_main_v8 (F := Ideal) x0 x1 x2 (ix2 e d) = ∑ n : Fin 10000, x1 (ix2 (Spec.row x0 e) n) * x2 (ix2 n d) := by
  rw [val_main_v8_apply]
  refine Finset.sum_congr rfl fun n _ => ?_
  have hl : lidx_main_v8 (ix2 e d) n = ix2 e n := funext fun a => by
    match a with
    | ⟨0, _⟩ => rfl
    | ⟨1, _⟩ => rfl
  have hr : ridx_main_v8 (ix2 e d) n = ix2 n d := funext fun a => by
    match a with
    | ⟨0, _⟩ => rfl
    | ⟨1, _⟩ => rfl
  rw [hl, hr, adjRows_apply]

/-- Entry `(e, d)` of the sum of the two: the aggregate of node `row e` at feature `d`. -/
theorem agg_apply (x0 : (⟨S8192x2, .i32⟩ : BufTy).Contents (Elt Ideal)) (x1 : (⟨S10000x10000, .f32⟩ : BufTy).Contents (Elt Ideal)) (x2 : (⟨S10000x256, .f32⟩ : BufTy).Contents (Elt Ideal)) (e : Fin 16384) (d : Fin 256) :
    val_main_v16 (F := Ideal) x0 x1 x2 (ix2 e d) = Spec.agg x1 x2 (Spec.row x0 e) d := by
  rw [val_main_v16_apply, neighbours_apply, embRows_apply, Ideal.addf_def]
  rfl

/-- The reshape to one row per pair, at `(b, k)`: the pair's feature `k`. -/
theorem feat_apply (x0 : (⟨S8192x2, .i32⟩ : BufTy).Contents (Elt Ideal)) (x1 : (⟨S10000x10000, .f32⟩ : BufTy).Contents (Elt Ideal)) (x2 : (⟨S10000x256, .f32⟩ : BufTy).Contents (Elt Ideal)) (b : Fin 8192) (k : Fin 512) :
    val_main_v17 (F := Ideal) x0 x1 x2 (ix2 b k) = Spec.feat x0 x1 x2 b k := by
  have h : idx_main_v17 (ix2 b k)
      = ix2 (⟨2 * b.val + k.val / 256, by omega⟩ : Fin 16384) (⟨k.val % 256, by omega⟩ : Fin 256) :=
    funext fun a => Fin.ext (by
      match a with
      | ⟨0, _⟩ => show (b.val * 512 + k.val) / 256 = 2 * b.val + k.val / 256; omega
      | ⟨1, _⟩ => show (b.val * 512 + k.val) % 256 = k.val % 256; omega)
  rw [val_main_v17_apply, h, agg_apply]
  rfl

/-! ## The perceptron -/

/-- The first layer before the rectifier, at `(b, j)`. -/
theorem layer1_apply (x0 : (⟨S8192x2, .i32⟩ : BufTy).Contents (Elt Ideal)) (x1 : (⟨S10000x10000, .f32⟩ : BufTy).Contents (Elt Ideal)) (x2 : (⟨S10000x256, .f32⟩ : BufTy).Contents (Elt Ideal)) (x3 : (⟨S512x1025, .f32⟩ : BufTy).Contents (Elt Ideal)) (x4 : (⟨S1025, .f32⟩ : BufTy).Contents (Elt Ideal)) (b : Fin 8192) (j : Fin 1025) :
    val_main_v21 (F := Ideal) x0 x1 x2 x3 x4 (ix2 b j)
      = (∑ k : Fin 512, Spec.feat x0 x1 x2 b k * x3 (ix2 k j)) + x4 (ix1 j) := by
  have hb : idx_main_v19 (idx_main_v20 (ix2 b j)) = ix1 j := funext fun a => by
    match a with
    | ⟨0, _⟩ => rfl
  rw [val_main_v21_apply, val_main_v18_apply, val_main_v20_apply, val_main_v19_apply, Ideal.addf_def, hb]
  refine congrArg (· + x4 (ix1 j)) (Finset.sum_congr rfl fun k _ => ?_)
  have hl : lidx_main_v18 (ix2 b j) k = ix2 b k := funext fun a => by
    match a with
    | ⟨0, _⟩ => rfl
    | ⟨1, _⟩ => rfl
  have hr : ridx_main_v18 (ix2 b j) k = ix2 k j := funext fun a => by
    match a with
    | ⟨0, _⟩ => rfl
    | ⟨1, _⟩ => rfl
  rw [hl, hr, feat_apply]

/-- The hidden layer at `(b, j)`: the rectifier is the maximum with the zero constant. -/
theorem hidden_apply (x0 : (⟨S8192x2, .i32⟩ : BufTy).Contents (Elt Ideal)) (x1 : (⟨S10000x10000, .f32⟩ : BufTy).Contents (Elt Ideal)) (x2 : (⟨S10000x256, .f32⟩ : BufTy).Contents (Elt Ideal)) (x3 : (⟨S512x1025, .f32⟩ : BufTy).Contents (Elt Ideal)) (x4 : (⟨S1025, .f32⟩ : BufTy).Contents (Elt Ideal)) (b : Fin 8192) (j : Fin 1025) :
    val_main_v22 (F := Ideal) x0 x1 x2 x3 x4 (ix2 b j) = Spec.hidden x0 x1 x2 x3 x4 b j := by
  rw [val_main_v22_apply, layer1_apply, val_main_call0_v0_apply, val_main_call0_cst_apply, Ideal.maximumf_def,
    Ideal.ofBits_def, Ideal.ofBits_zero_f32]
  rfl

/-- The result at `(b, o)`. -/
theorem out_apply (x0 : (⟨S8192x2, .i32⟩ : BufTy).Contents (Elt Ideal)) (x1 : (⟨S10000x10000, .f32⟩ : BufTy).Contents (Elt Ideal)) (x2 : (⟨S10000x256, .f32⟩ : BufTy).Contents (Elt Ideal)) (x3 : (⟨S512x1025, .f32⟩ : BufTy).Contents (Elt Ideal)) (x4 : (⟨S1025, .f32⟩ : BufTy).Contents (Elt Ideal)) (x5 : (⟨S1025x2, .f32⟩ : BufTy).Contents (Elt Ideal)) (x6 : (⟨S2, .f32⟩ : BufTy).Contents (Elt Ideal)) (b : Fin 8192) (o : Fin 2) :
    val_main_v26 (F := Ideal) x0 x1 x2 x3 x4 x5 x6 (ix2 b o) = Spec.outAt x0 x1 x2 x3 x4 x5 x6 b o := by
  have hb : idx_main_v24 (idx_main_v25 (ix2 b o)) = ix1 o := funext fun a => by
    match a with
    | ⟨0, _⟩ => rfl
  unfold Spec.outAt
  rw [val_main_v26_apply, val_main_v23_apply, val_main_v25_apply, val_main_v24_apply, Ideal.addf_def, hb]
  refine congrArg (· + x6 (ix1 o)) (Finset.sum_congr rfl fun j _ => ?_)
  have hl : lidx_main_v23 (ix2 b o) j = ix2 b j := funext fun a => by
    match a with
    | ⟨0, _⟩ => rfl
    | ⟨1, _⟩ => rfl
  have hr : ridx_main_v23 (ix2 b o) j = ix2 j o := funext fun a => by
    match a with
    | ⟨0, _⟩ => rfl
    | ⟨1, _⟩ => rfl
  rw [hl, hr, hidden_apply]

/-- THE REFERENCE IS THE SPECIFICATION: the reference program's result, as a function of its seven arguments, is `G`. -/
theorem ref_eq_G (x0 : (⟨S8192x2, .i32⟩ : BufTy).Contents (Elt Ideal)) (x1 : (⟨S10000x10000, .f32⟩ : BufTy).Contents (Elt Ideal)) (x2 : (⟨S10000x256, .f32⟩ : BufTy).Contents (Elt Ideal)) (x3 : (⟨S512x1025, .f32⟩ : BufTy).Contents (Elt Ideal)) (x4 : (⟨S1025, .f32⟩ : BufTy).Contents (Elt Ideal)) (x5 : (⟨S1025x2, .f32⟩ : BufTy).Contents (Elt Ideal)) (x6 : (⟨S2, .f32⟩ : BufTy).Contents (Elt Ideal)) :
    Cert.ReferenceIdeal.Read.val_main_v26 (F := Ideal) x0 x1 x2 x3 x4 x5 x6 = Cert.Spec.G x0 x1 x2 x3 x4 x5 x6 := by
  funext i
  obtain ⟨b, o, rfl⟩ : ∃ (b : Fin 8192) (o : Fin 2), i = ix2 b o := ⟨i 0, i 1, eq_ix2 i⟩
  exact out_apply x0 x1 x2 x3 x4 x5 x6 b o

end Cert.RefValue

end
-- ==== Proof.lean ====
/-
  The tiled program and its reference compute the same function of their seven argument arrays.

  For 8192 pairs of nodes of a 10000-node graph both form every needed node's aggregate `(A E)(r, ·) + E(r, ·)`, lay a
  pair's two aggregates side by side and apply a two-layer perceptron. The tiled program cuts the inner sum over the
  10000 columns into six blocks of 1664 and a remainder of 16, aggregates every node before it gathers the pairs' rows,
  and widens the hidden layer from 1025 to 1152 units with zero weights; the reference gathers first and keeps the given
  width. On the extended reals the two results are equal with no finiteness hypothesis: regrouping a finite sum uses only
  that addition is commutative and associative, and every added hidden unit contributes a product with zero, and
  `x * 0 = 0` for every extended real `x`, the infinities included. Each program terminates from every memory with its
  argument arrays as launched; the idealized program is the word-level one read on the extended reals, no operation
  rewritten.
-/
import proofs.«116033_j56633438765547_2_alg».proof.Defs
import proofs.«116033_j56633438765547_2_alg».proof.Proof.Gen.Kernel
import proofs.«116033_j56633438765547_2_alg».proof.Proof.Gen.KernelIdeal
import proofs.«116033_j56633438765547_2_alg».proof.Proof.Gen.ReferenceIdeal
import proofs.«116033_j56633438765547_2_alg».proof.Proof.Gen.ReferenceIdeal.Run
import proofs.«116033_j56633438765547_2_alg».proof.Proof.Gen.Pre_finite_inputs
import proofs.«116033_j56633438765547_2_alg».proof.Proof.KMain
import proofs.«116033_j56633438765547_2_alg».proof.Proof.KiMain
import proofs.«116033_j56633438765547_2_alg».proof.Proof.RefValue
import Idealize.ShloMosaic.Adequacy
import Idealize.ShloMosaic.Init

noncomputable section

namespace Cert.Proof

open Idealize.ShloMosaic Idealize.SL.Sem

/-- The word-level program terminates with its argument arrays as launched. -/
theorem frameK : Cert.frame_Kernel := fun m ρ _ => Cert.Kernel.Run.frame m ρ

/-- So does the idealized program. -/
theorem frameKi : Cert.frame_KernelIdeal := fun m ρ _ => Cert.KernelIdeal.Run.frame m ρ

/-- So does the reference: its run names every result and leaves every argument. -/
theorem frameRef : Cert.frame_ReferenceIdeal := fun m ρ _ =>
  (θ_run Cert.ReferenceIdeal.defs _ _).mono (fun _ h c => (h c).2) (Cert.ReferenceIdeal.Value.run (F := Ideal) m ρ)

/-- The idealized program is the word-level one's text read on the extended reals: no operation was rewritten. -/
theorem preservesK : Cert.preserves_Kernel_KernelIdeal := trivial

/-- On the extended reals, from memories that agree on the arguments, the tiled program's result array and the
    reference's both end at the specified result of the arguments. -/
theorem algebraicKi : Cert.algebraic_KernelIdeal_ReferenceIdeal := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Run.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.RefValue.ref_eq_G, (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frameK, frameKi, frameRef, preservesK, algebraicKi⟩

end Cert.Proof

end
